-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x32 : Shape := ⟨2, ![65536, 32]⟩
abbrev S65536x768 : Shape := ⟨2, ![65536, 768]⟩
abbrev S256x32 : Shape := ⟨2, ![256, 32]⟩
abbrev S256 : Shape := ⟨1, ![256]⟩
abbrev S256x768 : Shape := ⟨2, ![256, 768]⟩
abbrev S768x256 : Shape := ⟨2, ![768, 256]⟩
abbrev S768 : Shape := ⟨1, ![768]⟩
abbrev S256x256 : Shape := ⟨2, ![256, 256]⟩
abbrev S256x512 : Shape := ⟨2, ![256, 512]⟩
abbrev S2x256 : Shape := ⟨2, ![2, 256]⟩
abbrev S2 : Shape := ⟨1, ![2]⟩
abbrev S_ : Shape := ⟨0, ![]⟩

class Facts : Prop where
  bcast_S_S65536x32 : S_.BroadcastsInDim S65536x32 (![] : Fin 0 → Fin S65536x32.rank)
  reducesTo_S65536x32_S_d0_1 : S65536x32.ReducesTo [0, 1] S_
  h_S_ : 0 < S_.numel
  bcast_S_S65536x768 : S_.BroadcastsInDim S65536x768 (![] : Fin 0 → Fin S65536x768.rank)
  reducesTo_S65536x768_S_d0_1 : S65536x768.ReducesTo [0, 1] S_
  bcast_S_S256x32 : S_.BroadcastsInDim S256x32 (![] : Fin 0 → Fin S256x32.rank)
  reducesTo_S256x32_S_d0_1 : S256x32.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg18 : FVec F S2x256 .f32) (main_arg19 : FVec F S2 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S2x256 .f32 := Host.absf main_arg18
  let main_cst_34 : FVec F S_ .f32 := constant S_ .f32 0x7F800000#32
  let main_v90 : FVec F S2x256 .f32 := broadcastInDim S2x256 ![] bcast_S_S2x256 main_cst_34
  let main_v91 : IVec S2x256 1 := cmpf .olt main_v89 main_v90
  let main_c_35 : IVec S_ 1 := constantI S_ 1 1#1
  let main_v92 : IVec S_ 1 := (fun x v => Host.reduce IntOp.andi x v reducesTo_S2x256_S_d0_1 h_S_) main_v91 main_c_35
  let main_v93 : IVec S_ 1 := andi main_v88 main_v92
  let main_v94 : FVec F S2 .f32 := Host.absf main_arg19
  let main_cst_36 : FVec F S_ .f32 := constant S_ .f32 0x7F800000#32
  let main_v95 : FVec F S2 .f32 := broadcastInDim S2 ![] bcast_S_S2 main_cst_36
  let main_v96 : IVec S2 1 := cmpf .olt main_v94 main_v95
  let main_c_37 : IVec S_ 1 := constantI S_ 1 1#1
  let main_v97 : IVec S_ 1 := (fun x v => Host.reduce IntOp.andi x v reducesTo_S2_S_d0 h_S_) main_v96 main_c_37
  let main_v98 : IVec S_ 1 := andi main_v93 main_v97
  main_v98

def fn_part4 {F : FTy → Type} [FloatOps F] (main_arg14 : FVec F S256x512 .f32) (main_arg15 : FVec F S256 .f32) (main_arg16 : FVec F S256 .f32) (main_arg17 : FVec F S256 .f32) (main_arg18 : FVec F S2x256 .f32) (main_arg19 : FVec F S2 .f32) (main_v63 : IVec S_ 1) (main_v67 : IVec S_ 1) : IVec S_ 1 :=
  let main_v68 : IVec S_ 1 := andi main_v63 main_v67
  let main_v69 : FVec F S256x512 .f32 := Host.absf main_arg14
  let main_cst_26 : FVec F S_ .f32 := constant S_ .f32 0x7F800000#32
  let main_v70 : FVec F S256x512 .f32 := broadcastInDim S256x512 ![] bcast_S_S256x512 main_cst_26
  let main_v71 : IVec S256x512 1 := cmpf .olt main_v69 main_v70
  let main_c_27 : IVec S_ 1 := constantI S_ 1 1#1
  let main_v72 : IVec S_ 1 := (fun x v => Host.reduce IntOp.andi x v reducesTo_S256x512_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S768 .f32) (main_arg12 : FVec F S256x256 .f32) (main_arg13 : FVec F S256 .f32) (main_arg14 : FVec F S256x512 .f32) (main_arg15 : FVec F S256 .f32) (main_arg16 : FVec F S256 .f32) (main_arg17 : FVec F S256 .f32) (main_arg18 : FVec F S2x256 .f32) (main_arg19 : FVec F S2 .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S768 .f32 := Host.absf main_arg11
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_v63 main_v67

def fn_part2 {F : FTy → Type} [FloatOps F] (main_arg7 : FVec F S256 .f32) (main_arg8 : FVec F S256 .f32) (main_arg9 : FVec F S256 .f32) (main_arg10 : FVec F S768x256 .f32) (main_arg11 : FVec F S768 .f32) (main_arg12 : FVec F S256x256 .f32) (main_arg13 : FVec F S256 .f32) (main_arg14 : FVec F S256x512 .f32) (main_arg15 : FVec F S256 .f32) (main_arg16 : FVec F S256 .f32) (main_arg17 : FVec F S256 .f32) (main_arg18 : FVec F S2x256 .f32) (main_arg19 : FVec F S2 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S768x256 .f32 := Host.absf main_arg10
  let main_cst_18 : FVec F S_ .f32 := constant S_ .f32 0x7F800000#32
  let main_v50 : FVec F S768x256 .f32 := broadcastInDim S768x256 ![] bcast_S_S768x256 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S256x768 .f32) (main_arg5 : FVec F S256 .f32) (main_arg6 : FVec F S256 .f32) (main_arg7 : FVec F S256 .f32) (main_arg8 : FVec F S256 .f32) (main_arg9 : FVec F S256 .f32) (main_arg10 : FVec F S768x256 .f32) (main_arg11 : FVec F S768 .f32) (main_arg12 : FVec F S256x256 .f32) (main_arg13 : FVec F S256 .f32) (main_arg14 : FVec F S256x512 .f32) (main_arg15 : FVec F S256 .f32) (main_arg16 : FVec F S256 .f32) (main_arg17 : FVec F S256 .f32) (main_arg18 : FVec F S2x256 .f32) (main_arg19 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x768 .f32 := Host.absf main_arg4
  let main_cst_6 : FVec F S_ .f32 := constant S_ .f32 0x7F800000#32
  let main_v20 : FVec F S256x768 .f32 := broadcastInDim S256x768 ![] bcast_S_S256x768 main_cst_6
  let main_v21 : IVec S256x768 1 := cmpf .olt main_v19 main_v20
  let main_c_7 : IVec S_ 1 := constantI S_ 1 1#1
  let main_v22 : IVec S_ 1 := (fun x v => Host.reduce IntOp.andi x v reducesTo_S256x768_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S65536x32 .f32) (main_arg1 : FVec F S65536x768 .f32) (main_arg2 : FVec F S256x32 .f32) (main_arg3 : FVec F S256 .f32) (main_arg4 : FVec F S256x768 .f32) (main_arg5 : FVec F S256 .f32) (main_arg6 : FVec F S256 .f32) (main_arg7 : FVec F S256 .f32) (main_arg8 : FVec F S256 .f32) (main_arg9 : FVec F S256 .f32) (main_arg10 : FVec F S768x256 .f32) (main_arg11 : FVec F S768 .f32) (main_arg12 : FVec F S256x256 .f32) (main_arg13 : FVec F S256 .f32) (main_arg14 : FVec F S256x512 .f32) (main_arg15 : FVec F S256 .f32) (main_arg16 : FVec F S256 .f32) (main_arg17 : FVec F S256 .f32) (main_arg18 : FVec F S2x256 .f32) (main_arg19 : FVec F S2 .f32) : IVec S_ 1 :=
  let main_v0 : FVec F S65536x32 .f32 := Host.absf main_arg0
  let main_cst : FVec F S_ .f32 := constant S_ .f32 0x7F800000#32
  let main_v1 : FVec F S65536x32 .f32 := broadcastInDim S65536x32 ![] bcast_S_S65536x32 main_cst
  let main_v2 : IVec S65536x32 1 := cmpf .olt main_v0 main_v1
  let main_c : IVec S_ 1 := constantI S_ 1 1#1
  let main_v3 : IVec S_ 1 := (fun x v => Host.reduce IntOp.andi x v reducesTo_S65536x32_S_d0_1 h_S_) main_v2 main_c
  let main_v4 : FVec F S65536x768 .f32 := Host.absf main_arg1
  let main_cst_0 : FVec F S_ .f32 := constant S_ .f32 0x7F800000#32
  let main_v5 : FVec F S65536x768 .f32 := broadcastInDim S65536x768 ![] bcast_S_S65536x768 main_cst_0
  let main_v6 : IVec S65536x768 1 := cmpf .olt main_v4 main_v5
  let main_c_1 : IVec S_ 1 := constantI S_ 1 1#1
  let main_v7 : IVec S_ 1 := (fun x v => Host.reduce IntOp.andi x v reducesTo_S65536x768_S_d0_1 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S65536x32 : Shape := ⟨2, ![65536, 32]⟩
abbrev S65536x768 : Shape := ⟨2, ![65536, 768]⟩
abbrev S256x32 : Shape := ⟨2, ![256, 32]⟩
abbrev S256 : Shape := ⟨1, ![256]⟩
abbrev S256x768 : Shape := ⟨2, ![256, 768]⟩
abbrev S768x256 : Shape := ⟨2, ![768, 256]⟩
abbrev S768 : Shape := ⟨1, ![768]⟩
abbrev S256x256 : Shape := ⟨2, ![256, 256]⟩
abbrev S256x512 : Shape := ⟨2, ![256, 512]⟩
abbrev S2x256 : Shape := ⟨2, ![2, 256]⟩
abbrev S2 : Shape := ⟨1, ![2]⟩
abbrev S65536x2 : Shape := ⟨2, ![65536, 2]⟩
abbrev S1024x32 : Shape := ⟨2, ![1024, 32]⟩
abbrev S1024x768 : Shape := ⟨2, ![1024, 768]⟩
abbrev S1024x2 : Shape := ⟨2, ![1024, 2]⟩
abbrev S32x256 : Shape := ⟨2, ![32, 256]⟩
abbrev S1024x256 : Shape := ⟨2, ![1024, 256]⟩
abbrev S1x256 : Shape := ⟨2, ![1, 256]⟩
abbrev S1024 : Shape := ⟨1, ![1024]⟩
abbrev S1024x1 : Shape := ⟨2, ![1024, 1]⟩
abbrev S1024x512 : Shape := ⟨2, ![1024, 512]⟩
abbrev S512x256 : Shape := ⟨2, ![512, 256]⟩
abbrev S256x2 : Shape := ⟨2, ![256, 2]⟩
abbrev S1x2 : Shape := ⟨2, ![1, 2]⟩

abbrev nBuf : Space → Nat
  | .hbm => 23
  | .vmem => 24
  | .smem => 0
  | _ => 0

abbrev bufTy : (tb : Table) → Fin (tcTables nBuf tb) → BufTy
  | .hbm, ⟨0, _⟩ => ⟨S65536x32, .f32⟩
  | .hbm, ⟨1, _⟩ => ⟨S65536x768, .f32⟩
  | .hbm, ⟨2, _⟩ => ⟨S256x32, .f32⟩
  | .hbm, ⟨3, _⟩ => ⟨S256, .f32⟩
  | .hbm, ⟨4, _⟩ => ⟨S256x768, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S768x256, .f32⟩
  | .hbm, ⟨11, _⟩ => ⟨S768, .f32⟩
  | .hbm, ⟨12, _⟩ => ⟨S256x256, .f32⟩
  | .hbm, ⟨13, _⟩ => ⟨S256, .f32⟩
  | .hbm, ⟨14, _⟩ => ⟨S256x512, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S2x256, .f32⟩
  | .hbm, ⟨19, _⟩ => ⟨S2, .f32⟩
  | .hbm, ⟨20, _⟩ => ⟨S256x256, .f32⟩
  | .hbm, ⟨21, _⟩ => ⟨S256, .f32⟩
  | .hbm, ⟨22, _⟩ => ⟨S65536x2, .f32⟩
  | .local _ .vmem, ⟨0, _⟩ => ⟨S1024x32, .f32⟩
  | .local _ .vmem, ⟨1, _⟩ => ⟨S1024x32, .f32⟩
  | .local _ .vmem, ⟨2, _⟩ => ⟨S1024x768, .f32⟩
  | .local _ .vmem, ⟨3, _⟩ => ⟨S1024x768, .f32⟩
  | .local _ .vmem, ⟨4, _⟩ => ⟨S256x32, .f32⟩
  | .local _ .vmem, ⟨5, _⟩ => ⟨S256, .f32⟩
  | .local _ .vmem, ⟨6, _⟩ => ⟨S256x768, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x256, .f32⟩
  | .local _ .vmem, ⟨15, _⟩ => ⟨S256, .f32⟩
  | .local _ .vmem, ⟨16, _⟩ => ⟨S256x512, .f32⟩
  | .local _ .vmem, ⟨17, _⟩ => ⟨S256, .f32⟩
  | .local _ .vmem, ⟨18, _⟩ => ⟨S256, .f32⟩
  | .local _ .vmem, ⟨19, _⟩ => ⟨S256, .f32⟩
  | .local _ .vmem, ⟨20, _⟩ => ⟨S2x256, .f32⟩
  | .local _ .vmem, ⟨21, _⟩ => ⟨S2, .f32⟩
  | .local _ .vmem, ⟨22, _⟩ => ⟨S1024x2, .f32⟩
  | .local _ .vmem, ⟨23, _⟩ => ⟨S1024x2, .f32⟩
  | _, _ => ⟨S65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1024x2 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  slices_S768x256_S256x256_512_0 : S768x256.Slices ![512, 0] S256x256
  slices_S768_S256_512 : S768.Slices ![512] S256
  inb_S1024x32_S1024x32_0_0 : ∀ a, (![0, 0] : Fin 2 → Nat) a + S1024x32.size a ≤ S1024x32.size a
  h_S1024x32 : 0 < S1024x32.numel
  inb_S1024x768_S1024x768_0_0 : ∀ a, (![0, 0] : Fin 2 → Nat) a + S1024x768.size a ≤ S1024x768.size a
  h_S1024x768 : 0 < S1024x768.numel
  inb_S256x32_S256x32_0_0 : ∀ a, (![0, 0] : Fin 2 → Nat) a + S256x32.size a ≤ S256x32.size a
  h_S256x32 : 0 < S256x32.numel
  bitsLt_bf16_f32 : FTy.bits .bf16 < FTy.bits .f32
  transposes_S256x32_p1_0_S32x256 : S256x32.Transposes [1, 0] S32x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  inb_S256x768_S256x768_0_0 : ∀ a, (![0, 0] : Fin 2 → Nat) a + S256x768.size a ≤ S256x768.size a
  h_S256x768 : 0 < S256x768.numel
  transposes_S256x768_p1_0_S768x256 : S256x768.Transposes [1, 0] S768x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  shapeCasts_S256_S256 : S256.ShapeCasts S256
  concatenates_S1024x256_S1024x256_S1024x512_d1 : Shape.Concatenates [S1024x256, S1024x256] S1024x512 1
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S2x256_S2x256_0_0 : ∀ a, (![0, 0] : Fin 2 → Nat) a + S2x256.size a ≤ S2x256.size a
  h_S2x256 : 0 < S2x256.numel
  transposes_S2x256_p1_0_S256x2 : S2x256.Transposes [1, 0] S256x2
  inb_S2_S2_0 : ∀ a, (![0] : Fin 1 → Nat) a + S2.size a ≤ S2.size a
  h_S2 : 0 < S2.numel
  shapeCasts_S2_S1x2 : S2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  dot_S1024x32_S32x256_S1024x256_1_0_0_1_n_n_wf : DotDims.WF S1024x32 S32x256 S1024x256 [1] [0] [0] [1] [] []
  dot_S1024x768_S768x256_S1024x256_1_0_0_1_n_n_wf : DotDims.WF S1024x768 S768x256 S1024x256 [1] [0] [0] [1] [] []
  dot_S1024x256_S256x256_S1024x256_1_0_0_1_n_n_wf : DotDims.WF S1024x256 S256x256 S1024x256 [1] [0] [0] [1] [] []
  dot_S1024x512_S512x256_S1024x256_1_0_0_1_n_n_wf : DotDims.WF S1024x512 S512x256 S1024x256 [1] [0] [0] [1] [] []
  dot_S1024x256_S256x2_S1024x2_1_0_0_1_n_n_wf : DotDims.WF S1024x256 S256x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S65536x32.size a
  hwx0_0 : ∀ i : grid0.Coords, EltTy.bits .f32 = 32 ∨ (Rect.block (s := S65536x32) S1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S65536x768.size a
  hwx0_1 : ∀ i : grid0.Coords, EltTy.bits .f32 = 32 ∨ (Rect.block (s := S65536x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .f32 = 32 ∨ (Rect.block (s := S256x768) S256x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .f32 = 32 ∨ (Rect.block (s := S256x256) S256x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x512.size a ≤ S256x512.size a
  hwx0_14 : ∀ i : grid0.Coords, EltTy.bits .f32 = 32 ∨ (Rect.block (s := S256x512) S256x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256.size a ≤ S256.size a
  hwx0_17 : ∀ i : grid0.Coords, EltTy.bits .f32 = 32 ∨ (Rect.block (s := S256) S256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S2x256.size a ≤ S2x256.size a
  hwx0_18 : ∀ i : grid0.Coords, EltTy.bits .f32 = 32 ∨ (Rect.block (s := S2x256) S2x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S2.size a ≤ S2.size a
  hwx0_19 : ∀ i : grid0.Coords, EltTy.bits .f32 = 32 ∨ (Rect.block (s := S2) S2.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x2.size a ≤ S65536x2.size a
  hwx0_20 : ∀ i : grid0.Coords, EltTy.bits .f32 = 32 ∨ (Rect.block (s := S65536x2) S1024x2.size (cc0_transform_20 i) (hinb0_20 i)).WholeWords (EltTy.packing .f32)

variable [Facts₀]

def dot_S1024x32_S32x256_S1024x256_1_0_0_1_n_n : DotDims S1024x32 S32x256 S1024x256 where
  lhsContracting := [1]
  rhsContracting := [0]
  lhsNonContracting := [0]
  rhsNonContracting := [1]
  lhsBatch := []
  rhsBatch := []
  wf := dot_S1024x32_S32x256_S1024x256_1_0_0_1_n_n_wf
def dot_S1024x768_S768x256_S1024x256_1_0_0_1_n_n : DotDims S1024x768 S768x256 S1024x256 where
  lhsContracting := [1]
  rhsContracting := [0]
  lhsNonContracting := [0]
  rhsNonContracting := [1]
  lhsBatch := []
  rhsBatch := []
  wf := dot_S1024x768_S768x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x2_S1024x2_1_0_0_1_n_n : DotDims S1024x256 S256x2 S1024x2 where
  lhsContracting := [1]
  rhsContracting := [0]
  lhsNonContracting := [0]
  rhsNonContracting := [1]
  lhsBatch := []
  rhsBatch := []
  wf := dot_S1024x256_S256x2_S1024x2_1_0_0_1_n_n_wf

abbrev win0_0 : Pipeline.Window sig grid0 :=
  Pipeline.Window.ofSpec (Memref.whole main_arg0) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S2x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S2.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v2) S1024x2.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S65536x32 : Shape := ⟨2, ![65536, 32]⟩
abbrev S65536x768 : Shape := ⟨2, ![65536, 768]⟩
abbrev S256x32 : Shape := ⟨2, ![256, 32]⟩
abbrev S256 : Shape := ⟨1, ![256]⟩
abbrev S256x768 : Shape := ⟨2, ![256, 768]⟩
abbrev S768x256 : Shape := ⟨2, ![768, 256]⟩
abbrev S768 : Shape := ⟨1, ![768]⟩
abbrev S256x256 : Shape := ⟨2, ![256, 256]⟩
abbrev S256x512 : Shape := ⟨2, ![256, 512]⟩
abbrev S2x256 : Shape := ⟨2, ![2, 256]⟩
abbrev S2 : Shape := ⟨1, ![2]⟩
abbrev S32x256 : Shape := ⟨2, ![32, 256]⟩
abbrev S65536x256 : Shape := ⟨2, ![65536, 256]⟩
abbrev S1x256 : Shape := ⟨2, ![1, 256]⟩
abbrev S_ : Shape := ⟨0, ![]⟩
abbrev S65536 : Shape := ⟨1, ![65536]⟩
abbrev S65536x1 : Shape := ⟨2, ![65536, 1]⟩
abbrev S65536x4x64 : Shape := ⟨3, ![65536, 4, 64]⟩
abbrev S65536x4 : Shape := ⟨2, ![65536, 4]⟩
abbrev S65536x4x1 : Shape := ⟨3, ![65536, 4, 1]⟩
abbrev S65536x512 : Shape := ⟨2, ![65536, 512]⟩
abbrev S512x256 : Shape := ⟨2, ![512, 256]⟩
abbrev S256x2 : Shape := ⟨2, ![256, 2]⟩
abbrev S65536x2 : Shape := ⟨2, ![65536, 2]⟩
abbrev S1x2 : Shape := ⟨2, ![1, 2]⟩

abbrev nBuf : Space → Nat
  | .hbm => 235
  | .vmem => 0
  | .smem => 0
  | _ => 0

abbrev hbmTy0_0 (i : Nat) : BufTy := match i % 128 with
  | 0 => ⟨S65536x32, .f32⟩
  | 1 => ⟨S65536x768, .f32⟩
  | 2 => ⟨S256x32, .f32⟩
  | 3 => ⟨S256, .f32⟩
  | 4 => ⟨S256x768, .f32⟩
  | 5 => ⟨S256, .f32⟩
  | 6 => ⟨S256, .f32⟩
  | 7 => ⟨S256, .f32⟩
  | 8 => ⟨S256, .f32⟩
  | 9 => ⟨S256, .f32⟩
  | 10 => ⟨S768x256, .f32⟩
  | 11 => ⟨S768, .f32⟩
  | 12 => ⟨S256x256, .f32⟩
  | 13 => ⟨S256, .f32⟩
  | 14 => ⟨S256x512, .f32⟩
  | 15 => ⟨S256, .f32⟩
  | 16 => ⟨S256, .f32⟩
  | 17 => ⟨S256, .f32⟩
  | 18 => ⟨S2x256, .f32⟩
  | 19 => ⟨S2, .f32⟩
  | 20 => ⟨S32x256, .f32⟩
  | 21 => ⟨S65536x256, .f32⟩
  | 22 => ⟨S1x256, .f32⟩
  | 23 => ⟨S65536x256, .f32⟩
  | 24 => ⟨S65536x256, .f32⟩
  | 25 => ⟨S_, .f32⟩
  | 26 => ⟨S65536, .f32⟩
  | 27 => ⟨S65536x1, .f32⟩
  | 28 => ⟨S_, .f32⟩
  | 29 => ⟨S65536x1, .f32⟩
  | 30 => ⟨S65536x1, .f32⟩
  | 31 => ⟨S65536x256, .f32⟩
  | 32 => ⟨S65536x256, .f32⟩
  | 33 => ⟨S65536x256, .f32⟩
  | 34 => ⟨S_, .f32⟩
  | 35 => ⟨S65536, .f32⟩
  | 36 => ⟨S65536x1, .f32⟩
  | 37 => ⟨S_, .f32⟩
  | 38 => ⟨S65536x1, .f32⟩
  | 39 => ⟨S65536x1, .f32⟩
  | 40 => ⟨S65536x256, .f32⟩
  | 41 => ⟨S65536x256, .f32⟩
  | 42 => ⟨S_, .f32⟩
  | 43 => ⟨S65536x1, .f32⟩
  | 44 => ⟨S65536x1, .f32⟩
  | 45 => ⟨S65536x1, .f32⟩
  | 46 => ⟨S65536x256, .f32⟩
  | 47 => ⟨S65536x256, .f32⟩
  | 48 => ⟨S1x256, .f32⟩
  | 49 => ⟨S65536x256, .f32⟩
  | 50 => ⟨S65536x256, .f32⟩
  | 51 => ⟨S1x256, .f32⟩
  | 52 => ⟨S65536x256, .f32⟩
  | 53 => ⟨S65536x256, .f32⟩
  | 54 => ⟨S768x256, .f32⟩
  | 55 => ⟨S65536x256, .f32⟩
  | 56 => ⟨S1x256, .f32⟩
  | 57 => ⟨S65536x256, .f32⟩
  | 58 => ⟨S65536x256, .f32⟩
  | 59 => ⟨S_, .f32⟩
  | 60 => ⟨S65536, .f32⟩
  | 61 => ⟨S65536x1, .f32⟩
  | 62 => ⟨S_, .f32⟩
  | 63 => ⟨S65536x1, .f32⟩
  | 64 => ⟨S65536x1, .f32⟩
  | 65 => ⟨S65536x256, .f32⟩
  | 66 => ⟨S65536x256, .f32⟩
  | 67 => ⟨S65536x256, .f32⟩
  | 68 => ⟨S_, .f32⟩
  | 69 => ⟨S65536, .f32⟩
  | 70 => ⟨S65536x1, .f32⟩
  | 71 => ⟨S_, .f32⟩
  | 72 => ⟨S65536x1, .f32⟩
  | 73 => ⟨S65536x1, .f32⟩
  | 74 => ⟨S65536x256, .f32⟩
  | 75 => ⟨S65536x256, .f32⟩
  | 76 => ⟨S_, .f32⟩
  | 77 => ⟨S65536x1, .f32⟩
  | 78 => ⟨S65536x1, .f32⟩
  | 79 => ⟨S65536x1, .f32⟩
  | 80 => ⟨S65536x256, .f32⟩
  | 81 => ⟨S65536x256, .f32⟩
  | 82 => ⟨S1x256, .f32⟩
  | 83 => ⟨S65536x256, .f32⟩
  | 84 => ⟨S65536x256, .f32⟩
  | 85 => ⟨S1x256, .f32⟩
  | 86 => ⟨S65536x256, .f32⟩
  | 87 => ⟨S65536x256, .f32⟩
  | 88 => ⟨S256x256, .f32⟩
  | 89 => ⟨S256x256, .f32⟩
  | 90 => ⟨S256x256, .f32⟩
  | 91 => ⟨S256, .f32⟩
  | 92 => ⟨S256, .f32⟩
  | 93 => ⟨S256, .f32⟩
  | 94 => ⟨S256x256, .f32⟩
  | 95 => ⟨S65536x256, .f32⟩
  | 96 => ⟨S1x256, .f32⟩
  | 97 => ⟨S65536x256, .f32⟩
  | 98 => ⟨S65536x256, .f32⟩
  | 99 => ⟨S65536x4x64, .f32⟩
  | 100 => ⟨S256x256, .f32⟩
  | 101 => ⟨S65536x256, .f32⟩
  | 102 => ⟨S1x256, .f32⟩
  | 103 => ⟨S65536x256, .f32⟩
  | 104 => ⟨S65536x256, .f32⟩
  | 105 => ⟨S65536x4x64, .f32⟩
  | 106 => ⟨S256x256, .f32⟩
  | 107 => ⟨S65536x256, .f32⟩
  | 108 => ⟨S1x256, .f32⟩
  | 109 => ⟨S65536x256, .f32⟩
  | 110 => ⟨S65536x256, .f32⟩
  | 111 => ⟨S65536x4x64, .f32⟩
  | 112 => ⟨S65536x4x64, .f32⟩
  | 113 => ⟨S_, .f32⟩
  | 114 => ⟨S65536x4, .f32⟩
  | 115 => ⟨S65536x4x1, .f32⟩
  | 116 => ⟨S_, .f32⟩
  | 117 => ⟨S_, .f32⟩
  | 118 => ⟨S65536x4x1, .f32⟩
  | 119 => ⟨S65536x4x1, .f32⟩
  | 120 => ⟨S_, .f32⟩
  | 121 => ⟨S65536x4, .f32⟩
  | 122 => ⟨S_, .f32⟩
  | 123 => ⟨S65536x4, .f32⟩
  | 124 => ⟨S65536x4, .f32⟩
  | 125 => ⟨S65536x4x1, .f32⟩
  | 126 => ⟨S65536x4x1, .f32⟩
  | 127 => ⟨S65536x4x1, .f32⟩
  | _ => ⟨S65536x32, .f32⟩

abbrev hbmTy0_1 (i : Nat) : BufTy := match i % 128 with
  | 0 => ⟨S_, .f32⟩
  | 1 => ⟨S65536x4, .f32⟩
  | 2 => ⟨S65536x4x1, .f32⟩
  | 3 => ⟨S65536x4x1, .f32⟩
  | 4 => ⟨S65536x4x64, .f32⟩
  | 5 => ⟨S65536x4x64, .f32⟩
  | 6 => ⟨S65536x256, .f32⟩
  | 7 => ⟨S256x256, .f32⟩
  | 8 => ⟨S65536x256, .f32⟩
  | 9 => ⟨S1x256, .f32⟩
  | 10 => ⟨S65536x256, .f32⟩
  | 11 => ⟨S65536x256, .f32⟩
  | 12 => ⟨S256x256, .f32⟩
  | 13 => ⟨S256x256, .f32⟩
  | 14 => ⟨S256x256, .f32⟩
  | 15 => ⟨S256, .f32⟩
  | 16 => ⟨S256, .f32⟩
  | 17 => ⟨S256, .f32⟩
  | 18 => ⟨S256x256, .f32⟩
  | 19 => ⟨S65536x256, .f32⟩
  | 20 => ⟨S1x256, .f32⟩
  | 21 => ⟨S65536x256, .f32⟩
  | 22 => ⟨S65536x256, .f32⟩
  | 23 => ⟨S65536x4x64, .f32⟩
  | 24 => ⟨S256x256, .f32⟩
  | 25 => ⟨S65536x256, .f32⟩
  | 26 => ⟨S1x256, .f32⟩
  | 27 => ⟨S65536x256, .f32⟩
  | 28 => ⟨S65536x256, .f32⟩
  | 29 => ⟨S65536x4x64, .f32⟩
  | 30 => ⟨S256x256, .f32⟩
  | 31 => ⟨S65536x256, .f32⟩
  | 32 => ⟨S1x256, .f32⟩
  | 33 => ⟨S65536x256, .f32⟩
  | 34 => ⟨S65536x256, .f32⟩
  | 35 => ⟨S65536x4x64, .f32⟩
  | 36 => ⟨S65536x4x64, .f32⟩
  | 37 => ⟨S_, .f32⟩
  | 38 => ⟨S65536x4, .f32⟩
  | 39 => ⟨S65536x4x1, .f32⟩
  | 40 => ⟨S_, .f32⟩
  | 41 => ⟨S_, .f32⟩
  | 42 => ⟨S65536x4x1, .f32⟩
  | 43 => ⟨S65536x4x1, .f32⟩
  | 44 => ⟨S_, .f32⟩
  | 45 => ⟨S65536x4, .f32⟩
  | 46 => ⟨S_, .f32⟩
  | 47 => ⟨S65536x4, .f32⟩
  | 48 => ⟨S65536x4, .f32⟩
  | 49 => ⟨S65536x4x1, .f32⟩
  | 50 => ⟨S65536x4x1, .f32⟩
  | 51 => ⟨S65536x4x1, .f32⟩
  | 52 => ⟨S_, .f32⟩
  | 53 => ⟨S65536x4, .f32⟩
  | 54 => ⟨S65536x4x1, .f32⟩
  | 55 => ⟨S65536x4x1, .f32⟩
  | 56 => ⟨S65536x4x64, .f32⟩
  | 57 => ⟨S65536x4x64, .f32⟩
  | 58 => ⟨S65536x256, .f32⟩
  | 59 => ⟨S256x256, .f32⟩
  | 60 => ⟨S65536x256, .f32⟩
  | 61 => ⟨S1x256, .f32⟩
  | 62 => ⟨S65536x256, .f32⟩
  | 63 => ⟨S65536x256, .f32⟩
  | 64 => ⟨S65536x512, .f32⟩
  | 65 => ⟨S512x256, .f32⟩
  | 66 => ⟨S65536x256, .f32⟩
  | 67 => ⟨S1x256, .f32⟩
  | 68 => ⟨S65536x256, .f32⟩
  | 69 => ⟨S65536x256, .f32⟩
  | 70 => ⟨S_, .f32⟩
  | 71 => ⟨S65536, .f32⟩
  | 72 => ⟨S65536x1, .f32⟩
  | 73 => ⟨S_, .f32⟩
  | 74 => ⟨S65536x1, .f32⟩
  | 75 => ⟨S65536x1, .f32⟩
  | 76 => ⟨S65536x256, .f32⟩
  | 77 => ⟨S65536x256, .f32⟩
  | 78 => ⟨S65536x256, .f32⟩
  | 79 => ⟨S_, .f32⟩
  | 80 => ⟨S65536, .f32⟩
  | 81 => ⟨S65536x1, .f32⟩
  | 82 => ⟨S_, .f32⟩
  | 83 => ⟨S65536x1, .f32⟩
  | 84 => ⟨S65536x1, .f32⟩
  | 85 => ⟨S65536x256, .f32⟩
  | 86 => ⟨S65536x256, .f32⟩
  | 87 => ⟨S_, .f32⟩
  | 88 => ⟨S65536x1, .f32⟩
  | 89 => ⟨S65536x1, .f32⟩
  | 90 => ⟨S65536x1, .f32⟩
  | 91 => ⟨S65536x256, .f32⟩
  | 92 => ⟨S65536x256, .f32⟩
  | 93 => ⟨S1x256, .f32⟩
  | 94 => ⟨S65536x256, .f32⟩
  | 95 => ⟨S65536x256, .f32⟩
  | 96 => ⟨S1x256, .f32⟩
  | 97 => ⟨S65536x256, .f32⟩
  | 98 => ⟨S65536x256, .f32⟩
  | 99 => ⟨S_, .f32⟩
  | 100 => ⟨S65536x256, .f32⟩
  | 101 => ⟨S65536x256, .f32⟩
  | 102 => ⟨S256x2, .f32⟩
  | 103 => ⟨S65536x2, .f32⟩
  | 104 => ⟨S1x2, .f32⟩
  | 105 => ⟨S65536x2, .f32⟩
  | 106 => ⟨S65536x2, .f32⟩
  | _ => ⟨S65536x32, .f32⟩

abbrev hbmTy (i : Nat) : BufTy := match i / 128 with
  | 0 => hbmTy0_0 i
  | 1 => hbmTy0_1 i
  | _ => ⟨S65536x32, .f32⟩

abbrev bufTy : (tb : Table) → Fin (tcTables nBuf tb) → BufTy
  | .hbm, ⟨i, _⟩ => hbmTy i
  | _, _ => ⟨S65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_cst_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_9 : Ref sig .tc := ⟨.hbm, 113, rfl⟩
abbrev main_v83 : Ref sig .tc := ⟨.hbm, 114, rfl⟩
abbrev main_v84 : Ref sig .tc := ⟨.hbm, 115, rfl⟩
abbrev main_cst_10 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_11 : Ref sig .tc := ⟨.hbm, 120, rfl⟩
abbrev main_v88 : Ref sig .tc := ⟨.hbm, 121, rfl⟩
abbrev main_cst_12 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_13 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_14 : Ref sig .tc := ⟨.hbm, 165, rfl⟩
abbrev main_v130 : Ref sig .tc := ⟨.hbm, 166, rfl⟩
abbrev main_v131 : Ref sig .tc := ⟨.hbm, 167, rfl⟩
abbrev main_cst_15 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_16 : Ref sig .tc := ⟨.hbm, 172, rfl⟩
abbrev main_v135 : Ref sig .tc := ⟨.hbm, 173, rfl⟩
abbrev main_cst_17 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_18 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_cst_19 : Ref sig .tc := ⟨.hbm, 198, rfl⟩
abbrev main_v158 : Ref sig .tc := ⟨.hbm, 199, rfl⟩
abbrev main_v159 : Ref sig .tc := ⟨.hbm, 200, rfl⟩
abbrev main_cst_20 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_21 : Ref sig .tc := ⟨.hbm, 207, rfl⟩
abbrev main_v165 : Ref sig .tc := ⟨.hbm, 208, rfl⟩
abbrev main_v166 : Ref sig .tc := ⟨.hbm, 209, rfl⟩
abbrev main_cst_22 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_cst_23 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_call0_cst : Ref sig .tc := ⟨.hbm, 227, rfl⟩
abbrev main_call0_v0 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩

abbrev nD : Nat := 1
abbrev τ : Topo := Topo.v7x

variable {F : FTy → Type} [FloatOps F]

class Facts₀ : Prop where
  transposes_S256x32_S32x256_1_0 : S256x32.Transposes [1, 0] S32x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  reducesTo_S65536x256_S65536_d1 : S65536x256.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x256_0_1 : S65536x1.BroadcastsInDim S65536x256 (![0, 1] : Fin 2 → Fin S65536x256.rank)
  transposes_S256x768_S768x256_1_0 : S256x768.Transposes [1, 0] S768x256
  slices_S768x256_S256x256_0_0 : S768x256.Slices ![0, 0] S256x256
  slices_S768x256_S256x256_256_0 : S768x256.Slices ![256, 0] S256x256
  slices_S768x256_S256x256_512_0 : S768x256.Slices ![512, 0] S256x256
  slices_S768_S256_0 : S768.Slices ![0] S256
  slices_S768_S256_256 : S768.Slices ![256] S256
  slices_S768_S256_512 : S768.Slices ![512] S256
  transposes_S256x256_S256x256_1_0 : S256x256.Transposes [1, 0] S256x256
  shapeCasts_S65536x256_S65536x4x64 : S65536x256.ShapeCasts S65536x4x64
  reducesTo_S65536x4x64_S65536x4_d2 : S65536x4x64.ReducesTo [2] S65536x4
  bcast_S65536x4_S65536x4x1_0_1 : S65536x4.BroadcastsInDim S65536x4x1 (![0, 1] : Fin 2 → Fin S65536x4x1.rank)
  bcast_S_S65536x4x1 : S_.BroadcastsInDim S65536x4x1 (![] : Fin 0 → Fin S65536x4x1.rank)
  reducesTo_S65536x4x1_S65536x4_d2 : S65536x4x1.ReducesTo [2] S65536x4
  bcast_S_S65536x4 : S_.BroadcastsInDim S65536x4 (![] : Fin 0 → Fin S65536x4.rank)
  bcast_S65536x4x1_S65536x4x64_0_1_2 : S65536x4x1.BroadcastsInDim S65536x4x64 (![0, 1, 2] : Fin 3 → Fin S65536x4x64.rank)
  shapeCasts_S65536x4x64_S65536x256 : S65536x4x64.ShapeCasts S65536x256
  concatenates_S65536x256_S65536x256_S65536x512_d1 : Shape.Concatenates [S65536x256, S65536x256] S65536x512 1
  transposes_S256x512_S512x256_1_0 : S256x512.Transposes [1, 0] S512x256
  bcast_S_S65536x256 : S_.BroadcastsInDim S65536x256 (![] : Fin 0 → Fin S65536x256.rank)
  transposes_S2x256_S256x2_1_0 : S2x256.Transposes [1, 0] S256x2
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  dot_S65536x32_S32x256_S65536x256_1_0_0_1_n_n_wf : DotDims.WF S65536x32 S32x256 S65536x256 [1] [0] [0] [1] [] []
  dot_S65536x768_S768x256_S65536x256_1_0_0_1_n_n_wf : DotDims.WF S65536x768 S768x256 S65536x256 [1] [0] [0] [1] [] []
  dot_S65536x256_S256x256_S65536x256_1_0_0_1_n_n_wf : DotDims.WF S65536x256 S256x256 S65536x256 [1] [0] [0] [1] [] []
  dot_S65536x512_S512x256_S65536x256_1_0_0_1_n_n_wf : DotDims.WF S65536x512 S512x256 S65536x256 [1] [0] [0] [1] [] []
  dot_S65536x256_S256x2_S65536x2_1_0_0_1_n_n_wf : DotDims.WF S65536x256 S256x2 S65536x2 [1] [0] [0] [1] [] []

variable [Facts₀]

def dot_S65536x32_S32x256_S65536x256_1_0_0_1_n_n : DotDims S65536x32 S32x256 S65536x256 where
  lhsContracting := [1]
  rhsContracting := [0]
  lhsNonContracting := [0]
  rhsNonContracting := [1]
  lhsBatch := []
  rhsBatch := []
  wf := dot_S65536x32_S32x256_S65536x256_1_0_0_1_n_n_wf
def dot_S65536x768_S768x256_S65536x256_1_0_0_1_n_n : DotDims S65536x768 S768x256 S65536x256 where
  lhsContracting := [1]
  rhsContracting := [0]
  lhsNonContracting := [0]
  rhsNonContracting := [1]
  lhsBatch := []
  rhsBatch := []
  wf := dot_S65536x768_S768x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x256_S256x2_S65536x2_1_0_0_1_n_n : DotDims S65536x256 S256x2 S65536x2 where
  lhsContracting := [1]
  rhsContracting := [0]
  lhsNonContracting := [0]
  rhsNonContracting := [1]
  lhsBatch := []
  rhsBatch := []
  wf := dot_S65536x256_S256x2_S65536x2_1_0_0_1_n_n_wf

class Facts : Prop extends Facts₀ where

variable [Facts]
-- ==== Proof.RefLink.lean ====
/-
  The link between the reference's run and its stages: the long term the run states for the result buffer is the last
  stage, `val_main_v187`, of the argument arrays. Both sides are the same composition of the program's operations, the
  run's written out in full, the stage's through the named earlier stages.
-/
import proofs.«175654_j61761629716762_1_alg».proof.Proof.RefRunPatched
import proofs.«175654_j61761629716762_1_alg».proof.Proof.RefReadPatched

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

/-- The term the Run module names `res_main_v187` is the stage. -/
theorem val_main_v187_eq (m : (ℓ : Loc nD τ sig) → Buf (Elt F) ℓ) (c : Dev nD) :
    Cert.ReferenceIdeal.Value.res_main_v187 m c = val_main_v187 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  unfold Cert.ReferenceIdeal.Value.res_main_v187; rfl

end Cert.ReferenceIdeal.Read

end
-- ==== Proof.Spec.lean ====
/-
  The network both programs compute, one output row at a time, on the extended reals.

  A row of the result depends on one row of each of the two feature arrays and on the weights:
  two linear maps each followed by a layer normalisation give the two hidden rows b and t; each hidden
  row is sent through the value projection (the last third of the packed projection) and the output
  projection; the two results are joined side by side, passed through a linear map, a layer
  normalisation, a clamp at zero and a last linear map into two columns.

  The longer form of the same network also carries, per head, an attention weight over ONE key:
  exp (s - s) / exp (s - s) for the score s of the head. `outR` is that form, `outK` the form without
  the weight; they agree wherever the score is a real number.
-/
import Idealize.ShloMosaic.PureOps.Ideal
import Idealize.ShloMosaic.PureOps.Ideal.Laws
import Idealize.ShloMosaic.Lib.ValueIdx

noncomputable section

namespace Cert.Spec

open Idealize.ShloMosaic

/-- The words the programs use: 256, the normalisation's small constant, 64, and minus infinity. -/
abbrev c256 : EReal := Ideal.ofBits .f32 0x43800000#32
abbrev eps : EReal := Ideal.ofBits .f32 0x3727C5AC#32
abbrev c64 : EReal := Ideal.ofBits .f32 0x42800000#32
abbrev negInf : EReal := Ideal.ofBits .f32 0xFF800000#32

/-- A linear map on a row: `(x · Wᵀ + b) j = Σ k, x k · W j k + b j`. -/
def lin {K N : ℕ} (x : Fin K → EReal) (W : Fin N → Fin K → EReal) (b : Fin N → EReal) : Fin N → EReal :=
  fun j => (∑ k : Fin K, x k * W j k) + b j

/-- The mean of a row of 256 entries. -/
def mean (x : Fin 256 → EReal) : EReal := Ideal.div (∑ j : Fin 256, x j) c256

/-- The mean square deviation of a row of 256 entries. -/
def var (x : Fin 256 → EReal) : EReal := Ideal.div (∑ j : Fin 256, (x j - mean x) * (x j - mean x)) c256

/-- Layer normalisation of a row: centre, scale by the inverse root of the variance plus a constant, then
    an entrywise gain and offset. -/
def ln (x g β : Fin 256 → EReal) : Fin 256 → EReal :=
  fun j => (x j - mean x) * Ideal.rsqrt (var x + eps) * g j + β j

/-- Column `o + j` of the packed projection: `o = 0, 256, 512` select the query, key and value thirds. -/
def blk (o : ℕ) (ho : o + 256 ≤ 768) (j : Fin 256) : Fin 768 := ⟨o + j.val, by have := j.isLt; omega⟩

/-- Column `64 h + d`: lane `d` of head `h`. -/
def colOf (h : Fin 4) (d : Fin 64) : Fin 256 := ⟨h.val * 64 + d.val, by have := h.isLt; have := d.isLt; omega⟩

/-- The head a column belongs to. -/
def headOf (j : Fin 256) : Fin 4 := ⟨j.val / 64, by have := j.isLt; omega⟩

/-- The score of a head: the inner product of its 64 query and key lanes over the root of 64. -/
def score (q k : Fin 256 → EReal) (h : Fin 4) : EReal :=
  Ideal.div (∑ d : Fin 64, q (colOf h d) * k (colOf h d)) (Ideal.sqrt c64)

/-- The softmax weight of the single key with score `s`. -/
def wgt (s : EReal) : EReal :=
  Ideal.div (Ideal.exp (s - max negInf (max negInf s))) (Ideal.exp (s - max negInf (max negInf s)))

/-- The weights, as functions of coordinates. -/
structure Params where
  bioW : Fin 256 → Fin 32 → EReal
  bioB : Fin 256 → EReal
  textW : Fin 256 → Fin 768 → EReal
  textB : Fin 256 → EReal
  g1 : Fin 256 → EReal
  β1 : Fin 256 → EReal
  g2 : Fin 256 → EReal
  β2 : Fin 256 → EReal
  inW : Fin 768 → Fin 256 → EReal
  inB : Fin 768 → EReal
  outW : Fin 256 → Fin 256 → EReal
  outB : Fin 256 → EReal
  clsW : Fin 256 → Fin 512 → EReal
  clsB : Fin 256 → EReal
  g3 : Fin 256 → EReal
  β3 : Fin 256 → EReal
  lastW : Fin 2 → Fin 256 → EReal
  lastB : Fin 2 → EReal

/-- One third of the packed projection applied to a row. -/
def proj (P : Params) (o : ℕ) (ho : o + 256 ≤ 768) (x : Fin 256 → EReal) : Fin 256 → EReal :=
  lin x (fun j => P.inW (blk o ho j)) (fun j => P.inB (blk o ho j))

/-- The attention branch without the weight: value projection, then output projection. -/
def attnK (P : Params) (kv : Fin 256 → EReal) : Fin 256 → EReal :=
  lin (proj P 512 (by omega) kv) P.outW P.outB

/-- The attention branch with the one-key weight of each head on the value row. -/
def attnR (P : Params) (q kv : Fin 256 → EReal) : Fin 256 → EReal :=
  lin (fun j => wgt (score (proj P 0 (by omega) q) (proj P 256 (by omega) kv) (headOf j)) * proj P 512 (by omega) kv j)
    P.outW P.outB

/-- Two rows of 256 side by side. -/
def cat (a b : Fin 256 → EReal) : Fin 512 → EReal :=
  fun j => if h : j.val < 256 then a ⟨j.val, h⟩ else b ⟨j.val - 256, by have := j.isLt; omega⟩

/-- The classifier on the joined row. -/
def cls (P : Params) (f : Fin 512 → EReal) : Fin 2 → EReal :=
  lin (fun j => max (ln (lin f P.clsW P.clsB) P.g3 P.β3 j) 0) P.lastW P.lastB

/-- The two hidden rows. -/
def hidB (P : Params) (bio : Fin 32 → EReal) : Fin 256 → EReal := ln (lin bio P.bioW P.bioB) P.g1 P.β1
def hidT (P : Params) (text : Fin 768 → EReal) : Fin 256 → EReal := ln (lin text P.textW P.textB) P.g2 P.β2

/-- The output row without attention weights. -/
def outK (P : Params) (bio : Fin 32 → EReal) (text : Fin 768 → EReal) : Fin 2 → EReal :=
  cls P (cat (attnK P (hidT P text)) (attnK P (hidB P bio)))

/-- The output row with the one-key attention weights. -/
def outR (P : Params) (bio : Fin 32 → EReal) (text : Fin 768 → EReal) : Fin 2 → EReal :=
  cls P (cat (attnR P (hidB P bio) (hidT P text)) (attnR P (hidT P text) (hidB P bio)))

/-- An extended real that is a real number. -/
def IsReal (x : EReal) : Prop := ∃ r : ℝ, x = (r : EReal)

/-- Every weight is a real number. -/
structure Params.AllReal (P : Params) : Prop where
  bioW : ∀ j k, IsReal (P.bioW j k)
  bioB : ∀ j, IsReal (P.bioB j)
  textW : ∀ j k, IsReal (P.textW j k)
  textB : ∀ j, IsReal (P.textB j)
  g1 : ∀ j, IsReal (P.g1 j)
  β1 : ∀ j, IsReal (P.β1 j)
  g2 : ∀ j, IsReal (P.g2 j)
  β2 : ∀ j, IsReal (P.β2 j)
  inW : ∀ j k, IsReal (P.inW j k)
  inB : ∀ j, IsReal (P.inB j)

end Cert.Spec

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.RowOps.lean ====
/-
  Rows of the vector operations the kernel body is made of, read on the extended reals.

  A matrix product against a transposed weight with a bias spread along the rows is, row by row, the linear
  map `Spec.lin`; the centre / scale / gain / offset chain over a 1024 × 256 block is, row by row, `Spec.ln`;
  two blocks joined side by side are, row by row, `Spec.cat`.
-/
import proofs.«175654_j61761629716762_1_alg».proof.Proof.Spec
import proofs.«175654_j61761629716762_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.RowOps

open Idealize.ShloMosaic Idealize.ShloMosaic.ValueIdx Cert.Spec

/-- Row `p` of a matrix, a matrix as a function of two coordinates, a vector as a function of one. -/
def row {a b : ℕ} (X : (⟨2, ![a, b]⟩ : Shape).Idx → EReal) (p : Fin a) : Fin b → EReal := fun k => X (ix2 p k)
def mat {a b : ℕ} (X : (⟨2, ![a, b]⟩ : Shape).Idx → EReal) : Fin a → Fin b → EReal := fun j k => X (ix2 j k)
def vec {a : ℕ} (x : (⟨1, ![a]⟩ : Shape).Idx → EReal) : Fin a → EReal := fun j => x (ix1 j)

/-- A plain matrix product into the zero accumulator, at `(p, j)`: the sum over the one contracted coordinate. The
    four index facts say the dot is rows × contraction times contraction × columns. -/
theorem matmul_zero_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

/-- A linear layer as the body spells it — the activations against the transposed weight, into zero, plus the bias
    cast to a row and spread along the rows — is `Spec.lin` on every row. -/
theorem linear_row {M K N : ℕ}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (x : FVec Ideal ⟨2, ![M, K]⟩ .bf16) (w : FVec Ideal ⟨2, ![N, K]⟩ .bf16) (b : FVec Ideal ⟨1, ![N]⟩ .f32)
    (htr : (⟨2, ![N, K]⟩ : Shape).Transposes [1, 0] ⟨2, ![K, N]⟩)
    (hsc : (⟨1, ![N]⟩ : Shape).ShapeCasts ⟨2, ![1, N]⟩) (hbc : (⟨2, ![1, N]⟩ : Shape).Broadcasts ⟨2, ![M, N]⟩) (p : Fin M) :
    row (addf (matmul d none x (transpose ⟨2, ![K, N]⟩ [1, 0] w htr) (constant ⟨2, ![M, N]⟩ .f32 0x00000000#32))
        (broadcastTo ⟨2, ![M, N]⟩ (shapeCast ⟨2, ![1, N]⟩ b hsc) hbc)) p
      = lin (row x p) (mat w) (vec b) := by
  funext j
  show FloatOps.matmul d none x (transpose ⟨2, ![K, N]⟩ [1, 0] w htr) (constant ⟨2, ![M, N]⟩ .f32 0x00000000#32) (ix2 p j)
      + broadcastTo ⟨2, ![M, N]⟩ (shapeCast ⟨2, ![1, N]⟩ b hsc) hbc (ix2 p j) = _
  rw [matmul_zero_apply d hr hs hl0 hl1 hr0 hr1, broadcastTo_1b_ab_apply, shapeCast_a_1a_apply]
  refine congrArg (· + b (ix1 j)) (Finset.sum_congr rfl fun k _ => ?_)
  rw [transpose_ix2_apply]
  rfl

/-- Two blocks joined along the columns are `Spec.cat` of their rows. -/
theorem concat_row {M : ℕ} (a b : FVec Ideal ⟨2, ![M, 256]⟩ .f32)
    (h : Shape.Concatenates [(⟨2, ![M, 256]⟩ : Shape), (⟨2, ![M, 256]⟩ : Shape)] ⟨2, ![M, 512]⟩ 1) (p : Fin M) :
    row (concatenate ⟨2, ![M, 512]⟩ 1 [⟨⟨2, ![M, 256]⟩, a⟩, ⟨⟨2, ![M, 256]⟩, b⟩] h) p = cat (row a p) (row b p) := by
  funext j
  unfold cat row
  by_cases hj : j.val < 256
  · rw [dif_pos hj]
    exact concatenate_pair_apply_left 1 a b h (ix2 p j) rfl (ix2 p ⟨j.val, hj⟩) fun c => by
      match c with
      | ⟨0, _⟩ => rfl
      | ⟨1, _⟩ => rfl
  · rw [dif_neg hj]
    exact concatenate_pair_apply_right 1 a b h (ix2 p j) rfl rfl (ix2 p ⟨j.val - 256, by have := j.isLt; omega⟩)
      (fun c hc => by
        match c with
        | ⟨0, _⟩ => rfl
        | ⟨1, _⟩ => exact absurd rfl hc)
      (by show j.val - 256 + 256 = j.val; omega)

end Cert.RowOps

end
-- ==== Proof.Arrays.lean ====
/-
  The result array as one function of the twenty argument arrays.

  `paramsOf` reads the weight arrays as functions of coordinates; `GK` and `GR` are the two forms of the network
  (`Spec.outK`, `Spec.outR`) applied to row `i 0` of the two feature arrays and read at column `i 1`.
  `outKraw` is `Spec.outK` with every weight an argument of its own and the value third of the packed projection given
  directly, the form in which a block of the computation meets it.
-/
import proofs.«175654_j61761629716762_1_alg».proof.Proof.Spec
import proofs.«175654_j61761629716762_1_alg».proof.Proof.RowOps

noncomputable section

namespace Cert.Arrays

open Idealize.ShloMosaic Idealize.ShloMosaic.ValueIdx Cert.Spec Cert.RowOps

/-- The network without attention weights, every weight an argument: `Wv`, `bv` are the value third. -/
def outKraw (bioW : Fin 256 → Fin 32 → EReal) (bioB : Fin 256 → EReal) (textW : Fin 256 → Fin 768 → EReal) (textB : Fin 256 → EReal)
    (g1 β1 g2 β2 : Fin 256 → EReal) (Wv : Fin 256 → Fin 256 → EReal) (bv : Fin 256 → EReal)
    (outW : Fin 256 → Fin 256 → EReal) (outB : Fin 256 → EReal) (clsW : Fin 256 → Fin 512 → EReal) (clsB g3 β3 : Fin 256 → EReal)
    (lastW : Fin 2 → Fin 256 → EReal) (lastB : Fin 2 → EReal) (bio : Fin 32 → EReal) (text : Fin 768 → EReal) : Fin 2 → EReal :=
  lin (fun j => max (ln (lin (cat (lin (lin (ln (lin text textW textB) g2 β2) Wv bv) outW outB)
      (lin (lin (ln (lin bio bioW bioB) g1 β1) Wv bv) outW outB)) clsW clsB) g3 β3 j) 0) lastW lastB

/-- `Spec.outK` is `outKraw` at the bundle's fields, the value third being rows 512 … 767 of the packed projection. -/
theorem outK_eq_raw (P : Params) (bio : Fin 32 → EReal) (text : Fin 768 → EReal) :
    outK P bio text = outKraw P.bioW P.bioB P.textW P.textB P.g1 P.β1 P.g2 P.β2
      (fun j => P.inW (blk 512 (by omega) j)) (fun j => P.inB (blk 512 (by omega) j)) P.outW P.outB P.clsW P.clsB P.g3 P.β3
      P.lastW P.lastB bio text := rfl

/-- The weight arrays as a bundle of functions of coordinates. -/
def paramsOf (a2 : (⟨2, ![256, 32]⟩ : Shape).Idx → EReal) (a3 : (⟨1, ![256]⟩ : Shape).Idx → EReal)
    (a4 : (⟨2, ![256, 768]⟩ : Shape).Idx → EReal) (a5 a6 a7 a8 a9 : (⟨1, ![256]⟩ : Shape).Idx → EReal)
    (a10 : (⟨2, ![768, 256]⟩ : Shape).Idx → EReal) (a11 : (⟨1, ![768]⟩ : Shape).Idx → EReal)
    (a12 : (⟨2, ![256, 256]⟩ : Shape).Idx → EReal) (a13 : (⟨1, ![256]⟩ : Shape).Idx → EReal)
    (a14 : (⟨2, ![256, 512]⟩ : Shape).Idx → EReal) (a15 a16 a17 : (⟨1, ![256]⟩ : Shape).Idx → EReal)
    (a18 : (⟨2, ![2, 256]⟩ : Shape).Idx → EReal) (a19 : (⟨1, ![2]⟩ : Shape).Idx → EReal) : Params where
  bioW := mat a2
  bioB := vec a3
  textW := mat a4
  textB := vec a5
  g1 := vec a6
  β1 := vec a7
  g2 := vec a8
  β2 := vec a9
  inW := mat a10
  inB := vec a11
  outW := mat a12
  outB := vec a13
  clsW := mat a14
  clsB := vec a15
  g3 := vec a16
  β3 := vec a17
  lastW := mat a18
  lastB := vec a19

/-- The result array without attention weights: entry `(r, c)` is column `c` of the network on row `r` of the features. -/
def GK (a0 : (⟨2, ![65536, 32]⟩ : Shape).Idx → EReal) (a1 : (⟨2, ![65536, 768]⟩ : Shape).Idx → EReal)
    (a2 : (⟨2, ![256, 32]⟩ : Shape).Idx → EReal) (a3 : (⟨1, ![256]⟩ : Shape).Idx → EReal)
    (a4 : (⟨2, ![256, 768]⟩ : Shape).Idx → EReal) (a5 a6 a7 a8 a9 : (⟨1, ![256]⟩ : Shape).Idx → EReal)
    (a10 : (⟨2, ![768, 256]⟩ : Shape).Idx → EReal) (a11 : (⟨1, ![768]⟩ : Shape).Idx → EReal)
    (a12 : (⟨2, ![256, 256]⟩ : Shape).Idx → EReal) (a13 : (⟨1, ![256]⟩ : Shape).Idx → EReal)
    (a14 : (⟨2, ![256, 512]⟩ : Shape).Idx → EReal) (a15 a16 a17 : (⟨1, ![256]⟩ : Shape).Idx → EReal)
    (a18 : (⟨2, ![2, 256]⟩ : Shape).Idx → EReal) (a19 : (⟨1, ![2]⟩ : Shape).Idx → EReal) :
    (⟨2, ![65536, 2]⟩ : Shape).Idx → EReal :=
  fun i => outK (paramsOf a2 a3 a4 a5 a6 a7 a8 a9 a10 a11 a12 a13 a14 a15 a16 a17 a18 a19) (row a0 (i 0)) (row a1 (i 0)) (i 1)

/-- The result array with the one-key attention weights. -/
def GR (a0 : (⟨2, ![65536, 32]⟩ : Shape).Idx → EReal) (a1 : (⟨2, ![65536, 768]⟩ : Shape).Idx → EReal)
    (a2 : (⟨2, ![256, 32]⟩ : Shape).Idx → EReal) (a3 : (⟨1, ![256]⟩ : Shape).Idx → EReal)
    (a4 : (⟨2, ![256, 768]⟩ : Shape).Idx → EReal) (a5 a6 a7 a8 a9 : (⟨1, ![256]⟩ : Shape).Idx → EReal)
    (a10 : (⟨2, ![768, 256]⟩ : Shape).Idx → EReal) (a11 : (⟨1, ![768]⟩ : Shape).Idx → EReal)
    (a12 : (⟨2, ![256, 256]⟩ : Shape).Idx → EReal) (a13 : (⟨1, ![256]⟩ : Shape).Idx → EReal)
    (a14 : (⟨2, ![256, 512]⟩ : Shape).Idx → EReal) (a15 a16 a17 : (⟨1, ![256]⟩ : Shape).Idx → EReal)
    (a18 : (⟨2, ![2, 256]⟩ : Shape).Idx → EReal) (a19 : (⟨1, ![2]⟩ : Shape).Idx → EReal) :
    (⟨2, ![65536, 2]⟩ : Shape).Idx → EReal :=
  fun i => outR (paramsOf a2 a3 a4 a5 a6 a7 a8 a9 a10 a11 a12 a13 a14 a15 a16 a17 a18 a19) (row a0 (i 0)) (row a1 (i 0)) (i 1)

end Cert.Arrays

end
-- ==== Proof.NormRow.lean ====
/-
  The layer normalisation of a 1024 × 256 block, as the kernel body spells it, read row by row.

  The mean of each row is kept as a unit column (sum along the row, cast to a column, divided by 256) and spread
  back along the row; the variance is the same mean taken of the squared deviations. Row `p` of the normalised
  block is `Spec.ln` of row `p` of the operand.
-/
import proofs.«175654_j61761629716762_1_alg».proof.Proof.RowOps

noncomputable section

namespace Cert.RowOps

open Idealize.ShloMosaic Idealize.ShloMosaic.ValueIdx Cert.Spec

/-- The sum along each row of a 1024 × 256 block, kept as a unit column and divided by 256. -/
def meanCol (x : FVec Ideal ⟨2, ![1024, 256]⟩ .f32)
    (hred : (⟨2, ![1024, 256]⟩ : Shape).Reduces [1] ⟨1, ![1024]⟩)
    (hc1 : (⟨1, ![1024]⟩ : Shape).ShapeCasts ⟨2, ![1024, 1]⟩) : FVec Ideal ⟨2, ![1024, 1]⟩ .f32 :=
  divf (shapeCast ⟨2, ![1024, 1]⟩ (multiReduction .add [1] ⟨1, ![1024]⟩ x 0x00000000#32 hred (.inl rfl) rfl) hc1)
    (broadcast ⟨2, ![1024, 1]⟩ (Scalar.ofBits .f32 0x43800000#32))

/-- Entry `p` of that column is the mean of row `p`. -/
theorem meanCol_apply (x : FVec Ideal ⟨2, ![1024, 256]⟩ .f32)
    (hred : (⟨2, ![1024, 256]⟩ : Shape).Reduces [1] ⟨1, ![1024]⟩)
    (hc1 : (⟨1, ![1024]⟩ : Shape).ShapeCasts ⟨2, ![1024, 1]⟩) (p : Fin 1024) (u : Fin 1) :
    meanCol x hred hc1 (ix2 p u) = mean (row x p) := by
  show Ideal.div (shapeCast ⟨2, ![1024, 1]⟩ (multiReduction .add [1] ⟨1, ![1024]⟩ x 0x00000000#32 hred (.inl rfl) rfl) hc1 (ix2 p u)) c256
      = Ideal.div (∑ j : Fin 256, x (ix2 p j)) c256
  refine congrArg (Ideal.div · c256) ?_
  refine (LibKeepdims.shapeCast_a_a1_apply _ hc1 p u).trans ?_
  refine (Ideal.multiReduction_add_single x 0x00000000#32 hred (.inl rfl) rfl (ix1 p)).trans ?_
  have hl : ∀ k : Fin 256, hred.lift (ix1 p) k = ix2 p k := fun k => funext fun c => Fin.ext (by
    match c with
    | ⟨0, _⟩ => rfl
    | ⟨1, _⟩ => rfl)
  exact Finset.sum_congr rfl fun k _ => congrArg x (hl k)

/-- The block less its row means. -/
def centred (x : FVec Ideal ⟨2, ![1024, 256]⟩ .f32)
    (hred : (⟨2, ![1024, 256]⟩ : Shape).Reduces [1] ⟨1, ![1024]⟩)
    (hc1 : (⟨1, ![1024]⟩ : Shape).ShapeCasts ⟨2, ![1024, 1]⟩)
    (hb1 : (⟨2, ![1024, 1]⟩ : Shape).Broadcasts ⟨2, ![1024, 256]⟩) : FVec Ideal ⟨2, ![1024, 256]⟩ .f32 :=
  subf x (broadcastTo ⟨2, ![1024, 256]⟩ (meanCol x hred hc1) hb1)

theorem centred_apply (x : FVec Ideal ⟨2, ![1024, 256]⟩ .f32)
    (hred : (⟨2, ![1024, 256]⟩ : Shape).Reduces [1] ⟨1, ![1024]⟩)
    (hc1 : (⟨1, ![1024]⟩ : Shape).ShapeCasts ⟨2, ![1024, 1]⟩)
    (hb1 : (⟨2, ![1024, 1]⟩ : Shape).Broadcasts ⟨2, ![1024, 256]⟩) (p : Fin 1024) (k : Fin 256) :
    centred x hred hc1 hb1 (ix2 p k) = x (ix2 p k) - mean (row x p) := by
  show x (ix2 p k) - broadcastTo ⟨2, ![1024, 256]⟩ (meanCol x hred hc1) hb1 (ix2 p k) = _
  rw [LibKeepdims.broadcastTo_a1_ab_apply, meanCol_apply]

/-- The normalised block: centred, scaled by the inverse root of the variance plus the constant, then gain and offset. -/
def lnBlock (x : FVec Ideal ⟨2, ![1024, 256]⟩ .f32) (g β : FVec Ideal ⟨1, ![256]⟩ .f32)
    (hred : (⟨2, ![1024, 256]⟩ : Shape).Reduces [1] ⟨1, ![1024]⟩)
    (hc1 : (⟨1, ![1024]⟩ : Shape).ShapeCasts ⟨2, ![1024, 1]⟩)
    (hb1 : (⟨2, ![1024, 1]⟩ : Shape).Broadcasts ⟨2, ![1024, 256]⟩)
    (hc2 : (⟨1, ![256]⟩ : Shape).ShapeCasts ⟨2, ![1, 256]⟩)
    (hb2 : (⟨2, ![1, 256]⟩ : Shape).Broadcasts ⟨2, ![1024, 256]⟩) : FVec Ideal ⟨2, ![1024, 256]⟩ .f32 :=
  addf (mulf (mulf (centred x hred hc1 hb1)
      (broadcastTo ⟨2, ![1024, 256]⟩ (rsqrt (addf
        (meanCol (mulf (centred x hred hc1 hb1) (centred x hred hc1 hb1)) hred hc1)
        (broadcast ⟨2, ![1024, 1]⟩ (Scalar.ofBits .f32 0x3727C5AC#32)))) hb1))
      (broadcastTo ⟨2, ![1024, 256]⟩ (shapeCast ⟨2, ![1, 256]⟩ g hc2) hb2))
    (broadcastTo ⟨2, ![1024, 256]⟩ (shapeCast ⟨2, ![1, 256]⟩ β hc2) hb2)

/-- Row `p` of the normalised block is the layer normalisation of row `p`. -/
theorem lnBlock_row (x : FVec Ideal ⟨2, ![1024, 256]⟩ .f32) (g β : FVec Ideal ⟨1, ![256]⟩ .f32)
    (hred : (⟨2, ![1024, 256]⟩ : Shape).Reduces [1] ⟨1, ![1024]⟩)
    (hc1 : (⟨1, ![1024]⟩ : Shape).ShapeCasts ⟨2, ![1024, 1]⟩)
    (hb1 : (⟨2, ![1024, 1]⟩ : Shape).Broadcasts ⟨2, ![1024, 256]⟩)
    (hc2 : (⟨1, ![256]⟩ : Shape).ShapeCasts ⟨2, ![1, 256]⟩)
    (hb2 : (⟨2, ![1, 256]⟩ : Shape).Broadcasts ⟨2, ![1024, 256]⟩) (p : Fin 1024) :
    row (lnBlock x g β hred hc1 hb1 hc2 hb2) p = ln (row x p) (vec g) (vec β) := by
  funext j
  have hvar : meanCol (mulf (centred x hred hc1 hb1) (centred x hred hc1 hb1)) hred hc1 (ix2 p (0 : Fin 1))
      = var (row x p) := by
    rw [meanCol_apply]
    unfold var mean
    refine congrArg (Ideal.div · c256) (Finset.sum_congr rfl fun k _ => ?_)
    show centred x hred hc1 hb1 (ix2 p k) * centred x hred hc1 hb1 (ix2 p k) = _
    rw [centred_apply]
    rfl
  show centred x hred hc1 hb1 (ix2 p j)
        * broadcastTo ⟨2, ![1024, 256]⟩ (rsqrt (addf
            (meanCol (mulf (centred x hred hc1 hb1) (centred x hred hc1 hb1)) hred hc1)
            (broadcast ⟨2, ![1024, 1]⟩ (Scalar.ofBits .f32 0x3727C5AC#32)))) hb1 (ix2 p j)
        * broadcastTo ⟨2, ![1024, 256]⟩ (shapeCast ⟨2, ![1, 256]⟩ g hc2) hb2 (ix2 p j)
      + broadcastTo ⟨2, ![1024, 256]⟩ (shapeCast ⟨2, ![1, 256]⟩ β hc2) hb2 (ix2 p j) = _
  rw [LibKeepdims.broadcastTo_a1_ab_apply, broadcastTo_1b_ab_apply, broadcastTo_1b_ab_apply, shapeCast_a_1a_apply,
    shapeCast_a_1a_apply, centred_apply]
  show (x (ix2 p j) - mean (row x p))
        * Ideal.rsqrt (meanCol (mulf (centred x hred hc1 hb1) (centred x hred hc1 hb1)) hred hc1 (ix2 p (0 : Fin 1)) + eps)
        * g (ix1 j) + β (ix1 j) = _
  rw [hvar]
  rfl

end Cert.RowOps

end
-- ==== Proof.KernelRow.lean ====
/-
  The kernel body's one store, read row by row.

  The body computes, on a block of 1024 rows, the whole network of `Arrays.outKraw`: every matrix product is taken
  against the transposed weight after a change of float format (the identity on the extended reals) and into a zero
  accumulator, every bias is cast to a row and spread along the rows, and each of the three normalisations is the
  block normalisation of `NormRow`. `blockK` is that computation written once over whole blocks; the body's payload
  unfolds to it, and each of its rows is `outKraw` of the corresponding rows of the two feature blocks.
-/
import proofs.«175654_j61761629716762_1_alg».proof.Proof.Gen.KernelIdeal.Frame
import proofs.«175654_j61761629716762_1_alg».proof.Proof.Arrays
import proofs.«175654_j61761629716762_1_alg».proof.Proof.NormRow

set_option maxRecDepth 65536

noncomputable section

namespace Cert.KernelRow

open Idealize.ShloMosaic Idealize.ShloMosaic.ValueIdx Cert.Spec Cert.RowOps Cert.Arrays
open Cert.KernelIdeal Cert.KernelIdeal.Gen

/-- What makes a dot a plain product of an `M × K` by a `K × N` matrix. -/
structure DotFacts {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The dot `dot_S1024x32_S32x256_S1024x256_1_0_0_1_n_n` is rows × contraction times contraction × columns, one contracted coordinate of extent 32. -/
theorem D32_facts : DotFacts dot_S1024x32_S32x256_S1024x256_1_0_0_1_n_n where
  hr := rfl
  hs := rfl
  hl0 := fun i q => by
    unfold DotDims.lhsIdx
    rw [dif_neg (show ¬(0 : Fin S1024x32.rank) ∈ dot_S1024x32_S32x256_S1024x256_1_0_0_1_n_n.lhsBatch by decide), dif_pos (show (0 : Fin S1024x32.rank) ∈ dot_S1024x32_S32x256_S1024x256_1_0_0_1_n_n.lhsNonContracting by decide)]
    rfl
  hl1 := fun i q => dot_S1024x32_S32x256_S1024x256_1_0_0_1_n_n.lhsIdx_val_of_single rfl i q
  hr0 := fun i q => dot_S1024x32_S32x256_S1024x256_1_0_0_1_n_n.rhsIdx_val_of_single rfl i q
  hr1 := fun i q => by
    unfold DotDims.rhsIdx
    rw [dif_neg (show ¬(1 : Fin S32x256.rank) ∈ dot_S1024x32_S32x256_S1024x256_1_0_0_1_n_n.rhsBatch by decide), dif_pos (show (1 : Fin S32x256.rank) ∈ dot_S1024x32_S32x256_S1024x256_1_0_0_1_n_n.rhsNonContracting by decide)]
    rfl

/-- The dot `dot_S1024x768_S768x256_S1024x256_1_0_0_1_n_n` is rows × contraction times contraction × columns, one contracted coordinate of extent 768. -/
theorem D768_facts : DotFacts dot_S1024x768_S768x256_S1024x256_1_0_0_1_n_n where
  hr := rfl
  hs := rfl
  hl0 := fun i q => by
    unfold DotDims.lhsIdx
    rw [dif_neg (show ¬(0 : Fin S1024x768.rank) ∈ dot_S1024x768_S768x256_S1024x256_1_0_0_1_n_n.lhsBatch by decide), dif_pos (show (0 : Fin S1024x768.rank) ∈ dot_S1024x768_S768x256_S1024x256_1_0_0_1_n_n.lhsNonContracting by decide)]
    rfl
  hl1 := fun i q => dot_S1024x768_S768x256_S1024x256_1_0_0_1_n_n.lhsIdx_val_of_single rfl i q
  hr0 := fun i q => dot_S1024x768_S768x256_S1024x256_1_0_0_1_n_n.rhsIdx_val_of_single rfl i q
  hr1 := fun i q => by
    unfold DotDims.rhsIdx
    rw [dif_neg (show ¬(1 : Fin S768x256.rank) ∈ dot_S1024x768_S768x256_S1024x256_1_0_0_1_n_n.rhsBatch by decide), dif_pos (show (1 : Fin S768x256.rank) ∈ dot_S1024x768_S768x256_S1024x256_1_0_0_1_n_n.rhsNonContracting by decide)]
    rfl

/-- The dot `dot_S1024x256_S256x256_S1024x256_1_0_0_1_n_n` is rows × contraction times contraction × columns, one contracted coordinate of extent 256. -/
theorem D256_facts : DotFacts dot_S1024x256_S256x256_S1024x256_1_0_0_1_n_n where
  hr := rfl
  hs := rfl
  hl0 := fun i q => by
    unfold DotDims.lhsIdx
    rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
    rfl
  hl1 := fun i q => dot_S1024x256_S256x256_S1024x256_1_0_0_1_n_n.lhsIdx_val_of_single rfl i q
  hr0 := fun i q => dot_S1024x256_S256x256_S1024x256_1_0_0_1_n_n.rhsIdx_val_of_single rfl i q
  hr1 := fun i q => by
    unfold DotDims.rhsIdx
    rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
    rfl

/-- The dot `dot_S1024x512_S512x256_S1024x256_1_0_0_1_n_n` is rows × contraction times contraction × columns, one contracted coordinate of extent 512. -/
theorem D512_facts : DotFacts dot_S1024x512_S512x256_S1024x256_1_0_0_1_n_n where
  hr := rfl
  hs := rfl
  hl0 := fun i q => by
    unfold DotDims.lhsIdx
    rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
    rfl
  hl1 := fun i q => dot_S1024x512_S512x256_S1024x256_1_0_0_1_n_n.lhsIdx_val_of_single rfl i q
  hr0 := fun i q => dot_S1024x512_S512x256_S1024x256_1_0_0_1_n_n.rhsIdx_val_of_single rfl i q
  hr1 := fun i q => by
    unfold DotDims.rhsIdx
    rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
    rfl

/-- The dot `dot_S1024x256_S256x2_S1024x2_1_0_0_1_n_n` is rows × contraction times contraction × columns, one contracted coordinate of extent 256. -/
theorem D2_facts : DotFacts dot_S1024x256_S256x2_S1024x2_1_0_0_1_n_n where
  hr := rfl
  hs := rfl
  hl0 := fun i q => by
    unfold DotDims.lhsIdx
    rw [dif_neg (show ¬(0 : Fin S1024x256.rank) ∈ dot_S1024x256_S256x2_S1024x2_1_0_0_1_n_n.lhsBatch by decide), dif_pos (show (0 : Fin S1024x256.rank) ∈ dot_S1024x256_S256x2_S1024x2_1_0_0_1_n_n.lhsNonContracting by decide)]
    rfl
  hl1 := fun i q => dot_S1024x256_S256x2_S1024x2_1_0_0_1_n_n.lhsIdx_val_of_single rfl i q
  hr0 := fun i q => dot_S1024x256_S256x2_S1024x2_1_0_0_1_n_n.rhsIdx_val_of_single rfl i q
  hr1 := fun i q => by
    unfold DotDims.rhsIdx
    rw [dif_neg (show ¬(1 : Fin S256x2.rank) ∈ dot_S1024x256_S256x2_S1024x2_1_0_0_1_n_n.rhsBatch by decide), dif_pos (show (1 : Fin S256x2.rank) ∈ dot_S1024x256_S256x2_S1024x2_1_0_0_1_n_n.rhsNonContracting by decide)]
    rfl

/-- A linear layer of the body: both operands changed to the narrower float format, the weight transposed, the product
    taken into zero, the bias cast to a row and spread along the rows. -/
def linT {M K N : ℕ} (d : DotDims ⟨2, ![M, K]⟩ ⟨2, ![K, N]⟩ ⟨2, ![M, N]⟩)
    (x : FVec Ideal ⟨2, ![M, K]⟩ .f32) (w : FVec Ideal ⟨2, ![N, K]⟩ .f32) (b : FVec Ideal ⟨1, ![N]⟩ .f32)
    (hlt : (FTy.bf16).bits < (FTy.f32).bits)
    (htr : (⟨2, ![N, K]⟩ : Shape).Transposes [1, 0] ⟨2, ![K, N]⟩)
    (hsc : (⟨1, ![N]⟩ : Shape).ShapeCasts ⟨2, ![1, N]⟩) (hbc : (⟨2, ![1, N]⟩ : Shape).Broadcasts ⟨2, ![M, N]⟩) :
    FVec Ideal ⟨2, ![M, N]⟩ .f32 :=
  addf (matmul d none (truncf .bf16 x hlt) (transpose ⟨2, ![K, N]⟩ [1, 0] (truncf .bf16 w hlt) htr)
      (constant ⟨2, ![M, N]⟩ .f32 0x00000000#32))
    (broadcastTo ⟨2, ![M, N]⟩ (shapeCast ⟨2, ![1, N]⟩ b hsc) hbc)

/-- Each of its rows is the linear map of the operand's row. -/
theorem linT_row {M K N : ℕ} (d : DotDims ⟨2, ![M, K]⟩ ⟨2, ![K, N]⟩ ⟨2, ![M, N]⟩) (hd : DotFacts d)
    (x : FVec Ideal ⟨2, ![M, K]⟩ .f32) (w : FVec Ideal ⟨2, ![N, K]⟩ .f32) (b : FVec Ideal ⟨1, ![N]⟩ .f32)
    (hlt : (FTy.bf16).bits < (FTy.f32).bits)
    (htr : (⟨2, ![N, K]⟩ : Shape).Transposes [1, 0] ⟨2, ![K, N]⟩)
    (hsc : (⟨1, ![N]⟩ : Shape).ShapeCasts ⟨2, ![1, N]⟩) (hbc : (⟨2, ![1, N]⟩ : Shape).Broadcasts ⟨2, ![M, N]⟩) (p : Fin M) :
    row (linT d x w b hlt htr hsc hbc) p = lin (row x p) (mat w) (vec b) :=
  linear_row d hd.hr hd.hs hd.hl0 hd.hl1 hd.hr0 hd.hr1 (truncf .bf16 x hlt) (truncf .bf16 w hlt) b htr hsc hbc p

/-- The zeros of a whole-block rectangle, in the two spellings the body uses. -/
theorem hz2 : (![0, 0] : Fin 2 → Nat) = fun _ => 0 := funext fun a => by fin_cases a <;> rfl
theorem hz1 : (![0] : Fin 1 → Nat) = fun _ => 0 := funext fun a => by fin_cases a; rfl

/-- A hidden block: a linear layer followed by the block normalisation. -/
abbrev hidden {K : ℕ} (d : DotDims ⟨2, ![1024, K]⟩ ⟨2, ![K, 256]⟩ ⟨2, ![1024, 256]⟩)
    (x : FVec Ideal ⟨2, ![1024, K]⟩ .f32) (w : FVec Ideal ⟨2, ![256, K]⟩ .f32) (b g β : FVec Ideal ⟨1, ![256]⟩ .f32)
    (htr : (⟨2, ![256, K]⟩ : Shape).Transposes [1, 0] ⟨2, ![K, 256]⟩) : FVec Ideal S1024x256 .f32 :=
  lnBlock (linT d x w b bitsLt_bf16_f32 htr shapeCasts_S256_S1x256 broadcasts_S1x256_S1024x256) g β
    reduces_S1024x256_S1024 shapeCasts_S1024_S1024x1 broadcasts_S1024x1_S1024x256
    shapeCasts_S256_S1x256 broadcasts_S1x256_S1024x256

/-- An attention branch on a hidden block: the value projection, then the output projection. -/
abbrev branch (h : FVec Ideal S1024x256 .f32) (wv : FVec Ideal S256x256 .f32) (bv : FVec Ideal S256 .f32)
    (wo : FVec Ideal S256x256 .f32) (bo : FVec Ideal S256 .f32) : FVec Ideal S1024x256 .f32 :=
  linT dot_S1024x256_S256x256_S1024x256_1_0_0_1_n_n
    (linT dot_S1024x256_S256x256_S1024x256_1_0_0_1_n_n h (shapeCast S256x256 wv shapeCasts_S256x256_S256x256)
      (shapeCast S256 bv shapeCasts_S256_S256) bitsLt_bf16_f32 transposes_S256x256_p1_0_S256x256 shapeCasts_S256_S1x256
      broadcasts_S1x256_S1024x256)
    wo bo bitsLt_bf16_f32 transposes_S256x256_p1_0_S256x256 shapeCasts_S256_S1x256 broadcasts_S1x256_S1024x256

/-- The whole computation of the body over blocks. -/
def blockK (x0 : FVec Ideal S1024x32 .f32) (x1 : FVec Ideal S1024x768 .f32) (x2 : FVec Ideal S256x32 .f32) (x3 : FVec Ideal S256 .f32)
    (x4 : FVec Ideal S256x768 .f32) (x5 x6 x7 x8 x9 : FVec Ideal S256 .f32) (x10 : FVec Ideal S256x256 .f32) (x11 : FVec Ideal S256 .f32)
    (x12 : FVec Ideal S256x256 .f32) (x13 : FVec Ideal S256 .f32) (x14 : FVec Ideal S256x512 .f32) (x15 x16 x17 : FVec Ideal S256 .f32)
    (x18 : FVec Ideal S2x256 .f32) (x19 : FVec Ideal S2 .f32) : FVec Ideal S1024x2 .f32 :=
  linT dot_S1024x256_S256x2_S1024x2_1_0_0_1_n_n
    (maximumf
      (lnBlock
        (linT dot_S1024x512_S512x256_S1024x256_1_0_0_1_n_n
          (concatenate S1024x512 1
            [⟨S1024x256, branch (hidden dot_S1024x768_S768x256_S1024x256_1_0_0_1_n_n x1 x4 x5 x8 x9 transposes_S256x768_p1_0_S768x256) x10 x11 x12 x13⟩,
             ⟨S1024x256, branch (hidden dot_S1024x32_S32x256_S1024x256_1_0_0_1_n_n x0 x2 x3 x6 x7 transposes_S256x32_p1_0_S32x256) x10 x11 x12 x13⟩]
            concatenates_S1024x256_S1024x256_S1024x512_d1)
          x14 x15 bitsLt_bf16_f32 transposes_S256x512_p1_0_S512x256 shapeCasts_S256_S1x256 broadcasts_S1x256_S1024x256)
        x16 x17 reduces_S1024x256_S1024 shapeCasts_S1024_S1024x1 broadcasts_S1024x1_S1024x256
        shapeCasts_S256_S1x256 broadcasts_S1x256_S1024x256)
      (broadcast S1024x256 (Scalar.ofBits .f32 0x00000000#32)))
    x18 x19 bitsLt_bf16_f32 transposes_S2x256_p1_0_S256x2 shapeCasts_S2_S1x2 broadcasts_S1x2_S1024x2

/-- What the body leaves in the output block is `blockK` of the input blocks. -/
theorem out_eq_blockK (x0 : Vec Ideal S1024x32 .f32) (x1 : Vec Ideal S1024x768 .f32) (x2 : Vec Ideal S256x32 .f32) (x3 : Vec Ideal S256 .f32)
    (x4 : Vec Ideal S256x768 .f32) (x5 x6 x7 x8 x9 : Vec Ideal S256 .f32) (x10 : Vec Ideal S256x256 .f32) (x11 : Vec Ideal S256 .f32)
    (x12 : Vec Ideal S256x256 .f32) (x13 : Vec Ideal S256 .f32) (x14 : Vec Ideal S256x512 .f32) (x15 x16 x17 : Vec Ideal S256 .f32)
    (x18 : Vec Ideal S2x256 .f32) (x19 : Vec Ideal S2 .f32) :
    out0_20 (F := Ideal) x0 x1 x2 x3 x4 x5 x6 x7 x8 x9 x10 x11 x12 x13 x14 x15 x16 x17 x18 x19
      = blockK x0 x1 x2 x3 x4 x5 x6 x7 x8 x9 x10 x11 x12 x13 x14 x15 x16 x17 x18 x19 := by
  unfold out0_20
  rw [View.canon_unit_zero hz2]
  simp only [View.ld_unit_zero (S := S1024x32) hz2, View.ld_unit_zero (S := S1024x768) hz2, View.ld_unit_zero (S := S256x32) hz2,
    View.ld_unit_zero (S := S256x768) hz2, View.ld_unit_zero (S := S256x256) hz2, View.ld_unit_zero (S := S256x512) hz2,
    View.ld_unit_zero (S := S2x256) hz2, View.ld_unit_zero (S := S256) hz1, View.ld_unit_zero (S := S2) hz1]
  rfl

/-- A cast of an array to its own shape changes nothing, read as a matrix or as a vector. -/
theorem mat_cast_self (w : FVec Ideal S256x256 .f32) : mat (shapeCast S256x256 w shapeCasts_S256x256_S256x256) = mat w := by
  rw [shapeCast_self]
theorem vec_cast_self (b : FVec Ideal S256 .f32) : vec (shapeCast S256 b shapeCasts_S256_S256) = vec b := by
  rw [shapeCast_self]

/-- Row `p` of `blockK` is the network on rows `p` of the two feature blocks. -/
theorem blockK_row (x0 : FVec Ideal S1024x32 .f32) (x1 : FVec Ideal S1024x768 .f32) (x2 : FVec Ideal S256x32 .f32) (x3 : FVec Ideal S256 .f32)
    (x4 : FVec Ideal S256x768 .f32) (x5 x6 x7 x8 x9 : FVec Ideal S256 .f32) (x10 : FVec Ideal S256x256 .f32) (x11 : FVec Ideal S256 .f32)
    (x12 : FVec Ideal S256x256 .f32) (x13 : FVec Ideal S256 .f32) (x14 : FVec Ideal S256x512 .f32) (x15 x16 x17 : FVec Ideal S256 .f32)
    (x18 : FVec Ideal S2x256 .f32) (x19 : FVec Ideal S2 .f32) (p : Fin 1024) :
    row (blockK x0 x1 x2 x3 x4 x5 x6 x7 x8 x9 x10 x11 x12 x13 x14 x15 x16 x17 x18 x19) p
      = outKraw (mat x2) (vec x3) (mat x4) (vec x5) (vec x6) (vec x7) (vec x8) (vec x9) (mat x10) (vec x11) (mat x12) (vec x13)
          (mat x14) (vec x15) (vec x16) (vec x17) (mat x18) (vec x19) (row x0 p) (row x1 p) := by
  unfold blockK outKraw
  rw [linT_row _ D2_facts]
  refine congrArg (fun f => lin f (mat x18) (vec x19)) (funext fun j => ?_)
  show max (row (lnBlock _ x16 x17 _ _ _ _ _) p j) (Ideal.ofBits .f32 0x00000000#32) = _
  rw [Ideal.ofBits_zero_f32, lnBlock_row, linT_row _ D512_facts, concat_row,
    linT_row _ D256_facts, linT_row _ D256_facts, linT_row _ D256_facts, linT_row _ D256_facts,
    lnBlock_row, lnBlock_row, linT_row _ D768_facts, linT_row _ D32_facts, mat_cast_self, vec_cast_self]

/-- Row `p` of what the body leaves in the output block. -/
theorem out_row (x0 : Vec Ideal S1024x32 .f32) (x1 : Vec Ideal S1024x768 .f32) (x2 : Vec Ideal S256x32 .f32) (x3 : Vec Ideal S256 .f32)
    (x4 : Vec Ideal S256x768 .f32) (x5 x6 x7 x8 x9 : Vec Ideal S256 .f32) (x10 : Vec Ideal S256x256 .f32) (x11 : Vec Ideal S256 .f32)
    (x12 : Vec Ideal S256x256 .f32) (x13 : Vec Ideal S256 .f32) (x14 : Vec Ideal S256x512 .f32) (x15 x16 x17 : Vec Ideal S256 .f32)
    (x18 : Vec Ideal S2x256 .f32) (x19 : Vec Ideal S2 .f32) (p : Fin 1024) :
    row (out0_20 (F := Ideal) x0 x1 x2 x3 x4 x5 x6 x7 x8 x9 x10 x11 x12 x13 x14 x15 x16 x17 x18 x19) p
      = outKraw (mat x2) (vec x3) (mat x4) (vec x5) (vec x6) (vec x7) (vec x8) (vec x9) (mat x10) (vec x11) (mat x12) (vec x13)
          (mat x14) (vec x15) (vec x16) (vec x17) (mat x18) (vec x19) (row x0 p) (row x1 p) := by
  rw [out_eq_blockK]
  exact blockK_row x0 x1 x2 x3 x4 x5 x6 x7 x8 x9 x10 x11 x12 x13 x14 x15 x16 x17 x18 x19 p

end Cert.KernelRow

end
-- ==== Proof.KernelArray.lean ====
/-
  From the blocks the kernel writes back to the result array as one function of the argument arrays.

  The grid has 64 points. At point t the kernel stages rows 1024 t … 1024 t + 1023 of the two feature arrays and the
  whole of every weight array (for the packed projection, its rows 512 … 767, cut out before the region), and writes
  back rows 1024 t … 1024 t + 1023 of the result. One row of the body's result is the network on that row of the staged
  feature blocks (`OutRow`, proved row by row elsewhere and used here as a fact), so the block written at point t is block t of the array `GK` of the arguments; the 64 blocks tile
  the result, row r lying in the block of point r / 1024; so the result array ends holding `GK`.
-/
import proofs.«175654_j61761629716762_1_alg».proof.Proof.Gen.KernelIdeal.Value
import proofs.«175654_j61761629716762_1_alg».proof.Proof.Arrays
import proofs.«175654_j61761629716762_1_alg».proof.Proof.KernelRow
import Idealize.ShloMosaic.Lib.Pipeline.Value
import Idealize.ShloMosaic.Lib.ValueIdx
import Idealize.ShloMosaic.Lib.ValueLayout
import Idealize.ShloMosaic.Lib.StableHlo.Run

noncomputable section

namespace Cert.KernelArray

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)
open Cert.Spec Cert.RowOps Cert.Arrays

variable (m : (ℓ : Loc nD τ sig) → Buf (Elt Ideal) ℓ) (ρ : Dev nD → PrngReg)

/-! ## The index maps, decided over the 64 grid points -/

/-- Windows 0, 1 and 20 move with the point: block index (t, 0). -/
theorem idx_a : ∀ t : Fin cfg0.N,
    win0_0.index t (0 : Fin 2) = t.val ∧ win0_0.index t (1 : Fin 2) = 0
    ∧ win0_1.index t (0 : Fin 2) = t.val ∧ win0_1.index t (1 : Fin 2) = 0
    ∧ win0_20.index t (0 : Fin 2) = t.val ∧ win0_20.index t (1 : Fin 2) = 0 :=
  (by decide +kernel : ∀ t : Fin grid0.N, _)

/-- Every other window stays at block index 0 on every axis. -/
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 1) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 1) = 0 :=
  (by decide +kernel : ∀ t : Fin grid0.N, _)
theorem idx_6 : ∀ t : Fin cfg0.N, win0_6.index t (0 : Fin 1) = 0 :=
  (by decide +kernel : ∀ t : Fin grid0.N, _)
theorem idx_7 : ∀ t : Fin cfg0.N, win0_7.index t (0 : Fin 1) = 0 :=
  (by decide +kernel : ∀ t : Fin grid0.N, _)
theorem idx_8 : ∀ t : Fin cfg0.N, win0_8.index t (0 : Fin 1) = 0 :=
  (by decide +kernel : ∀ t : Fin grid0.N, _)
theorem idx_9 : ∀ t : Fin cfg0.N, win0_9.index t (0 : Fin 1) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 1) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 1) = 0 :=
  (by decide +kernel : ∀ t : Fin grid0.N, _)
theorem idx_16 : ∀ t : Fin cfg0.N, win0_16.index t (0 : Fin 1) = 0 :=
  (by decide +kernel : ∀ t : Fin grid0.N, _)
theorem idx_17 : ∀ t : Fin cfg0.N, win0_17.index t (0 : Fin 1) = 0 :=
  (by decide +kernel : ∀ t : Fin grid0.N, _)
theorem idx_18 : ∀ t : Fin cfg0.N, win0_18.index t (0 : Fin 2) = 0 ∧ win0_18.index t (1 : Fin 2) = 0 :=
  (by decide +kernel : ∀ t : Fin grid0.N, _)
theorem idx_19 : ∀ t : Fin cfg0.N, win0_19.index t (0 : Fin 1) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 1) = 0 :=
  (by decide +kernel : ∀ t : Fin grid0.N, _)

/-! ## The two arrays cut out before the region -/

/-- The array window 10 stages: rows 512 … 767 of argument 10. -/
theorem V_main_v0 (c : Dev nD) :
    V m c main_v0 = extractStridedSlice S256x256 ![512, 0] (m ((c : Thread nD τ).loc main_arg10)) slices_S768x256_S256x256_512_0 := by
  show StableHlo.after hostOps0 (fun b => m (c, b)) (Proc.devRef .tc main_v0) = _
  after_results

/-- The array window 11 stages: entries 512 … 767 of argument 11. -/
theorem V_main_v1 (c : Dev nD) :
    V m c main_v1 = extractStridedSlice S256 ![512] (m ((c : Thread nD τ).loc main_arg11)) slices_S768_S256_512 := by
  show StableHlo.after hostOps0 (fun b => m (c, b)) (Proc.devRef .tc main_v1) = _
  after_results

/-! ## Each window's block at a point, as entries of the argument arrays -/

/-- Window 0's block at point t is rows 1024 t … 1024 t + 1023 of argument 0. -/
theorem iblk0_apply (c : Dev nD) (t : Fin cfg0.N) (p : Fin 1024) (k : Fin 32) (r : Fin 65536) (hr : r.val = 1024 * t.val + p.val) :
    (iblk m c 0 t : Vec Ideal S1024x32 .f32) (ix2 p k) = (m ((c : Thread nD τ).loc main_arg0) : S65536x32.Idx → Elt Ideal .f32) (ix2 r k) := by
  obtain ⟨e0, e1, -⟩ := idx_a t
  unfold iblk
  rw [View.read_apply]
  show V m c main_arg0 _ = _
  rw [V_main_arg0]
  congr 1
  funext a
  apply Fin.ext
  match a with
  | ⟨0, _⟩ => show win0_0.index t (0 : Fin 2) * 1024 + 1 * p.val = r.val; rw [e0, hr]; omega
  | ⟨1, _⟩ => show win0_0.index t (1 : Fin 2) * 32 + 1 * k.val = k.val; rw [e1]; omega

/-- Window 1's block at point t is rows 1024 t … 1024 t + 1023 of argument 1. -/
theorem iblk1_apply (c : Dev nD) (t : Fin cfg0.N) (p : Fin 1024) (k : Fin 768) (r : Fin 65536) (hr : r.val = 1024 * t.val + p.val) :
    (iblk m c 1 t : Vec Ideal S1024x768 .f32) (ix2 p k) = (m ((c : Thread nD τ).loc main_arg1) : S65536x768.Idx → Elt Ideal .f32) (ix2 r k) := by
  obtain ⟨-, -, e0, e1, -⟩ := idx_a t
  unfold iblk
  rw [View.read_apply]
  show V m c main_arg1 _ = _
  rw [V_main_arg1]
  congr 1
  funext a
  apply Fin.ext
  match a with
  | ⟨0, _⟩ => show win0_1.index t (0 : Fin 2) * 1024 + 1 * p.val = r.val; rw [e0, hr]; omega
  | ⟨1, _⟩ => show win0_1.index t (1 : Fin 2) * 768 + 1 * k.val = k.val; rw [e1]; omega

/-- Window 2's block is the whole array at every point. -/
theorem iblk2_eq (c : Dev nD) (t : Fin cfg0.N) : (iblk m c 2 t : Vec Ideal S256x32 .f32) = m ((c : Thread nD τ).loc main_arg2) := by
  obtain ⟨e0, e1⟩ := idx_2 t
  refine funext fun (y : S256x32.Idx) => ?_
  unfold iblk
  rw [View.read_apply]
  show V m c main_arg2 _ = _
  rw [V_main_arg2]
  congr 1
  funext a
  apply Fin.ext
  match a with
  | ⟨0, _⟩ => show win0_2.index t (0 : Fin 2) * 256 + 1 * (y 0).val = (y 0).val; rw [e0]; omega
  | ⟨1, _⟩ => show win0_2.index t (1 : Fin 2) * 32 + 1 * (y 1).val = (y 1).val; rw [e1]; omega

/-- Window 3's block is the whole array at every point. -/
theorem iblk3_eq (c : Dev nD) (t : Fin cfg0.N) : (iblk m c 3 t : Vec Ideal S256 .f32) = m ((c : Thread nD τ).loc main_arg3) := by
  have e0 := idx_3 t
  refine funext fun (y : S256.Idx) => ?_
  unfold iblk
  rw [View.read_apply]
  show V m c main_arg3 _ = _
  rw [V_main_arg3]
  congr 1
  funext a
  apply Fin.ext
  match a with
  | ⟨0, _⟩ => show win0_3.index t (0 : Fin 1) * 256 + 1 * (y 0).val = (y 0).val; rw [e0]; omega

/-- Window 4's block is the whole array at every point. -/
theorem iblk4_eq (c : Dev nD) (t : Fin cfg0.N) : (iblk m c 4 t : Vec Ideal S256x768 .f32) = m ((c : Thread nD τ).loc main_arg4) := by
  obtain ⟨e0, e1⟩ := idx_4 t
  refine funext fun (y : S256x768.Idx) => ?_
  unfold iblk
  rw [View.read_apply]
  show V m c main_arg4 _ = _
  rw [V_main_arg4]
  congr 1
  funext a
  apply Fin.ext
  match a with
  | ⟨0, _⟩ => show win0_4.index t (0 : Fin 2) * 256 + 1 * (y 0).val = (y 0).val; rw [e0]; omega
  | ⟨1, _⟩ => show win0_4.index t (1 : Fin 2) * 768 + 1 * (y 1).val = (y 1).val; rw [e1]; omega

/-- Window 5's block is the whole array at every point. -/
theorem iblk5_eq (c : Dev nD) (t : Fin cfg0.N) : (iblk m c 5 t : Vec Ideal S256 .f32) = m ((c : Thread nD τ).loc main_arg5) := by
  have e0 := idx_5 t
  refine funext fun (y : S256.Idx) => ?_
  unfold iblk
  rw [View.read_apply]
  show V m c main_arg5 _ = _
  rw [V_main_arg5]
  congr 1
  funext a
  apply Fin.ext
  match a with
  | ⟨0, _⟩ => show win0_5.index t (0 : Fin 1) * 256 + 1 * (y 0).val = (y 0).val; rw [e0]; omega

/-- Window 6's block is the whole array at every point. -/
theorem iblk6_eq (c : Dev nD) (t : Fin cfg0.N) : (iblk m c 6 t : Vec Ideal S256 .f32) = m ((c : Thread nD τ).loc main_arg6) := by
  have e0 := idx_6 t
  refine funext fun (y : S256.Idx) => ?_
  unfold iblk
  rw [View.read_apply]
  show V m c main_arg6 _ = _
  rw [V_main_arg6]
  congr 1
  funext a
  apply Fin.ext
  match a with
  | ⟨0, _⟩ => show win0_6.index t (0 : Fin 1) * 256 + 1 * (y 0).val = (y 0).val; rw [e0]; omega

/-- Window 7's block is the whole array at every point. -/
theorem iblk7_eq (c : Dev nD) (t : Fin cfg0.N) : (iblk m c 7 t : Vec Ideal S256 .f32) = m ((c : Thread nD τ).loc main_arg7) := by
  have e0 := idx_7 t
  refine funext fun (y : S256.Idx) => ?_
  unfold iblk
  rw [View.read_apply]
  show V m c main_arg7 _ = _
  rw [V_main_arg7]
  congr 1
  funext a
  apply Fin.ext
  match a with
  | ⟨0, _⟩ => show win0_7.index t (0 : Fin 1) * 256 + 1 * (y 0).val = (y 0).val; rw [e0]; omega

/-- Window 8's block is the whole array at every point. -/
theorem iblk8_eq (c : Dev nD) (t : Fin cfg0.N) : (iblk m c 8 t : Vec Ideal S256 .f32) = m ((c : Thread nD τ).loc main_arg8) := by
  have e0 := idx_8 t
  refine funext fun (y : S256.Idx) => ?_
  unfold iblk
  rw [View.read_apply]
  show V m c main_arg8 _ = _
  rw [V_main_arg8]
  congr 1
  funext a
  apply Fin.ext
  match a with
  | ⟨0, _⟩ => show win0_8.index t (0 : Fin 1) * 256 + 1 * (y 0).val = (y 0).val; rw [e0]; omega

/-- Window 9's block is the whole array at every point. -/
theorem iblk9_eq (c : Dev nD) (t : Fin cfg0.N) : (iblk m c 9 t : Vec Ideal S256 .f32) = m ((c : Thread nD τ).loc main_arg9) := by
  have e0 := idx_9 t
  refine funext fun (y : S256.Idx) => ?_
  unfold iblk
  rw [View.read_apply]
  show V m c main_arg9 _ = _
  rw [V_main_arg9]
  congr 1
  funext a
  apply Fin.ext
  match a with
  | ⟨0, _⟩ => show win0_9.index t (0 : Fin 1) * 256 + 1 * (y 0).val = (y 0).val; rw [e0]; omega

/-- Window 12's block is the whole array at every point. -/
theorem iblk12_eq (c : Dev nD) (t : Fin cfg0.N) : (iblk m c 12 t : Vec Ideal S256x256 .f32) = m ((c : Thread nD τ).loc main_arg12) := by
  obtain ⟨e0, e1⟩ := idx_12 t
  refine funext fun (y : S256x256.Idx) => ?_
  unfold iblk
  rw [View.read_apply]
  show V m c main_arg12 _ = _
  rw [V_main_arg12]
  congr 1
  funext a
  apply Fin.ext
  match a with
  | ⟨0, _⟩ => show win0_12.index t (0 : Fin 2) * 256 + 1 * (y 0).val = (y 0).val; rw [e0]; omega
  | ⟨1, _⟩ => show win0_12.index t (1 : Fin 2) * 256 + 1 * (y 1).val = (y 1).val; rw [e1]; omega

/-- Window 13's block is the whole array at every point. -/
theorem iblk13_eq (c : Dev nD) (t : Fin cfg0.N) : (iblk m c 13 t : Vec Ideal S256 .f32) = m ((c : Thread nD τ).loc main_arg13) := by
  have e0 := idx_13 t
  refine funext fun (y : S256.Idx) => ?_
  unfold iblk
  rw [View.read_apply]
  show V m c main_arg13 _ = _
  rw [V_main_arg13]
  congr 1
  funext a
  apply Fin.ext
  match a with
  | ⟨0, _⟩ => show win0_13.index t (0 : Fin 1) * 256 + 1 * (y 0).val = (y 0).val; rw [e0]; omega

/-- Window 14's block is the whole array at every point. -/
theorem iblk14_eq (c : Dev nD) (t : Fin cfg0.N) : (iblk m c 14 t : Vec Ideal S256x512 .f32) = m ((c : Thread nD τ).loc main_arg14) := by
  obtain ⟨e0, e1⟩ := idx_14 t
  refine funext fun (y : S256x512.Idx) => ?_
  unfold iblk
  rw [View.read_apply]
  show V m c main_arg14 _ = _
  rw [V_main_arg14]
  congr 1
  funext a
  apply Fin.ext
  match a with
  | ⟨0, _⟩ => show win0_14.index t (0 : Fin 2) * 256 + 1 * (y 0).val = (y 0).val; rw [e0]; omega
  | ⟨1, _⟩ => show win0_14.index t (1 : Fin 2) * 512 + 1 * (y 1).val = (y 1).val; rw [e1]; omega

/-- Window 15's block is the whole array at every point. -/
theorem iblk15_eq (c : Dev nD) (t : Fin cfg0.N) : (iblk m c 15 t : Vec Ideal S256 .f32) = m ((c : Thread nD τ).loc main_arg15) := by
  have e0 := idx_15 t
  refine funext fun (y : S256.Idx) => ?_
  unfold iblk
  rw [View.read_apply]
  show V m c main_arg15 _ = _
  rw [V_main_arg15]
  congr 1
  funext a
  apply Fin.ext
  match a with
  | ⟨0, _⟩ => show win0_15.index t (0 : Fin 1) * 256 + 1 * (y 0).val = (y 0).val; rw [e0]; omega

/-- Window 16's block is the whole array at every point. -/
theorem iblk16_eq (c : Dev nD) (t : Fin cfg0.N) : (iblk m c 16 t : Vec Ideal S256 .f32) = m ((c : Thread nD τ).loc main_arg16) := by
  have e0 := idx_16 t
  refine funext fun (y : S256.Idx) => ?_
  unfold iblk
  rw [View.read_apply]
  show V m c main_arg16 _ = _
  rw [V_main_arg16]
  congr 1
  funext a
  apply Fin.ext
  match a with
  | ⟨0, _⟩ => show win0_16.index t (0 : Fin 1) * 256 + 1 * (y 0).val = (y 0).val; rw [e0]; omega

/-- Window 17's block is the whole array at every point. -/
theorem iblk17_eq (c : Dev nD) (t : Fin cfg0.N) : (iblk m c 17 t : Vec Ideal S256 .f32) = m ((c : Thread nD τ).loc main_arg17) := by
  have e0 := idx_17 t
  refine funext fun (y : S256.Idx) => ?_
  unfold iblk
  rw [View.read_apply]
  show V m c main_arg17 _ = _
  rw [V_main_arg17]
  congr 1
  funext a
  apply Fin.ext
  match a with
  | ⟨0, _⟩ => show win0_17.index t (0 : Fin 1) * 256 + 1 * (y 0).val = (y 0).val; rw [e0]; omega

/-- Window 18's block is the whole array at every point. -/
theorem iblk18_eq (c : Dev nD) (t : Fin cfg0.N) : (iblk m c 18 t : Vec Ideal S2x256 .f32) = m ((c : Thread nD τ).loc main_arg18) := by
  obtain ⟨e0, e1⟩ := idx_18 t
  refine funext fun (y : S2x256.Idx) => ?_
  unfold iblk
  rw [View.read_apply]
  show V m c main_arg18 _ = _
  rw [V_main_arg18]
  congr 1
  funext a
  apply Fin.ext
  match a with
  | ⟨0, _⟩ => show win0_18.index t (0 : Fin 2) * 2 + 1 * (y 0).val = (y 0).val; rw [e0]; omega
  | ⟨1, _⟩ => show win0_18.index t (1 : Fin 2) * 256 + 1 * (y 1).val = (y 1).val; rw [e1]; omega

/-- Window 19's block is the whole array at every point. -/
theorem iblk19_eq (c : Dev nD) (t : Fin cfg0.N) : (iblk m c 19 t : Vec Ideal S2 .f32) = m ((c : Thread nD τ).loc main_arg19) := by
  have e0 := idx_19 t
  refine funext fun (y : S2.Idx) => ?_
  unfold iblk
  rw [View.read_apply]
  show V m c main_arg19 _ = _
  rw [V_main_arg19]
  congr 1
  funext a
  apply Fin.ext
  match a with
  | ⟨0, _⟩ => show win0_19.index t (0 : Fin 1) * 2 + 1 * (y 0).val = (y 0).val; rw [e0]; omega

/-- Window 10's block, at every point, is rows 512 … 767 of argument 10. -/
theorem iblk10_apply (c : Dev nD) (t : Fin cfg0.N) (j k : Fin 256) (r : Fin 768) (hr : r.val = 512 + j.val) :
    (iblk m c 10 t : Vec Ideal S256x256 .f32) (ix2 j k) = (m ((c : Thread nD τ).loc main_arg10) : S768x256.Idx → Elt Ideal .f32) (ix2 r k) := by
  obtain ⟨e0, e1⟩ := idx_10 t
  unfold iblk
  rw [View.read_apply]
  show V m c main_v0 _ = _
  rw [V_main_v0]
  refine extractStridedSlice_apply _ _ _ _ _ (fun ax => ?_)
  match ax with
  | ⟨0, _⟩ => show r.val = 512 + (win0_10.index t (0 : Fin 2) * 256 + 1 * j.val); rw [e0, hr]; omega
  | ⟨1, _⟩ => show k.val = 0 + (win0_10.index t (1 : Fin 2) * 256 + 1 * k.val); rw [e1]; omega

/-- Window 11's block, at every point, is entries 512 … 767 of argument 11. -/
theorem iblk11_apply (c : Dev nD) (t : Fin cfg0.N) (j : Fin 256) (r : Fin 768) (hr : r.val = 512 + j.val) :
    (iblk m c 11 t : Vec Ideal S256 .f32) (ix1 j) = (m ((c : Thread nD τ).loc main_arg11) : S768.Idx → Elt Ideal .f32) (ix1 r) := by
  have e0 := idx_11 t
  unfold iblk
  rw [View.read_apply]
  show V m c main_v1 _ = _
  rw [V_main_v1]
  refine extractStridedSlice_apply _ _ _ _ _ (fun ax => ?_)
  match ax with
  | ⟨0, _⟩ => show r.val = 512 + (win0_11.index t (0 : Fin 1) * 256 + 1 * j.val); rw [e0, hr]; omega

/-! ## The output's blocks tile the result array -/

/-- An index is in point t's block of the result exactly when each coordinate is in the block's range. -/
theorem mem_blk20 (t : Fin cfg0.N) (i : S65536x2.Idx) :
    i ∈ ((cfg0.win 20).blk t).view.set ↔ ∀ a : Fin 2, win0_20.index t a * S1024x2.size a ≤ (i a).val ∧ (i a).val < win0_20.index t a * S1024x2.size a + S1024x2.size a := by
  show i ∈ ((View.whole main_v2).slice (win0_20.rect t)).set ↔ _
  rw [View.set_slice_whole, Rect.mem_set_unit]
  exact Iff.rfl

/-- Row r of the result lies in the block of point r / 1024. -/
theorem cover (i : S65536x2.Idx) : ∃ t : Fin cfg0.N, (cfg0.win 20).flush t = true ∧ i ∈ ((cfg0.win 20).blk t).view.set := by
  have h0 : (i 0).val < 65536 := (i 0).isLt
  have h1 : (i 1).val < 2 := (i 1).isLt
  have hN : cfg0.N = 64 := N_0
  obtain ⟨t, ht⟩ : ∃ t : Fin cfg0.N, t.val = (i 0).val / 1024 := ⟨⟨(i 0).val / 1024, by omega⟩, rfl⟩
  obtain ⟨-, -, -, -, e0, e1⟩ := idx_a t
  refine ⟨t, flush0_20 t, ?_⟩
  rw [mem_blk20]
  intro a
  match a with
  | ⟨0, _⟩ => show win0_20.index t (0 : Fin 2) * 1024 ≤ (i 0).val ∧ (i 0).val < win0_20.index t (0 : Fin 2) * 1024 + 1024; rw [e0]; omega
  | ⟨1, _⟩ => show win0_20.index t (1 : Fin 2) * 2 ≤ (i 1).val ∧ (i 1).val < win0_20.index t (1 : Fin 2) * 2 + 2; rw [e1]; omega

/-! ## One row of the body's result, and the block a point writes back -/

/-- Row p of the body's result on any twenty blocks is the network on row p of the two feature blocks, the weights
    read off the weight blocks, the value third of the packed projection being the block staged for it. -/
abbrev OutRow : Prop :=
  ∀ (x0 : Vec Ideal S1024x32 .f32) (x1 : Vec Ideal S1024x768 .f32) (x2 : Vec Ideal S256x32 .f32) (x3 : Vec Ideal S256 .f32) (x4 : Vec Ideal S256x768 .f32) (x5 : Vec Ideal S256 .f32) (x6 : Vec Ideal S256 .f32) (x7 : Vec Ideal S256 .f32) (x8 : Vec Ideal S256 .f32) (x9 : Vec Ideal S256 .f32) (x10 : Vec Ideal S256x256 .f32) (x11 : Vec Ideal S256 .f32) (x12 : Vec Ideal S256x256 .f32) (x13 : Vec Ideal S256 .f32) (x14 : Vec Ideal S256x512 .f32) (x15 : Vec Ideal S256 .f32) (x16 : Vec Ideal S256 .f32) (x17 : Vec Ideal S256 .f32) (x18 : Vec Ideal S2x256 .f32) (x19 : Vec Ideal S2 .f32) (p : Fin 1024),
    row (out0_20 (F := Ideal) x0 x1 x2 x3 x4 x5 x6 x7 x8 x9 x10 x11 x12 x13 x14 x15 x16 x17 x18 x19) p
      = outKraw (mat x2) (vec x3) (mat x4) (vec x5) (vec x6) (vec x7) (vec x8) (vec x9) (mat x10) (vec x11) (mat x12) (vec x13) (mat x14) (vec x15) (vec x16) (vec x17) (mat x18) (vec x19) (row x0 p) (row x1 p)

/-- Entry (p, q) of the body's result on blocks that hold row r of the two feature arrays at row p, the weight
    arrays whole, and rows 512 … 767 of the packed projection and of its bias, is entry (r, q) of `GK`. -/
theorem point_eq (out_row : OutRow) (A0 : S65536x32.Idx → EReal) (A1 : S65536x768.Idx → EReal) (A2 : S256x32.Idx → EReal) (A3 : S256.Idx → EReal) (A4 : S256x768.Idx → EReal) (A5 : S256.Idx → EReal) (A6 : S256.Idx → EReal) (A7 : S256.Idx → EReal) (A8 : S256.Idx → EReal) (A9 : S256.Idx → EReal) (A10 : S768x256.Idx → EReal) (A11 : S768.Idx → EReal) (A12 : S256x256.Idx → EReal) (A13 : S256.Idx → EReal) (A14 : S256x512.Idx → EReal) (A15 : S256.Idx → EReal) (A16 : S256.Idx → EReal) (A17 : S256.Idx → EReal) (A18 : S2x256.Idx → EReal) (A19 : S2.Idx → EReal)
    (X0 : Vec Ideal S1024x32 .f32) (X1 : Vec Ideal S1024x768 .f32) (X2 : Vec Ideal S256x32 .f32) (X3 : Vec Ideal S256 .f32) (X4 : Vec Ideal S256x768 .f32) (X5 : Vec Ideal S256 .f32) (X6 : Vec Ideal S256 .f32) (X7 : Vec Ideal S256 .f32) (X8 : Vec Ideal S256 .f32) (X9 : Vec Ideal S256 .f32) (X10 : Vec Ideal S256x256 .f32) (X11 : Vec Ideal S256 .f32) (X12 : Vec Ideal S256x256 .f32) (X13 : Vec Ideal S256 .f32) (X14 : Vec Ideal S256x512 .f32) (X15 : Vec Ideal S256 .f32) (X16 : Vec Ideal S256 .f32) (X17 : Vec Ideal S256 .f32) (X18 : Vec Ideal S2x256 .f32) (X19 : Vec Ideal S2 .f32)
    (p : Fin 1024) (r : Fin 65536) (q : Fin 2)
    (h0 : ∀ k, X0 (ix2 p k) = A0 (ix2 r k)) (h1 : ∀ k, X1 (ix2 p k) = A1 (ix2 r k))
    (h2 : X2 = A2) (h3 : X3 = A3) (h4 : X4 = A4) (h5 : X5 = A5) (h6 : X6 = A6) (h7 : X7 = A7) (h8 : X8 = A8) (h9 : X9 = A9) (h12 : X12 = A12) (h13 : X13 = A13) (h14 : X14 = A14) (h15 : X15 = A15) (h16 : X16 = A16) (h17 : X17 = A17) (h18 : X18 = A18) (h19 : X19 = A19)
    (h10 : ∀ j k, X10 (ix2 j k) = A10 (ix2 (blk 512 (by omega) j) k))
    (h11 : ∀ j, X11 (ix1 j) = A11 (ix1 (blk 512 (by omega) j))) :
    out0_20 (F := Ideal) X0 X1 X2 X3 X4 X5 X6 X7 X8 X9 X10 X11 X12 X13 X14 X15 X16 X17 X18 X19 (ix2 p q) = GK A0 A1 A2 A3 A4 A5 A6 A7 A8 A9 A10 A11 A12 A13 A14 A15 A16 A17 A18 A19 (ix2 r q) := by
  rw [h2, h3, h4, h5, h6, h7, h8, h9, h12, h13, h14, h15, h16, h17, h18, h19]
  -- the left side is entry q of row p of the body's result
  have hl : row (out0_20 (F := Ideal) X0 X1 A2 A3 A4 A5 A6 A7 A8 A9 X10 X11 A12 A13 A14 A15 A16 A17 A18 A19) p q
      = out0_20 (F := Ideal) X0 X1 A2 A3 A4 A5 A6 A7 A8 A9 X10 X11 A12 A13 A14 A15 A16 A17 A18 A19 (ix2 p q) := by
    unfold row
    rfl
  -- the right side is entry q of the network on row r of the feature arrays
  have hr : GK A0 A1 A2 A3 A4 A5 A6 A7 A8 A9 A10 A11 A12 A13 A14 A15 A16 A17 A18 A19 (ix2 r q)
      = outKraw (mat A2) (vec A3) (mat A4) (vec A5) (vec A6) (vec A7) (vec A8) (vec A9) (fun j => mat A10 (blk 512 (by omega) j)) (fun j => vec A11 (blk 512 (by omega) j)) (mat A12) (vec A13) (mat A14) (vec A15) (vec A16) (vec A17) (mat A18) (vec A19) (row A0 r) (row A1 r) q := by
    unfold GK
    rw [outK_eq_raw]
    rfl
  have e0 : row X0 p = row A0 r := funext h0
  have e1 : row X1 p = row A1 r := funext h1
  have e10 : mat X10 = fun j => mat A10 (blk 512 (by omega) j) := funext fun j => funext fun k => h10 j k
  have e11 : vec X11 = fun j => vec A11 (blk 512 (by omega) j) := funext h11
  rw [← hl, hr, out_row, e0, e1, e10, e11]
/-- What point t writes back is block t of `GK` of the argument arrays. -/
theorem flushed_eq (out_row : OutRow) (c : Dev nD) (t : Fin cfg0.N) :
    (dats m 0 c).flushed 20 t = ((cfg0.win 20).blk t).view.read (Elt Ideal) (GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  rw [Value.flushed20]
  obtain ⟨-, -, -, -, e4, e5⟩ := idx_a t
  have hN : cfg0.N = 64 := N_0
  have ht := t.isLt
  refine funext fun (y : S1024x2.Idx) => ?_
  rw [View.read_apply]
  have hy0 : (y 0).val < 1024 := (y 0).isLt
  -- the array index under block index y: row 1024 t + y 0, the same column
  have hemb : ((cfg0.win 20).blk t).view.emb y = (ix2 (⟨1024 * t.val + (y 0).val, by omega⟩ : Fin 65536) (y 1) : S65536x2.Idx) := by
    funext a
    apply Fin.ext
    match a with
    | ⟨0, _⟩ => show win0_20.index t (0 : Fin 2) * 1024 + 1 * (y 0).val = 1024 * t.val + (y 0).val; rw [e4]; omega
    | ⟨1, _⟩ => show win0_20.index t (1 : Fin 2) * 2 + 1 * (y 1).val = (y 1).val; rw [e5]; omega
  show out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) y
      = GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (((cfg0.win 20).blk t).view.emb y)
  rw [hemb]
  refine (congrArg (out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (eq_ix2 y)).trans ?_
  exact point_eq out_row _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (y 0) _ (y 1)
    (fun k => iblk0_apply m c t (y 0) k _ rfl) (fun k => iblk1_apply m c t (y 0) k _ rfl)
    (iblk2_eq m c t) (iblk3_eq m c t) (iblk4_eq m c t) (iblk5_eq m c t) (iblk6_eq m c t) (iblk7_eq m c t) (iblk8_eq m c t) (iblk9_eq m c t) (iblk12_eq m c t) (iblk13_eq m c t) (iblk14_eq m c t) (iblk15_eq m c t) (iblk16_eq m c t) (iblk17_eq m c t) (iblk18_eq m c t) (iblk19_eq m c t)
    (fun j k => iblk10_apply m c t j k _ rfl) (fun j => iblk11_apply m c t j _ rfl)

/-! ## The result array after the run -/

/-- The result array after the 64 write-backs is `GK` of the argument arrays. -/
theorem final (c : Dev nD) :
    (dats m 0 c).arrAt 20 cfg0.N = GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  (dats m 0 c).arrAt_eq_of_cover 20 (GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (fun t _ => flushed_eq m Cert.KernelRow.out_row c t) cover

/-- The run: the result array ends at `GK` of the argument arrays, the arguments unchanged. -/
theorem run : θ_run defs (onTc (τ := τ) (main (F := Ideal))) ⟨m, fun _ => 0, ρ⟩ fun r => ∀ c : Dev nD,
      r.2.mem ((c : Thread nD τ).loc main_v2) = GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨(h c).1.trans (final m c), (h c).2⟩) (Value.run_blocks m ρ)

end Cert.KernelArray

end
-- ==== Proof.RefRows.lean ====
/-
  The reference program, read row by row.

  Every stage of the reference program is a function of the twenty argument arrays. Row r of each 65536-row
  stage depends only on row r of the two feature arrays and on the weights, and the stages group into the
  pieces of the network: a linear map (a transposed weight, a sum of products over the contracted axis, a
  bias spread along the rows), a layer normalisation (two sums over the 256 columns each divided by 256,
  a difference, an inverse root, a gain and an offset), the attention core (the row viewed as 4 heads of 64
  lanes, a sum of products over the lanes divided by the root of 64, a softmax over ONE key, a product with
  the value row, the view undone), a join of two rows side by side and a clamp at zero. Each lemma below
  reads one piece at row r; chained, they say the result array is `Arrays.GR`.

  A three-axis index (r, h, d) of the 65536 x 4 x 64 view is the two-axis index (r, 64 h + d), and back
  (r, j) is (r, j / 64, j % 64): the row-major positions agree, which is linear arithmetic with the bounds
  h < 4, d < 64, j < 256. A sum or a maximum over an axis of extent one is its one term.
-/
import proofs.«175654_j61761629716762_1_alg».proof.Proof.RefReadPatched
import proofs.«175654_j61761629716762_1_alg».proof.Proof.Arrays
import Idealize.ShloMosaic.PureOps.Ideal.Laws
import Idealize.ShloMosaic.Lib.ValueIdx
import Idealize.ShloMosaic.Lib.Pipeline.Value
import Idealize.ShloMosaic.Lib.ValueLayout

noncomputable section

namespace Cert.RefRows

open Idealize.ShloMosaic Idealize.ShloMosaic.ValueIdx Cert.Spec Cert.RowOps Cert.Arrays Cert.ReferenceIdeal Cert.ReferenceIdeal.Read Cert.ReferenceIdeal.Gen

variable (x0 : (⟨S65536x32, .f32⟩ : BufTy).Contents (Elt Ideal))
variable (x1 : (⟨S65536x768, .f32⟩ : BufTy).Contents (Elt Ideal))
variable (x2 : (⟨S256x32, .f32⟩ : BufTy).Contents (Elt Ideal))
variable (x3 : (⟨S256, .f32⟩ : BufTy).Contents (Elt Ideal))
variable (x4 : (⟨S256x768, .f32⟩ : BufTy).Contents (Elt Ideal))
variable (x5 : (⟨S256, .f32⟩ : BufTy).Contents (Elt Ideal))
variable (x6 : (⟨S256, .f32⟩ : BufTy).Contents (Elt Ideal))
variable (x7 : (⟨S256, .f32⟩ : BufTy).Contents (Elt Ideal))
variable (x8 : (⟨S256, .f32⟩ : BufTy).Contents (Elt Ideal))
variable (x9 : (⟨S256, .f32⟩ : BufTy).Contents (Elt Ideal))
variable (x10 : (⟨S768x256, .f32⟩ : BufTy).Contents (Elt Ideal))
variable (x11 : (⟨S768, .f32⟩ : BufTy).Contents (Elt Ideal))
variable (x12 : (⟨S256x256, .f32⟩ : BufTy).Contents (Elt Ideal))
variable (x13 : (⟨S256, .f32⟩ : BufTy).Contents (Elt Ideal))
variable (x14 : (⟨S256x512, .f32⟩ : BufTy).Contents (Elt Ideal))
variable (x15 : (⟨S256, .f32⟩ : BufTy).Contents (Elt Ideal))
variable (x16 : (⟨S256, .f32⟩ : BufTy).Contents (Elt Ideal))
variable (x17 : (⟨S256, .f32⟩ : BufTy).Contents (Elt Ideal))
variable (x18 : (⟨S2x256, .f32⟩ : BufTy).Contents (Elt Ideal))
variable (x19 : (⟨S2, .f32⟩ : BufTy).Contents (Elt Ideal))

/-! ### Two indices with the same coordinates are equal -/

theorem idx1_ext {n : ℕ} {i j : (⟨1, ![n]⟩ : Shape).Idx} (h0 : (i 0).val = (j 0).val) : i = j :=
  funext fun a => Fin.ext (by match a with | ⟨0, _⟩ => exact h0)

theorem idx2_ext {m n : ℕ} {i j : (⟨2, ![m, n]⟩ : Shape).Idx} (h0 : (i 0).val = (j 0).val)
    (h1 : (i 1).val = (j 1).val) : i = j :=
  funext fun a => Fin.ext (by match a with | ⟨0, _⟩ => exact h0 | ⟨1, _⟩ => exact h1)

theorem idx3_ext {m n p : ℕ} {i j : (⟨3, ![m, n, p]⟩ : Shape).Idx} (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-! ### The two hidden rows -/

/-- Stages 0 to 4 on row r: the linear map of the first feature row. -/
theorem row_v4 (r : Fin 65536) : row (val_main_v4 (F := Ideal) x0 x2 x3) r = lin (row x0 r) (mat x2) (vec x3) := by
  funext j
  show (val_main_v4 (F := Ideal) x0 x2 x3) (ix2 r j) = _
  rw [val_main_v4_apply, val_main_v1_apply, val_main_v3_apply, val_main_v2_apply]
  refine congrArg₂ (· + ·) (Finset.sum_congr rfl fun k _ => ?_) (congrArg x3 (idx1_ext rfl))
  rw [val_main_v0_apply]
  exact congrArg₂ (· * ·) (congrArg x0 (idx2_ext rfl rfl)) (congrArg x2 (idx2_ext rfl rfl))

/-- The mean of row r of stage 4: the sum from zero over the 256 columns, over 256. -/
theorem mean_v8 (r : Fin 65536) : (val_main_v8 (F := Ideal) x0 x2 x3) (ix2 r (0 : Fin 1)) = mean (row (val_main_v4 (F := Ideal) x0 x2 x3) r) := by
  rw [val_main_v8_apply, val_main_v6_apply, val_main_v5_apply, val_main_v7_apply, val_main_cst_0_apply, val_main_cst_apply]
  show Ideal.div (Ideal.ofBits .f32 0x00000000#32 + ∑ k : Fin 256, (val_main_v4 (F := Ideal) x0 x2 x3) (idx_main_v5 (idx_main_v6 (ix2 r (0 : Fin 1))) k)) c256
    = Ideal.div (∑ k : Fin 256, (val_main_v4 (F := Ideal) x0 x2 x3) (ix2 r k)) c256
  rw [Ideal.ofBits_zero_f32, zero_add]
  exact congrArg (Ideal.div · c256) (Finset.sum_congr rfl fun k _ => congrArg (val_main_v4 (F := Ideal) x0 x2 x3) (idx2_ext rfl rfl))

/-- The squared deviation from the mean at column k of row r. -/
theorem sq_v11 (r : Fin 65536) (k : Fin 256) : (val_main_v11 (F := Ideal) x0 x2 x3) (ix2 r k)
    = ((val_main_v4 (F := Ideal) x0 x2 x3) (ix2 r k) - mean (row (val_main_v4 (F := Ideal) x0 x2 x3) r)) * ((val_main_v4 (F := Ideal) x0 x2 x3) (ix2 r k) - mean (row (val_main_v4 (F := Ideal) x0 x2 x3) r)) := by
  rw [val_main_v11_apply, val_main_v10_apply, val_main_v9_apply, show idx_main_v9 (ix2 r k) = (ix2 r (0 : Fin 1)) from idx2_ext rfl rfl, mean_v8]
  rfl

/-- The mean square deviation of row r. -/
theorem var_v15 (r : Fin 65536) : (val_main_v15 (F := Ideal) x0 x2 x3) (ix2 r (0 : Fin 1)) = var (row (val_main_v4 (F := Ideal) x0 x2 x3) r) := by
  rw [val_main_v15_apply, val_main_v13_apply, val_main_v12_apply, val_main_v14_apply, val_main_cst_2_apply, val_main_cst_1_apply]
  show Ideal.div (Ideal.ofBits .f32 0x00000000#32 + ∑ k : Fin 256, (val_main_v11 (F := Ideal) x0 x2 x3) (idx_main_v12 (idx_main_v13 (ix2 r (0 : Fin 1))) k)) c256
    = Ideal.div (∑ k : Fin 256, ((val_main_v4 (F := Ideal) x0 x2 x3) (ix2 r k) - mean (row (val_main_v4 (F := Ideal) x0 x2 x3) r)) * ((val_main_v4 (F := Ideal) x0 x2 x3) (ix2 r k) - mean (row (val_main_v4 (F := Ideal) x0 x2 x3) r))) c256
  rw [Ideal.ofBits_zero_f32, zero_add]
  refine congrArg (Ideal.div · c256) (Finset.sum_congr rfl fun k _ => ?_)
  rw [show idx_main_v12 (idx_main_v13 (ix2 r (0 : Fin 1))) k = ix2 r k from idx2_ext rfl rfl, sq_v11]

/-- Stages 5 to 28 are the layer normalisation of row r of stage 4. -/
theorem row_v28 (r : Fin 65536) : row (val_main_v28 (F := Ideal) x0 x2 x3 x6 x7) r = ln (row (val_main_v4 (F := Ideal) x0 x2 x3) r) (vec x6) (vec x7) := by
  funext j
  show (val_main_v28 (F := Ideal) x0 x2 x3 x6 x7) (ix2 r j) = _
  rw [val_main_v28_apply, val_main_v25_apply, val_main_v22_apply, val_main_v17_apply, val_main_v16_apply, val_main_v21_apply, val_main_v20_apply, val_main_v19_apply, val_main_v18_apply, val_main_cst_3_apply,
    val_main_v24_apply, val_main_v23_apply, val_main_v27_apply, val_main_v26_apply,
    show idx_main_v16 (ix2 r j) = (ix2 r (0 : Fin 1)) from idx2_ext rfl rfl,
    show idx_main_v21 (ix2 r j) = (ix2 r (0 : Fin 1)) from idx2_ext rfl rfl, mean_v8, var_v15,
    show idx_main_v23 (idx_main_v24 (ix2 r j)) = ix1 j from idx1_ext rfl,
    show idx_main_v26 (idx_main_v27 (ix2 r j)) = ix1 j from idx1_ext rfl]
  rfl

/-- Stages 29 to 33 on row r: the linear map of the second feature row. -/
theorem row_v33 (r : Fin 65536) : row (val_main_v33 (F := Ideal) x1 x4 x5) r = lin (row x1 r) (mat x4) (vec x5) := by
  funext j
  show (val_main_v33 (F := Ideal) x1 x4 x5) (ix2 r j) = _
  rw [val_main_v33_apply, val_main_v30_apply, val_main_v32_apply, val_main_v31_apply]
  refine congrArg₂ (· + ·) (Finset.sum_congr rfl fun k _ => ?_) (congrArg x5 (idx1_ext rfl))
  rw [val_main_v29_apply]
  exact congrArg₂ (· * ·) (congrArg x1 (idx2_ext rfl rfl)) (congrArg x4 (idx2_ext rfl rfl))

/-- The mean of row r of stage 33: the sum from zero over the 256 columns, over 256. -/
theorem mean_v37 (r : Fin 65536) : (val_main_v37 (F := Ideal) x1 x4 x5) (ix2 r (0 : Fin 1)) = mean (row (val_main_v33 (F := Ideal) x1 x4 x5) r) := by
  rw [val_main_v37_apply, val_main_v35_apply, val_main_v34_apply, val_main_v36_apply, val_main_cst_5_apply, val_main_cst_4_apply]
  show Ideal.div (Ideal.ofBits .f32 0x00000000#32 + ∑ k : Fin 256, (val_main_v33 (F := Ideal) x1 x4 x5) (idx_main_v34 (idx_main_v35 (ix2 r (0 : Fin 1))) k)) c256
    = Ideal.div (∑ k : Fin 256, (val_main_v33 (F := Ideal) x1 x4 x5) (ix2 r k)) c256
  rw [Ideal.ofBits_zero_f32, zero_add]
  exact congrArg (Ideal.div · c256) (Finset.sum_congr rfl fun k _ => congrArg (val_main_v33 (F := Ideal) x1 x4 x5) (idx2_ext rfl rfl))

/-- The squared deviation from the mean at column k of row r. -/
theorem sq_v40 (r : Fin 65536) (k : Fin 256) : (val_main_v40 (F := Ideal) x1 x4 x5) (ix2 r k)
    = ((val_main_v33 (F := Ideal) x1 x4 x5) (ix2 r k) - mean (row (val_main_v33 (F := Ideal) x1 x4 x5) r)) * ((val_main_v33 (F := Ideal) x1 x4 x5) (ix2 r k) - mean (row (val_main_v33 (F := Ideal) x1 x4 x5) r)) := by
  rw [val_main_v40_apply, val_main_v39_apply, val_main_v38_apply, show idx_main_v38 (ix2 r k) = (ix2 r (0 : Fin 1)) from idx2_ext rfl rfl, mean_v37]
  rfl

/-- The mean square deviation of row r. -/
theorem var_v44 (r : Fin 65536) : (val_main_v44 (F := Ideal) x1 x4 x5) (ix2 r (0 : Fin 1)) = var (row (val_main_v33 (F := Ideal) x1 x4 x5) r) := by
  rw [val_main_v44_apply, val_main_v42_apply, val_main_v41_apply, val_main_v43_apply, val_main_cst_7_apply, val_main_cst_6_apply]
  show Ideal.div (Ideal.ofBits .f32 0x00000000#32 + ∑ k : Fin 256, (val_main_v40 (F := Ideal) x1 x4 x5) (idx_main_v41 (idx_main_v42 (ix2 r (0 : Fin 1))) k)) c256
    = Ideal.div (∑ k : Fin 256, ((val_main_v33 (F := Ideal) x1 x4 x5) (ix2 r k) - mean (row (val_main_v33 (F := Ideal) x1 x4 x5) r)) * ((val_main_v33 (F := Ideal) x1 x4 x5) (ix2 r k) - mean (row (val_main_v33 (F := Ideal) x1 x4 x5) r))) c256
  rw [Ideal.ofBits_zero_f32, zero_add]
  refine congrArg (Ideal.div · c256) (Finset.sum_congr rfl fun k _ => ?_)
  rw [show idx_main_v41 (idx_main_v42 (ix2 r (0 : Fin 1))) k = ix2 r k from idx2_ext rfl rfl, sq_v40]

/-- Stages 34 to 57 are the layer normalisation of row r of stage 33. -/
theorem row_v57 (r : Fin 65536) : row (val_main_v57 (F := Ideal) x1 x4 x5 x8 x9) r = ln (row (val_main_v33 (F := Ideal) x1 x4 x5) r) (vec x8) (vec x9) := by
  funext j
  show (val_main_v57 (F := Ideal) x1 x4 x5 x8 x9) (ix2 r j) = _
  rw [val_main_v57_apply, val_main_v54_apply, val_main_v51_apply, val_main_v46_apply, val_main_v45_apply, val_main_v50_apply, val_main_v49_apply, val_main_v48_apply, val_main_v47_apply, val_main_cst_8_apply,
    val_main_v53_apply, val_main_v52_apply, val_main_v56_apply, val_main_v55_apply,
    show idx_main_v45 (ix2 r j) = (ix2 r (0 : Fin 1)) from idx2_ext rfl rfl,
    show idx_main_v50 (ix2 r j) = (ix2 r (0 : Fin 1)) from idx2_ext rfl rfl, mean_v37, var_v44,
    show idx_main_v52 (idx_main_v53 (ix2 r j)) = ix1 j from idx1_ext rfl,
    show idx_main_v55 (idx_main_v56 (ix2 r j)) = ix1 j from idx1_ext rfl]
  rfl

/-! ### The first attention branch: query from the first hidden row, key and value from the second -/

/-- Stages 58, 61, 64 to 68 on row r: the query third of the packed projection on the first hidden row. -/
theorem row_v68 (r : Fin 65536) : row (val_main_v68 (F := Ideal) x0 x2 x3 x6 x7 x10 x11) r
    = lin (row (val_main_v28 (F := Ideal) x0 x2 x3 x6 x7) r) (fun j => mat x10 (blk 0 (by omega) j)) (fun j => vec x11 (blk 0 (by omega) j)) := by
  funext j
  show (val_main_v68 (F := Ideal) x0 x2 x3 x6 x7 x10 x11) (ix2 r j) = _
  rw [val_main_v68_apply, val_main_v65_apply, val_main_v67_apply, val_main_v66_apply, val_main_v61_apply]
  refine congrArg₂ (· + ·) (Finset.sum_congr rfl fun k _ => ?_)
    (congrArg x11 (idx1_ext (show j.val = 0 + j.val by omega)))
  rw [val_main_v64_apply, val_main_v58_apply]
  exact congrArg₂ (· * ·) (congrArg (val_main_v28 (F := Ideal) x0 x2 x3 x6 x7) (idx2_ext rfl rfl))
    (congrArg x10 (idx2_ext (show j.val = 0 + j.val by omega) rfl))

/-- Stages 59, 62, 70 to 74 on row r: the key third of the packed projection on the second hidden row. -/
theorem row_v74 (r : Fin 65536) : row (val_main_v74 (F := Ideal) x1 x4 x5 x8 x9 x10 x11) r
    = lin (row (val_main_v57 (F := Ideal) x1 x4 x5 x8 x9) r) (fun j => mat x10 (blk 256 (by omega) j)) (fun j => vec x11 (blk 256 (by omega) j)) := by
  funext j
  show (val_main_v74 (F := Ideal) x1 x4 x5 x8 x9 x10 x11) (ix2 r j) = _
  rw [val_main_v74_apply, val_main_v71_apply, val_main_v73_apply, val_main_v72_apply, val_main_v62_apply]
  refine congrArg₂ (· + ·) (Finset.sum_congr rfl fun k _ => ?_)
    (congrArg x11 (idx1_ext (show 256 + j.val = 256 + j.val by omega)))
  rw [val_main_v70_apply, val_main_v59_apply]
  exact congrArg₂ (· * ·) (congrArg (val_main_v57 (F := Ideal) x1 x4 x5 x8 x9) (idx2_ext rfl rfl))
    (congrArg x10 (idx2_ext (show 256 + j.val = 256 + j.val by omega) rfl))

/-- Stages 60, 63, 76 to 80 on row r: the value third of the packed projection on the second hidden row. -/
theorem row_v80 (r : Fin 65536) : row (val_main_v80 (F := Ideal) x1 x4 x5 x8 x9 x10 x11) r
    = lin (row (val_main_v57 (F := Ideal) x1 x4 x5 x8 x9) r) (fun j => mat x10 (blk 512 (by omega) j)) (fun j => vec x11 (blk 512 (by omega) j)) := by
  funext j
  show (val_main_v80 (F := Ideal) x1 x4 x5 x8 x9 x10 x11) (ix2 r j) = _
  rw [val_main_v80_apply, val_main_v77_apply, val_main_v79_apply, val_main_v78_apply, val_main_v63_apply]
  refine congrArg₂ (· + ·) (Finset.sum_congr rfl fun k _ => ?_)
    (congrArg x11 (idx1_ext (show 512 + j.val = 512 + j.val by omega)))
  rw [val_main_v76_apply, val_main_v60_apply]
  exact congrArg₂ (· * ·) (congrArg (val_main_v57 (F := Ideal) x1 x4 x5 x8 x9) (idx2_ext rfl rfl))
    (congrArg x10 (idx2_ext (show 512 + j.val = 512 + j.val by omega) rfl))

/-- The score of head h on row r (first branch): the sum from zero over the 64 lanes of the head, over the root of 64. Lane d
    of head h of the three-axis view is column 64 h + d of the row. -/
theorem score_v87 (r : Fin 65536) (h : Fin 4) : (val_main_v87 (F := Ideal) x0 x1 x2 x3 x4 x5 x6 x7 x8 x9 x10 x11) (ix3 r h (0 : Fin 1)) = (score (row (val_main_v68 (F := Ideal) x0 x2 x3 x6 x7 x10 x11) r) (row (val_main_v74 (F := Ideal) x1 x4 x5 x8 x9 x10 x11) r) h) := by
  rw [val_main_v87_apply, val_main_v84_apply, val_main_v83_apply, val_main_v86_apply, val_main_v85_apply, val_main_cst_10_apply, val_main_cst_9_apply]
  show Ideal.div (Ideal.ofBits .f32 0x00000000#32 + ∑ d : Fin 64, (val_main_v82 (F := Ideal) x0 x1 x2 x3 x4 x5 x6 x7 x8 x9 x10 x11) (idx_main_v83 (idx_main_v84 (ix3 r h (0 : Fin 1))) d))
      (Ideal.sqrt c64)
    = Ideal.div (∑ d : Fin 64, (val_main_v68 (F := Ideal) x0 x2 x3 x6 x7 x10 x11) (ix2 r (colOf h d)) * (val_main_v74 (F := Ideal) x1 x4 x5 x8 x9 x10 x11) (ix2 r (colOf h d))) (Ideal.sqrt c64)
  rw [Ideal.ofBits_zero_f32, zero_add]
  refine congrArg (Ideal.div · (Ideal.sqrt c64)) (Finset.sum_congr rfl fun d _ => ?_)
  have hh := h.isLt
  have hd := d.isLt
  rw [val_main_v82_apply, val_main_v69_apply, val_main_v75_apply]
  exact congrArg₂ (· * ·)
    (congrArg (val_main_v68 (F := Ideal) x0 x2 x3 x6 x7 x10 x11) (idx2_ext (show ((r.val * 4 + h.val) * 64 + d.val) / 256 = r.val by omega)
      (show ((r.val * 4 + h.val) * 64 + d.val) % 256 = h.val * 64 + d.val by omega)))
    (congrArg (val_main_v74 (F := Ideal) x1 x4 x5 x8 x9 x10 x11) (idx2_ext (show ((r.val * 4 + h.val) * 64 + d.val) / 256 = r.val by omega)
      (show ((r.val * 4 + h.val) * 64 + d.val) % 256 = h.val * 64 + d.val by omega)))

/-- The maximum from minus infinity over the one key is the maximum of minus infinity and the score. -/
theorem rmax_v88 (r : Fin 65536) (h : Fin 4) : (val_main_v88 (F := Ideal) x0 x1 x2 x3 x4 x5 x6 x7 x8 x9 x10 x11) (ix2 r h) = max negInf (score (row (val_main_v68 (F := Ideal) x0 x2 x3 x6 x7 x10 x11) r) (row (val_main_v74 (F := Ideal) x1 x4 x5 x8 x9 x10 x11) r) h) := by
  have hR : S65536x4x1.Reduces [2] S65536x4 := by decide
  unfold val_main_v88
  refine (Host.reduce_eq_fold_single (FloatOps.maximumf (F := Ideal) (φ := .f32)) _ _
    reducesTo_S65536x4x1_S65536x4_d2 hR h_S_ (ix2 r h)).trans ?_
  show Finset.fold max negInf (fun k : Fin 1 => (val_main_v87 (F := Ideal) x0 x1 x2 x3 x4 x5 x6 x7 x8 x9 x10 x11) (Shape.Reduces.lift hR (ix2 r h) k)) (Finset.univ : Finset (Fin 1)) = _
  rw [Finset.univ_unique, Finset.fold_singleton, max_comm]
  refine congrArg (max negInf) ?_
  show (val_main_v87 (F := Ideal) x0 x1 x2 x3 x4 x5 x6 x7 x8 x9 x10 x11) (Shape.Reduces.lift hR (ix2 r h) (default : Fin 1)) = _
  rw [show Shape.Reduces.lift hR (ix2 r h) (default : Fin 1) = (ix3 r h (0 : Fin 1)) from idx3_ext rfl rfl rfl, score_v87]

/-- The exponential of the score minus the maximum. -/
theorem exp_v93 (r : Fin 65536) (h : Fin 4) : (val_main_v93 (F := Ideal) x0 x1 x2 x3 x4 x5 x6 x7 x8 x9 x10 x11) (ix3 r h (0 : Fin 1))
    = Ideal.exp ((score (row (val_main_v68 (F := Ideal) x0 x2 x3 x6 x7 x10 x11) r) (row (val_main_v74 (F := Ideal) x1 x4 x5 x8 x9 x10 x11) r) h) - max negInf (max negInf (score (row (val_main_v68 (F := Ideal) x0 x2 x3 x6 x7 x10 x11) r) (row (val_main_v74 (F := Ideal) x1 x4 x5 x8 x9 x10 x11) r) h))) := by
  rw [val_main_v93_apply, val_main_v92_apply, val_main_v91_apply, show idx_main_v91 (ix3 r h (0 : Fin 1)) = ix2 r h from idx2_ext rfl rfl, val_main_v90_apply, val_main_v89_apply,
    val_main_cst_12_apply, rmax_v88, score_v87]
  rfl

/-- The softmax weight of the one key: the exponential over the sum from zero of the one exponential. -/
theorem wgt_v96 (r : Fin 65536) (h : Fin 4) : (val_main_v96 (F := Ideal) x0 x1 x2 x3 x4 x5 x6 x7 x8 x9 x10 x11) (ix3 r h (0 : Fin 1)) = wgt (score (row (val_main_v68 (F := Ideal) x0 x2 x3 x6 x7 x10 x11) r) (row (val_main_v74 (F := Ideal) x1 x4 x5 x8 x9 x10 x11) r) h) := by
  rw [val_main_v96_apply, val_main_v95_apply, show idx_main_v95 (ix3 r h (0 : Fin 1)) = ix2 r h from idx2_ext rfl rfl, val_main_v94_apply, val_main_cst_13_apply]
  show Ideal.div ((val_main_v93 (F := Ideal) x0 x1 x2 x3 x4 x5 x6 x7 x8 x9 x10 x11) (ix3 r h (0 : Fin 1))) (Ideal.ofBits .f32 0x00000000#32 + ∑ k : Fin 1, (val_main_v93 (F := Ideal) x0 x1 x2 x3 x4 x5 x6 x7 x8 x9 x10 x11) (idx_main_v94 (ix2 r h) k)) = _
  rw [Ideal.ofBits_zero_f32, zero_add, Fin.sum_univ_one,
    show idx_main_v94 (ix2 r h) 0 = (ix3 r h (0 : Fin 1)) from idx3_ext rfl rfl rfl, exp_v93]
  rfl

/-- Stages 69 to 99 on row r (first branch): column j of the value row times the weight of the head of column j. -/
theorem row_v99 (r : Fin 65536) : row (val_main_v99 (F := Ideal) x0 x1 x2 x3 x4 x5 x6 x7 x8 x9 x10 x11) r
    = fun j => wgt (score (row (val_main_v68 (F := Ideal) x0 x2 x3 x6 x7 x10 x11) r) (row (val_main_v74 (F := Ideal) x1 x4 x5 x8 x9 x10 x11) r) (headOf j)) * row (val_main_v80 (F := Ideal) x1 x4 x5 x8 x9 x10 x11) r j := by
  funext j
  show (val_main_v99 (F := Ideal) x0 x1 x2 x3 x4 x5 x6 x7 x8 x9 x10 x11) (ix2 r j) = _
  have hj := j.isLt
  rw [val_main_v99_apply, val_main_v98_apply, val_main_v97_apply, val_main_v81_apply,
    show idx_main_v97 (idx_main_v99 (ix2 r j)) = ix3 r (headOf j) (0 : Fin 1) from
      idx3_ext (show (r.val * 256 + j.val) / 256 = r.val by omega) (show (r.val * 256 + j.val) / 64 % 4 = j.val / 64 by omega) rfl,
    show idx_main_v81 (idx_main_v99 (ix2 r j)) = ix2 r j from
      idx2_ext (show (((r.val * 256 + j.val) / 256 * 4 + (r.val * 256 + j.val) / 64 % 4) * 64 + (r.val * 256 + j.val) % 64) / 256 = r.val by omega)
        (show (((r.val * 256 + j.val) / 256 * 4 + (r.val * 256 + j.val) / 64 % 4) * 64 + (r.val * 256 + j.val) % 64) % 256 = j.val by omega),
    wgt_v96]
  rfl

/-- Stages 100 to 104 on row r: the output projection of the first branch. -/
theorem row_v104 (r : Fin 65536) : row (val_main_v104 (F := Ideal) x0 x1 x2 x3 x4 x5 x6 x7 x8 x9 x10 x11 x12 x13) r = lin (row (val_main_v99 (F := Ideal) x0 x1 x2 x3 x4 x5 x6 x7 x8 x9 x10 x11) r) (mat x12) (vec x13) := by
  funext j
  show (val_main_v104 (F := Ideal) x0 x1 x2 x3 x4 x5 x6 x7 x8 x9 x10 x11 x12 x13) (ix2 r j) = _
  rw [val_main_v104_apply, val_main_v101_apply, val_main_v103_apply, val_main_v102_apply]
  refine congrArg₂ (· + ·) (Finset.sum_congr rfl fun k _ => ?_) (congrArg x13 (idx1_ext rfl))
  rw [val_main_v100_apply]
  exact congrArg₂ (· * ·) (congrArg (val_main_v99 (F := Ideal) x0 x1 x2 x3 x4 x5 x6 x7 x8 x9 x10 x11) (idx2_ext rfl rfl)) (congrArg x12 (idx2_ext rfl rfl))

/-! ### The second attention branch: query from the second hidden row, key and value from the first -/

/-- Stages 105, 108, 111 to 115 on row r: the query third on the second hidden row. -/
theorem row_v115 (r : Fin 65536) : row (val_main_v115 (F := Ideal) x1 x4 x5 x8 x9 x10 x11) r
    = lin (row (val_main_v57 (F := Ideal) x1 x4 x5 x8 x9) r) (fun j => mat x10 (blk 0 (by omega) j)) (fun j => vec x11 (blk 0 (by omega) j)) := by
  funext j
  show (val_main_v115 (F := Ideal) x1 x4 x5 x8 x9 x10 x11) (ix2 r j) = _
  rw [val_main_v115_apply, val_main_v112_apply, val_main_v114_apply, val_main_v113_apply, val_main_v108_apply]
  refine congrArg₂ (· + ·) (Finset.sum_congr rfl fun k _ => ?_)
    (congrArg x11 (idx1_ext (show j.val = 0 + j.val by omega)))
  rw [val_main_v111_apply, val_main_v105_apply]
  exact congrArg₂ (· * ·) (congrArg (val_main_v57 (F := Ideal) x1 x4 x5 x8 x9) (idx2_ext rfl rfl))
    (congrArg x10 (idx2_ext (show j.val = 0 + j.val by omega) rfl))

/-- Stages 106, 109, 117 to 121 on row r: the key third on the first hidden row. -/
theorem row_v121 (r : Fin 65536) : row (val_main_v121 (F := Ideal) x0 x2 x3 x6 x7 x10 x11) r
    = lin (row (val_main_v28 (F := Ideal) x0 x2 x3 x6 x7) r) (fun j => mat x10 (blk 256 (by omega) j)) (fun j => vec x11 (blk 256 (by omega) j)) := by
  funext j
  show (val_main_v121 (F := Ideal) x0 x2 x3 x6 x7 x10 x11) (ix2 r j) = _
  rw [val_main_v121_apply, val_main_v118_apply, val_main_v120_apply, val_main_v119_apply, val_main_v109_apply]
  refine congrArg₂ (· + ·) (Finset.sum_congr rfl fun k _ => ?_)
    (congrArg x11 (idx1_ext (show 256 + j.val = 256 + j.val by omega)))
  rw [val_main_v117_apply, val_main_v106_apply]
  exact congrArg₂ (· * ·) (congrArg (val_main_v28 (F := Ideal) x0 x2 x3 x6 x7) (idx2_ext rfl rfl))
    (congrArg x10 (idx2_ext (show 256 + j.val = 256 + j.val by omega) rfl))

/-- Stages 107, 110, 123 to 127 on row r: the value third on the first hidden row. -/
theorem row_v127 (r : Fin 65536) : row (val_main_v127 (F := Ideal) x0 x2 x3 x6 x7 x10 x11) r
    = lin (row (val_main_v28 (F := Ideal) x0 x2 x3 x6 x7) r) (fun j => mat x10 (blk 512 (by omega) j)) (fun j => vec x11 (blk 512 (by omega) j)) := by
  funext j
  show (val_main_v127 (F := Ideal) x0 x2 x3 x6 x7 x10 x11) (ix2 r j) = _
  rw [val_main_v127_apply, val_main_v124_apply, val_main_v126_apply, val_main_v125_apply, val_main_v110_apply]
  refine congrArg₂ (· + ·) (Finset.sum_congr rfl fun k _ => ?_)
    (congrArg x11 (idx1_ext (show 512 + j.val = 512 + j.val by omega)))
  rw [val_main_v123_apply, val_main_v107_apply]
  exact congrArg₂ (· * ·) (congrArg (val_main_v28 (F := Ideal) x0 x2 x3 x6 x7) (idx2_ext rfl rfl))
    (congrArg x10 (idx2_ext (show 512 + j.val = 512 + j.val by omega) rfl))

/-- The score of head h on row r (second branch): the sum from zero over the 64 lanes of the head, over the root of 64. Lane d
    of head h of the three-axis view is column 64 h + d of the row. -/
theorem score_v134 (r : Fin 65536) (h : Fin 4) : (val_main_v134 (F := Ideal) x0 x1 x2 x3 x4 x5 x6 x7 x8 x9 x10 x11) (ix3 r h (0 : Fin 1)) = (score (row (val_main_v115 (F := Ideal) x1 x4 x5 x8 x9 x10 x11) r) (row (val_main_v121 (F := Ideal) x0 x2 x3 x6 x7 x10 x11) r) h) := by
  rw [val_main_v134_apply, val_main_v131_apply, val_main_v130_apply, val_main_v133_apply, val_main_v132_apply, val_main_cst_15_apply, val_main_cst_14_apply]
  show Ideal.div (Ideal.ofBits .f32 0x00000000#32 + ∑ d : Fin 64, (val_main_v129 (F := Ideal) x0 x1 x2 x3 x4 x5 x6 x7 x8 x9 x10 x11) (idx_main_v130 (idx_main_v131 (ix3 r h (0 : Fin 1))) d))
      (Ideal.sqrt c64)
    = Ideal.div (∑ d : Fin 64, (val_main_v115 (F := Ideal) x1 x4 x5 x8 x9 x10 x11) (ix2 r (colOf h d)) * (val_main_v121 (F := Ideal) x0 x2 x3 x6 x7 x10 x11) (ix2 r (colOf h d))) (Ideal.sqrt c64)
  rw [Ideal.ofBits_zero_f32, zero_add]
  refine congrArg (Ideal.div · (Ideal.sqrt c64)) (Finset.sum_congr rfl fun d _ => ?_)
  have hh := h.isLt
  have hd := d.isLt
  rw [val_main_v129_apply, val_main_v116_apply, val_main_v122_apply]
  exact congrArg₂ (· * ·)
    (congrArg (val_main_v115 (F := Ideal) x1 x4 x5 x8 x9 x10 x11) (idx2_ext (show ((r.val * 4 + h.val) * 64 + d.val) / 256 = r.val by omega)
      (show ((r.val * 4 + h.val) * 64 + d.val) % 256 = h.val * 64 + d.val by omega)))
    (congrArg (val_main_v121 (F := Ideal) x0 x2 x3 x6 x7 x10 x11) (idx2_ext (show ((r.val * 4 + h.val) * 64 + d.val) / 256 = r.val by omega)
      (show ((r.val * 4 + h.val) * 64 + d.val) % 256 = h.val * 64 + d.val by omega)))

/-- The maximum from minus infinity over the one key is the maximum of minus infinity and the score. -/
theorem rmax_v135 (r : Fin 65536) (h : Fin 4) : (val_main_v135 (F := Ideal) x0 x1 x2 x3 x4 x5 x6 x7 x8 x9 x10 x11) (ix2 r h) = max negInf (score (row (val_main_v115 (F := Ideal) x1 x4 x5 x8 x9 x10 x11) r) (row (val_main_v121 (F := Ideal) x0 x2 x3 x6 x7 x10 x11) r) h) := by
  have hR : S65536x4x1.Reduces [2] S65536x4 := by decide
  unfold val_main_v135
  refine (Host.reduce_eq_fold_single (FloatOps.maximumf (F := Ideal) (φ := .f32)) _ _
    reducesTo_S65536x4x1_S65536x4_d2 hR h_S_ (ix2 r h)).trans ?_
  show Finset.fold max negInf (fun k : Fin 1 => (val_main_v134 (F := Ideal) x0 x1 x2 x3 x4 x5 x6 x7 x8 x9 x10 x11) (Shape.Reduces.lift hR (ix2 r h) k)) (Finset.univ : Finset (Fin 1)) = _
  rw [Finset.univ_unique, Finset.fold_singleton, max_comm]
  refine congrArg (max negInf) ?_
  show (val_main_v134 (F := Ideal) x0 x1 x2 x3 x4 x5 x6 x7 x8 x9 x10 x11) (Shape.Reduces.lift hR (ix2 r h) (default : Fin 1)) = _
  rw [show Shape.Reduces.lift hR (ix2 r h) (default : Fin 1) = (ix3 r h (0 : Fin 1)) from idx3_ext rfl rfl rfl, score_v134]

/-- The exponential of the score minus the maximum. -/
theorem exp_v140 (r : Fin 65536) (h : Fin 4) : (val_main_v140 (F := Ideal) x0 x1 x2 x3 x4 x5 x6 x7 x8 x9 x10 x11) (ix3 r h (0 : Fin 1))
    = Ideal.exp ((score (row (val_main_v115 (F := Ideal) x1 x4 x5 x8 x9 x10 x11) r) (row (val_main_v121 (F := Ideal) x0 x2 x3 x6 x7 x10 x11) r) h) - max negInf (max negInf (score (row (val_main_v115 (F := Ideal) x1 x4 x5 x8 x9 x10 x11) r) (row (val_main_v121 (F := Ideal) x0 x2 x3 x6 x7 x10 x11) r) h))) := by
  rw [val_main_v140_apply, val_main_v139_apply, val_main_v138_apply, show idx_main_v138 (ix3 r h (0 : Fin 1)) = ix2 r h from idx2_ext rfl rfl, val_main_v137_apply, val_main_v136_apply,
    val_main_cst_17_apply, rmax_v135, score_v134]
  rfl

/-- The softmax weight of the one key: the exponential over the sum from zero of the one exponential. -/
theorem wgt_v143 (r : Fin 65536) (h : Fin 4) : (val_main_v143 (F := Ideal) x0 x1 x2 x3 x4 x5 x6 x7 x8 x9 x10 x11) (ix3 r h (0 : Fin 1)) = wgt (score (row (val_main_v115 (F := Ideal) x1 x4 x5 x8 x9 x10 x11) r) (row (val_main_v121 (F := Ideal) x0 x2 x3 x6 x7 x10 x11) r) h) := by
  rw [val_main_v143_apply, val_main_v142_apply, show idx_main_v142 (ix3 r h (0 : Fin 1)) = ix2 r h from idx2_ext rfl rfl, val_main_v141_apply, val_main_cst_18_apply]
  show Ideal.div ((val_main_v140 (F := Ideal) x0 x1 x2 x3 x4 x5 x6 x7 x8 x9 x10 x11) (ix3 r h (0 : Fin 1))) (Ideal.ofBits .f32 0x00000000#32 + ∑ k : Fin 1, (val_main_v140 (F := Ideal) x0 x1 x2 x3 x4 x5 x6 x7 x8 x9 x10 x11) (idx_main_v141 (ix2 r h) k)) = _
  rw [Ideal.ofBits_zero_f32, zero_add, Fin.sum_univ_one,
    show idx_main_v141 (ix2 r h) 0 = (ix3 r h (0 : Fin 1)) from idx3_ext rfl rfl rfl, exp_v140]
  rfl

/-- Stages 116 to 146 on row r (second branch): column j of the value row times the weight of the head of column j. -/
theorem row_v146 (r : Fin 65536) : row (val_main_v146 (F := Ideal) x0 x1 x2 x3 x4 x5 x6 x7 x8 x9 x10 x11) r
    = fun j => wgt (score (row (val_main_v115 (F := Ideal) x1 x4 x5 x8 x9 x10 x11) r) (row (val_main_v121 (F := Ideal) x0 x2 x3 x6 x7 x10 x11) r) (headOf j)) * row (val_main_v127 (F := Ideal) x0 x2 x3 x6 x7 x10 x11) r j := by
  funext j
  show (val_main_v146 (F := Ideal) x0 x1 x2 x3 x4 x5 x6 x7 x8 x9 x10 x11) (ix2 r j) = _
  have hj := j.isLt
  rw [val_main_v146_apply, val_main_v145_apply, val_main_v144_apply, val_main_v128_apply,
    show idx_main_v144 (idx_main_v146 (ix2 r j)) = ix3 r (headOf j) (0 : Fin 1) from
      idx3_ext (show (r.val * 256 + j.val) / 256 = r.val by omega) (show (r.val * 256 + j.val) / 64 % 4 = j.val / 64 by omega) rfl,
    show idx_main_v128 (idx_main_v146 (ix2 r j)) = ix2 r j from
      idx2_ext (show (((r.val * 256 + j.val) / 256 * 4 + (r.val * 256 + j.val) / 64 % 4) * 64 + (r.val * 256 + j.val) % 64) / 256 = r.val by omega)
        (show (((r.val * 256 + j.val) / 256 * 4 + (r.val * 256 + j.val) / 64 % 4) * 64 + (r.val * 256 + j.val) % 64) % 256 = j.val by omega),
    wgt_v143]
  rfl

/-- Stages 147 to 151 on row r: the output projection of the second branch. -/
theorem row_v151 (r : Fin 65536) : row (val_main_v151 (F := Ideal) x0 x1 x2 x3 x4 x5 x6 x7 x8 x9 x10 x11 x12 x13) r = lin (row (val_main_v146 (F := Ideal) x0 x1 x2 x3 x4 x5 x6 x7 x8 x9 x10 x11) r) (mat x12) (vec x13) := by
  funext j
  show (val_main_v151 (F := Ideal) x0 x1 x2 x3 x4 x5 x6 x7 x8 x9 x10 x11 x12 x13) (ix2 r j) = _
  rw [val_main_v151_apply, val_main_v148_apply, val_main_v150_apply, val_main_v149_apply]
  refine congrArg₂ (· + ·) (Finset.sum_congr rfl fun k _ => ?_) (congrArg x13 (idx1_ext rfl))
  rw [val_main_v147_apply]
  exact congrArg₂ (· * ·) (congrArg (val_main_v146 (F := Ideal) x0 x1 x2 x3 x4 x5 x6 x7 x8 x9 x10 x11) (idx2_ext rfl rfl)) (congrArg x12 (idx2_ext rfl rfl))

/-! ### The classifier on the joined row -/

/-- Stage 152 on row r: the two branches side by side. -/
theorem row_v152 (r : Fin 65536) : row (val_main_v152 (F := Ideal) x0 x1 x2 x3 x4 x5 x6 x7 x8 x9 x10 x11 x12 x13) r = cat (row (val_main_v104 (F := Ideal) x0 x1 x2 x3 x4 x5 x6 x7 x8 x9 x10 x11 x12 x13) r) (row (val_main_v151 (F := Ideal) x0 x1 x2 x3 x4 x5 x6 x7 x8 x9 x10 x11 x12 x13) r) := by
  unfold val_main_v152
  exact concat_row _ _ _ r

/-- Stages 153 to 157 on row r: the linear map of the joined row. -/
theorem row_v157 (r : Fin 65536) : row (val_main_v157 (F := Ideal) x0 x1 x2 x3 x4 x5 x6 x7 x8 x9 x10 x11 x12 x13 x14 x15) r = lin (row (val_main_v152 (F := Ideal) x0 x1 x2 x3 x4 x5 x6 x7 x8 x9 x10 x11 x12 x13) r) (mat x14) (vec x15) := by
  funext j
  show (val_main_v157 (F := Ideal) x0 x1 x2 x3 x4 x5 x6 x7 x8 x9 x10 x11 x12 x13 x14 x15) (ix2 r j) = _
  rw [val_main_v157_apply, val_main_v154_apply, val_main_v156_apply, val_main_v155_apply]
  refine congrArg₂ (· + ·) (Finset.sum_congr rfl fun k _ => ?_) (congrArg x15 (idx1_ext rfl))
  rw [val_main_v153_apply]
  exact congrArg₂ (· * ·) (congrArg (val_main_v152 (F := Ideal) x0 x1 x2 x3 x4 x5 x6 x7 x8 x9 x10 x11 x12 x13) (idx2_ext rfl rfl)) (congrArg x14 (idx2_ext rfl rfl))

/-- The mean of row r of stage 157: the sum from zero over the 256 columns, over 256. -/
theorem mean_v161 (r : Fin 65536) : (val_main_v161 (F := Ideal) x0 x1 x2 x3 x4 x5 x6 x7 x8 x9 x10 x11 x12 x13 x14 x15) (ix2 r (0 : Fin 1)) = mean (row (val_main_v157 (F := Ideal) x0 x1 x2 x3 x4 x5 x6 x7 x8 x9 x10 x11 x12 x13 x14 x15) r) := by
  rw [val_main_v161_apply, val_main_v159_apply, val_main_v158_apply, val_main_v160_apply, val_main_cst_20_apply, val_main_cst_19_apply]
  show Ideal.div (Ideal.ofBits .f32 0x00000000#32 + ∑ k : Fin 256, (val_main_v157 (F := Ideal) x0 x1 x2 x3 x4 x5 x6 x7 x8 x9 x10 x11 x12 x13 x14 x15) (idx_main_v158 (idx_main_v159 (ix2 r (0 : Fin 1))) k)) c256
    = Ideal.div (∑ k : Fin 256, (val_main_v157 (F := Ideal) x0 x1 x2 x3 x4 x5 x6 x7 x8 x9 x10 x11 x12 x13 x14 x15) (ix2 r k)) c256
  rw [Ideal.ofBits_zero_f32, zero_add]
  exact congrArg (Ideal.div · c256) (Finset.sum_congr rfl fun k _ => congrArg (val_main_v157 (F := Ideal) x0 x1 x2 x3 x4 x5 x6 x7 x8 x9 x10 x11 x12 x13 x14 x15) (idx2_ext rfl rfl))

/-- The squared deviation from the mean at column k of row r. -/
theorem sq_v164 (r : Fin 65536) (k : Fin 256) : (val_main_v164 (F := Ideal) x0 x1 x2 x3 x4 x5 x6 x7 x8 x9 x10 x11 x12 x13 x14 x15) (ix2 r k)
    = ((val_main_v157 (F := Ideal) x0 x1 x2 x3 x4 x5 x6 x7 x8 x9 x10 x11 x12 x13 x14 x15) (ix2 r k) - mean (row (val_main_v157 (F := Ideal) x0 x1 x2 x3 x4 x5 x6 x7 x8 x9 x10 x11 x12 x13 x14 x15) r)) * ((val_main_v157 (F := Ideal) x0 x1 x2 x3 x4 x5 x6 x7 x8 x9 x10 x11 x12 x13 x14 x15) (ix2 r k) - mean (row (val_main_v157 (F := Ideal) x0 x1 x2 x3 x4 x5 x6 x7 x8 x9 x10 x11 x12 x13 x14 x15) r)) := by
  rw [val_main_v164_apply, val_main_v163_apply, val_main_v162_apply, show idx_main_v162 (ix2 r k) = (ix2 r (0 : Fin 1)) from idx2_ext rfl rfl, mean_v161]
  rfl

/-- The mean square deviation of row r. -/
theorem var_v168 (r : Fin 65536) : (val_main_v168 (F := Ideal) x0 x1 x2 x3 x4 x5 x6 x7 x8 x9 x10 x11 x12 x13 x14 x15) (ix2 r (0 : Fin 1)) = var (row (val_main_v157 (F := Ideal) x0 x1 x2 x3 x4 x5 x6 x7 x8 x9 x10 x11 x12 x13 x14 x15) r) := by
  rw [val_main_v168_apply, val_main_v166_apply, val_main_v165_apply, val_main_v167_apply, val_main_cst_22_apply, val_main_cst_21_apply]
  show Ideal.div (Ideal.ofBits .f32 0x00000000#32 + ∑ k : Fin 256, (val_main_v164 (F := Ideal) x0 x1 x2 x3 x4 x5 x6 x7 x8 x9 x10 x11 x12 x13 x14 x15) (idx_main_v165 (idx_main_v166 (ix2 r (0 : Fin 1))) k)) c256
    = Ideal.div (∑ k : Fin 256, ((val_main_v157 (F := Ideal) x0 x1 x2 x3 x4 x5 x6 x7 x8 x9 x10 x11 x12 x13 x14 x15) (ix2 r k) - mean (row (val_main_v157 (F := Ideal) x0 x1 x2 x3 x4 x5 x6 x7 x8 x9 x10 x11 x12 x13 x14 x15) r)) * ((val_main_v157 (F := Ideal) x0 x1 x2 x3 x4 x5 x6 x7 x8 x9 x10 x11 x12 x13 x14 x15) (ix2 r k) - mean (row (val_main_v157 (F := Ideal) x0 x1 x2 x3 x4 x5 x6 x7 x8 x9 x10 x11 x12 x13 x14 x15) r))) c256
  rw [Ideal.ofBits_zero_f32, zero_add]
  refine congrArg (Ideal.div · c256) (Finset.sum_congr rfl fun k _ => ?_)
  rw [show idx_main_v165 (idx_main_v166 (ix2 r (0 : Fin 1))) k = ix2 r k from idx2_ext rfl rfl, sq_v164]

/-- Stages 158 to 181 are the layer normalisation of row r of stage 157. -/
theorem row_v181 (r : Fin 65536) : row (val_main_v181 (F := Ideal) x0 x1 x2 x3 x4 x5 x6 x7 x8 x9 x10 x11 x12 x13 x14 x15 x16 x17) r = ln (row (val_main_v157 (F := Ideal) x0 x1 x2 x3 x4 x5 x6 x7 x8 x9 x10 x11 x12 x13 x14 x15) r) (vec x16) (vec x17) := by
  funext j
  show (val_main_v181 (F := Ideal) x0 x1 x2 x3 x4 x5 x6 x7 x8 x9 x10 x11 x12 x13 x14 x15 x16 x17) (ix2 r j) = _
  rw [val_main_v181_apply, val_main_v178_apply, val_main_v175_apply, val_main_v170_apply, val_main_v169_apply, val_main_v174_apply, val_main_v173_apply, val_main_v172_apply, val_main_v171_apply, val_main_cst_23_apply,
    val_main_v177_apply, val_main_v176_apply, val_main_v180_apply, val_main_v179_apply,
    show idx_main_v169 (ix2 r j) = (ix2 r (0 : Fin 1)) from idx2_ext rfl rfl,
    show idx_main_v174 (ix2 r j) = (ix2 r (0 : Fin 1)) from idx2_ext rfl rfl, mean_v161, var_v168,
    show idx_main_v176 (idx_main_v177 (ix2 r j)) = ix1 j from idx1_ext rfl,
    show idx_main_v179 (idx_main_v180 (ix2 r j)) = ix1 j from idx1_ext rfl]
  rfl

/-- Stage 182 on row r: the clamp at zero. -/
theorem row_v182 (r : Fin 65536) : row (val_main_v182 (F := Ideal) x0 x1 x2 x3 x4 x5 x6 x7 x8 x9 x10 x11 x12 x13 x14 x15 x16 x17) r = fun j => max (row (val_main_v181 (F := Ideal) x0 x1 x2 x3 x4 x5 x6 x7 x8 x9 x10 x11 x12 x13 x14 x15 x16 x17) r j) 0 := by
  funext j
  show (val_main_v182 (F := Ideal) x0 x1 x2 x3 x4 x5 x6 x7 x8 x9 x10 x11 x12 x13 x14 x15 x16 x17) (ix2 r j) = _
  rw [val_main_v182_apply, val_main_call0_v0_apply, val_main_call0_cst_apply]
  show max ((val_main_v181 (F := Ideal) x0 x1 x2 x3 x4 x5 x6 x7 x8 x9 x10 x11 x12 x13 x14 x15 x16 x17) (ix2 r j)) (Ideal.ofBits .f32 0x00000000#32) = max ((val_main_v181 (F := Ideal) x0 x1 x2 x3 x4 x5 x6 x7 x8 x9 x10 x11 x12 x13 x14 x15 x16 x17) (ix2 r j)) 0
  rw [Ideal.ofBits_zero_f32]

/-- Stages 183 to 187 on row r: the last linear map. -/
theorem row_v187 (r : Fin 65536) : row (val_main_v187 (F := Ideal) x0 x1 x2 x3 x4 x5 x6 x7 x8 x9 x10 x11 x12 x13 x14 x15 x16 x17 x18 x19) r = lin (row (val_main_v182 (F := Ideal) x0 x1 x2 x3 x4 x5 x6 x7 x8 x9 x10 x11 x12 x13 x14 x15 x16 x17) r) (mat x18) (vec x19) := by
  funext j
  show (val_main_v187 (F := Ideal) x0 x1 x2 x3 x4 x5 x6 x7 x8 x9 x10 x11 x12 x13 x14 x15 x16 x17 x18 x19) (ix2 r j) = _
  rw [val_main_v187_apply, val_main_v184_apply, val_main_v186_apply, val_main_v185_apply]
  refine congrArg₂ (· + ·) (Finset.sum_congr rfl fun k _ => ?_) (congrArg x19 (idx1_ext rfl))
  rw [val_main_v183_apply]
  exact congrArg₂ (· * ·) (congrArg (val_main_v182 (F := Ideal) x0 x1 x2 x3 x4 x5 x6 x7 x8 x9 x10 x11 x12 x13 x14 x15 x16 x17) (idx2_ext rfl rfl)) (congrArg x18 (idx2_ext rfl rfl))

/-! ### The whole program -/

/-- Row r of the result is the network with the one-key attention weights on row r of the two feature arrays. -/
theorem ref_row (r : Fin 65536) : row (val_main_v187 (F := Ideal) x0 x1 x2 x3 x4 x5 x6 x7 x8 x9 x10 x11 x12 x13 x14 x15 x16 x17 x18 x19) r = outR (paramsOf x2 x3 x4 x5 x6 x7 x8 x9 x10 x11 x12 x13 x14 x15 x16 x17 x18 x19) (row x0 r) (row x1 r) := by
  rw [row_v187, row_v182, row_v181, row_v157, row_v152, row_v104, row_v99, row_v68, row_v74, row_v80, row_v151, row_v146,
    row_v115, row_v121, row_v127, row_v28, row_v57, row_v4, row_v33]
  rfl

theorem ref_eq : val_main_v187 (F := Ideal) x0 x1 x2 x3 x4 x5 x6 x7 x8 x9 x10 x11 x12 x13 x14 x15 x16 x17 x18 x19 = GR x0 x1 x2 x3 x4 x5 x6 x7 x8 x9 x10 x11 x12 x13 x14 x15 x16 x17 x18 x19 := by
  funext i
  obtain ⟨a, b, rfl⟩ : ∃ (a : Fin 65536) (b : Fin 2), i = ix2 a b := ⟨i 0, i 1, eq_ix2 i⟩
  exact congrFun (ref_row x0 x1 x2 x3 x4 x5 x6 x7 x8 x9 x10 x11 x12 x13 x14 x15 x16 x17 x18 x19 a) b

end Cert.RefRows

end
-- ==== Proof.OneKey.lean ====
/-
  The one-key attention weight is 1 at a real score, so the two forms of the network agree on real inputs
  and real weights.

  A softmax over a single key with score s is exp (s - s) / exp (s - s). At a real s this is 1 / 1 = 1; at an
  infinite s the difference s - s is not 0, so the argument needs the score to be a real number. The score is
  built from the inputs and the weights by sums, products, differences, division by the nonzero constants 256
  and root 64, and the inverse root of a variance plus a positive constant; each of these keeps real numbers
  real, and the variance of a real row is a nonnegative real, so the inverse root is taken of a positive real.
-/
import proofs.«175654_j61761629716762_1_alg».proof.Proof.Spec

noncomputable section

namespace Cert.Spec

open Idealize.ShloMosaic

/-! ### The four constants -/

/-- The word 0x43800000 denotes 256. -/
theorem c256_eq : c256 = ((256 : ℝ) : EReal) := by
  simp [Ideal.ofBits, Ideal.ieee, -EReal.coe_mul]; norm_num

/-- The word 0x42800000 denotes 64. -/
theorem c64_eq : c64 = ((64 : ℝ) : EReal) := by
  simp [Ideal.ofBits, Ideal.ieee, -EReal.coe_mul]; norm_num

/-- The word 0xFF800000 denotes minus infinity, the least extended real. -/
theorem negInf_eq : negInf = ⊥ := by
  simp [Ideal.ofBits, Ideal.ieee]

/-- The word 0x3727C5AC (sign 0, exponent field 110, a nonzero fraction) denotes a positive real. -/
theorem eps_pos : ∃ e : ℝ, 0 < e ∧ eps = (e : EReal) := by
  simp [Ideal.ofBits, Ideal.ieee, -EReal.coe_mul]

/-! ### Real numbers among the extended reals are closed under the ring operations -/

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A finite sum of reals is a real. -/
theorem IsReal.sum {n : ℕ} (f : Fin n → EReal) (h : ∀ k, IsReal (f k)) : IsReal (∑ k : Fin n, f k) :=
  Finset.sum_induction f IsReal (fun _ _ => IsReal.add) IsReal.zero (fun k _ => h k)

/-- The sum of the images of reals is the image of their sum. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- Division by a nonzero real keeps a real real. -/
theorem IsReal.div_coe {x : EReal} (hx : IsReal x) {c : ℝ} (hc : c ≠ 0) : IsReal (Ideal.div x (c : EReal)) := by
  rw [Ideal.div_coe hc]
  exact hx.mul (IsReal.coe _)

/-! ### Linear maps and the layer normalisation keep real rows real -/

theorem isReal_lin {K N : ℕ} (x : Fin K → EReal) (W : Fin N → Fin K → EReal) (b : Fin N → EReal)
    (hx : ∀ k, IsReal (x k)) (hW : ∀ j k, IsReal (W j k)) (hb : ∀ j, IsReal (b j)) (j : Fin N) :
    IsReal (lin x W b j) :=
  (IsReal.sum _ (fun k => (hx k).mul (hW j k))).add (hb j)

theorem isReal_mean (x : Fin 256 → EReal) (hx : ∀ j, IsReal (x j)) : IsReal (mean x) := by
  unfold mean
  rw [c256_eq]
  exact (IsReal.sum _ hx).div_coe (by norm_num)

/-- The mean square deviation of a real row is a nonnegative real: a sum of squares over 256. -/
theorem var_nonneg (x : Fin 256 → EReal) (hx : ∀ j, IsReal (x j)) :
    ∃ v : ℝ, 0 ≤ v ∧ var x = (v : EReal) := by
  obtain ⟨μ, hμ⟩ := isReal_mean x hx
  choose r hr using hx
  have hsq : ∀ j : Fin 256, (x j - mean x) * (x j - mean x) = (((r j - μ) * (r j - μ) : ℝ) : EReal) := by
    intro j
    rw [hr j, hμ, ← EReal.coe_sub, ← EReal.coe_mul]
  refine ⟨(∑ j : Fin 256, (r j - μ) * (r j - μ)) * (1 / 256), ?_, ?_⟩
  · exact mul_nonneg (Finset.sum_nonneg (fun j _ => mul_self_nonneg _)) (by norm_num)
  · unfold var
    rw [c256_eq, Ideal.div_coe (by norm_num : (256 : ℝ) ≠ 0), Finset.sum_congr rfl (fun j _ => hsq j), coe_sum,
      ← EReal.coe_mul]

/-- The inverse root of a positive real is a real. -/
theorem isReal_rsqrt_pos {r : ℝ} (hr : 0 < r) : IsReal (Ideal.rsqrt (r : EReal)) := by
  rw [Ideal.rsqrt_coe, if_neg (not_lt.mpr hr.le), if_neg hr.ne']
  exact IsReal.coe _

/-- The scale factor of the normalisation of a real row is a real: the variance plus the constant is positive. -/
theorem isReal_scale (x : Fin 256 → EReal) (hx : ∀ j, IsReal (x j)) : IsReal (Ideal.rsqrt (var x + eps)) := by
  obtain ⟨v, hv, hvx⟩ := var_nonneg x hx
  obtain ⟨e, he, hee⟩ := eps_pos
  rw [hvx, hee, ← EReal.coe_add]
  exact isReal_rsqrt_pos (add_pos_of_nonneg_of_pos hv he)

theorem isReal_ln (x g β : Fin 256 → EReal) (hx : ∀ j, IsReal (x j)) (hg : ∀ j, IsReal (g j))
    (hβ : ∀ j, IsReal (β j)) (j : Fin 256) : IsReal (ln x g β j) := by
  unfold ln
  exact ((((hx j).sub (isReal_mean x hx)).mul (isReal_scale x hx)).mul (hg j)).add (hβ j)

theorem isReal_hidB (P : Params) (hP : P.AllReal) (bio : Fin 32 → EReal) (hb : ∀ k, IsReal (bio k))
    (j : Fin 256) : IsReal (hidB P bio j) :=
  isReal_ln _ _ _ (isReal_lin _ _ _ hb hP.bioW hP.bioB) hP.g1 hP.β1 j

theorem isReal_hidT (P : Params) (hP : P.AllReal) (text : Fin 768 → EReal) (ht : ∀ k, IsReal (text k))
    (j : Fin 256) : IsReal (hidT P text j) :=
  isReal_ln _ _ _ (isReal_lin _ _ _ ht hP.textW hP.textB) hP.g2 hP.β2 j

theorem isReal_proj (P : Params) (hP : P.AllReal) (o : ℕ) (ho : o + 256 ≤ 768) (x : Fin 256 → EReal)
    (hx : ∀ j, IsReal (x j)) (j : Fin 256) : IsReal (proj P o ho x j) :=
  isReal_lin _ _ _ hx (fun j k => hP.inW (blk o ho j) k) (fun j => hP.inB (blk o ho j)) j

/-! ### The score of real rows is real, and the one-key weight at a real score is 1 -/

/-- The root of 64 is a nonzero real. -/
theorem sqrt_c64 : ∃ c : ℝ, c ≠ 0 ∧ Ideal.sqrt c64 = (c : EReal) := by
  refine ⟨Real.sqrt 64, (Real.sqrt_pos.mpr (by norm_num)).ne', ?_⟩
  rw [c64_eq, Ideal.sqrt_coe, if_neg (by norm_num)]

theorem isReal_score (q k : Fin 256 → EReal) (hq : ∀ j, IsReal (q j)) (hk : ∀ j, IsReal (k j)) (h : Fin 4) :
    IsReal (score q k h) := by
  obtain ⟨c, hc, hcc⟩ := sqrt_c64
  unfold score
  rw [hcc]
  exact (IsReal.sum _ (fun d => (hq _).mul (hk _))).div_coe hc

/-- At a real score s: the maximum of minus infinity and s is s, s - s = 0, exp 0 = 1 and 1 / 1 = 1. -/
theorem wgt_of_isReal {s : EReal} (hs : IsReal s) : wgt s = 1 := by
  obtain ⟨r, rfl⟩ := hs
  have hm : max negInf (max negInf (r : EReal)) = (r : EReal) := by
    rw [negInf_eq, max_eq_right bot_le, max_eq_right bot_le]
  unfold wgt
  rw [hm, ← EReal.coe_sub, sub_self, Ideal.exp_coe, Real.exp_zero, Ideal.div_coe one_ne_zero, ← EReal.coe_mul]
  norm_num

/-! ### The two forms of the network agree -/

theorem attnR_eq_attnK (P : Params) (hP : P.AllReal) (q kv : Fin 256 → EReal) (hq : ∀ j, IsReal (q j))
    (hkv : ∀ j, IsReal (kv j)) : attnR P q kv = attnK P kv := by
  unfold attnR attnK
  congr 1
  funext j
  rw [wgt_of_isReal (isReal_score _ _ (isReal_proj P hP _ _ q hq) (isReal_proj P hP _ _ kv hkv) _), one_mul]

theorem outR_eq_outK (P : Params) (hP : P.AllReal) (bio : Fin 32 → EReal) (text : Fin 768 → EReal)
    (hb : ∀ k, IsReal (bio k)) (ht : ∀ k, IsReal (text k)) : outR P bio text = outK P bio text := by
  unfold outR outK
  rw [attnR_eq_attnK P hP _ _ (isReal_hidB P hP bio hb) (isReal_hidT P hP text ht),
    attnR_eq_attnK P hP _ _ (isReal_hidT P hP text ht) (isReal_hidB P hP bio hb)]

end Cert.Spec

end
-- ==== Proof.FiniteInputs.lean ====
/-
  From the precondition to real inputs.

  The precondition is a rank-0 array of one bit: the conjunction, over the twenty float argument arrays, of
  "every entry x of the array has |x| < +∞". On the extended reals |x| is max x (-x), and the word 0x7F800000
  denotes ⊤. An extended real is ⊥, ⊤ or a real number; for ⊥ and for ⊤ the absolute value is ⊤, which is not
  below ⊤, so an entry that passes the test is a real number. The conjunction being 1 gives each array's test,
  each array's test being 1 gives the test at every index, and the test at an index gives a real entry.
-/
import proofs.«175654_j61761629716762_1_alg».proof.Pre_finite_inputs
import proofs.«175654_j61761629716762_1_alg».proof.Proof.Gen.Pre_finite_inputs
import proofs.«175654_j61761629716762_1_alg».proof.Proof.Spec
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs

/-- The rank-0 shape has one index. -/
instance : Subsingleton S_.Idx := ⟨fun a b => funext fun d => d.elim0⟩

/-- The word the entries are compared against denotes plus infinity. -/
theorem inf_word : Ideal.ofBits .f32 0x7F800000#32 = (⊤ : EReal) := by
  simp [Ideal.ofBits, Ideal.ieee]

/-- An extended real whose absolute value is below plus infinity is a real number:
    at ⊥ and at ⊤ the absolute value max x (-x) is ⊤. -/
theorem isReal_of_abs_lt_top (x : EReal) (h : max x (-x) < ⊤) : Cert.Spec.IsReal x := by
  induction x using EReal.rec with
  | bot => simp at h
  | coe r => exact ⟨r, rfl⟩
  | top => simp at h

/-- The same, with the test written as the one-bit comparison the precondition carries. -/
theorem isReal_of_cmp (x : EReal)
    (h : Ideal.cmp .olt (max x (-x)) (Ideal.ofBits .f32 0x7F800000#32) = 1#1) : Cert.Spec.IsReal x := by
  apply isReal_of_abs_lt_top
  rw [inf_word] at h
  by_contra hn
  simp [Ideal.cmp, hn] at h

/-- One array's test: if the conjunction over all indices of "|a i| < +∞" is 1, every entry of `a` is a real
    number. Stated for any shape and any reduction of it to the rank-0 shape. -/
theorem all_real {s : Shape} {axes : List (Fin s.rank)}
    (hb : S_.BroadcastsInDim s (![] : Fin 0 → Fin s.rank)) (hr : s.ReducesTo axes S_) (hu : 0 < S_.numel)
    (a : FVec Ideal s .f32) (j : S_.Idx)
    (e : Host.reduce IntOp.andi
          (cmpf .olt (Host.absf a) (broadcastInDim s ![] hb (constant (F := Ideal) S_ .f32 0x7F800000#32)))
          (constantI S_ 1 1#1) hr hu j = 1#1) :
    ∀ i, Cert.Spec.IsReal (a i) := by
  intro i
  -- the test at index i is 1; it is the comparison of max (a i) (-(a i)) with the constant, by unfolding
  have hi := Host.reduce_andi_all _ _ hr hu j e i
  exact isReal_of_cmp (a i) hi

/-- The precondition over twenty arrays gives, for each of them, that every entry is a real number. -/
theorem real_of_fn [Cert.Pre_finite_inputs.Facts] (a0 : FVec Ideal S65536x32 .f32) (a1 : FVec Ideal S65536x768 .f32) (a2 : FVec Ideal S256x32 .f32) (a3 : FVec Ideal S256 .f32) (a4 : FVec Ideal S256x768 .f32) (a5 : FVec Ideal S256 .f32) (a6 : FVec Ideal S256 .f32) (a7 : FVec Ideal S256 .f32) (a8 : FVec Ideal S256 .f32) (a9 : FVec Ideal S256 .f32) (a10 : FVec Ideal S768x256 .f32) (a11 : FVec Ideal S768 .f32) (a12 : FVec Ideal S256x256 .f32) (a13 : FVec Ideal S256 .f32) (a14 : FVec Ideal S256x512 .f32) (a15 : FVec Ideal S256 .f32) (a16 : FVec Ideal S256 .f32) (a17 : FVec Ideal S256 .f32) (a18 : FVec Ideal S2x256 .f32) (a19 : FVec Ideal S2 .f32)
    (h : Cert.Pre_finite_inputs.fn (F := Ideal) a0 a1 a2 a3 a4 a5 a6 a7 a8 a9 a10 a11 a12 a13 a14 a15 a16 a17 a18 a19 = fun _ => 1#1) :
    (∀ i, Cert.Spec.IsReal (a0 i)) ∧
      (∀ i, Cert.Spec.IsReal (a1 i)) ∧
      (∀ i, Cert.Spec.IsReal (a2 i)) ∧
      (∀ i, Cert.Spec.IsReal (a3 i)) ∧
      (∀ i, Cert.Spec.IsReal (a4 i)) ∧
      (∀ i, Cert.Spec.IsReal (a5 i)) ∧
      (∀ i, Cert.Spec.IsReal (a6 i)) ∧
      (∀ i, Cert.Spec.IsReal (a7 i)) ∧
      (∀ i, Cert.Spec.IsReal (a8 i)) ∧
      (∀ i, Cert.Spec.IsReal (a9 i)) ∧
      (∀ i, Cert.Spec.IsReal (a10 i)) ∧
      (∀ i, Cert.Spec.IsReal (a11 i)) ∧
      (∀ i, Cert.Spec.IsReal (a12 i)) ∧
      (∀ i, Cert.Spec.IsReal (a13 i)) ∧
      (∀ i, Cert.Spec.IsReal (a14 i)) ∧
      (∀ i, Cert.Spec.IsReal (a15 i)) ∧
      (∀ i, Cert.Spec.IsReal (a16 i)) ∧
      (∀ i, Cert.Spec.IsReal (a17 i)) ∧
      (∀ i, Cert.Spec.IsReal (a18 i)) ∧
      (∀ i, Cert.Spec.IsReal (a19 i)) := by
  -- the value at the one index of the rank-0 result
  have h0 := congrFun h ValueIdx.ix0
  -- the printed function is a left-nested conjunction of the twenty tests
  dsimp only [fn, fn_part1, fn_part2, fn_part3, fn_part4, fn_part5, Idealize.ShloMosaic.andi] at h0
  -- a conjunction of two bits is 1 exactly when both are; the outermost conjunct is the last array's test
  obtain ⟨h0, r19⟩ := IntOp.andi_eq_one.1 h0
  obtain ⟨h0, r18⟩ := IntOp.andi_eq_one.1 h0
  obtain ⟨h0, r17⟩ := IntOp.andi_eq_one.1 h0
  obtain ⟨h0, r16⟩ := IntOp.andi_eq_one.1 h0
  obtain ⟨h0, r15⟩ := IntOp.andi_eq_one.1 h0
  obtain ⟨h0, r14⟩ := IntOp.andi_eq_one.1 h0
  obtain ⟨h0, r13⟩ := IntOp.andi_eq_one.1 h0
  obtain ⟨h0, r12⟩ := IntOp.andi_eq_one.1 h0
  obtain ⟨h0, r11⟩ := IntOp.andi_eq_one.1 h0
  obtain ⟨h0, r10⟩ := IntOp.andi_eq_one.1 h0
  obtain ⟨h0, r9⟩ := IntOp.andi_eq_one.1 h0
  obtain ⟨h0, r8⟩ := IntOp.andi_eq_one.1 h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨h0, r2⟩ := IntOp.andi_eq_one.1 h0
  obtain ⟨r0, r1⟩ := IntOp.andi_eq_one.1 h0
  exact ⟨all_real _ _ _ a0 _ r0,
    all_real _ _ _ a1 _ r1,
    all_real _ _ _ a2 _ r2,
    all_real _ _ _ a3 _ r3,
    all_real _ _ _ a4 _ r4,
    all_real _ _ _ a5 _ r5,
    all_real _ _ _ a6 _ r6,
    all_real _ _ _ a7 _ r7,
    all_real _ _ _ a8 _ r8,
    all_real _ _ _ a9 _ r9,
    all_real _ _ _ a10 _ r10,
    all_real _ _ _ a11 _ r11,
    all_real _ _ _ a12 _ r12,
    all_real _ _ _ a13 _ r13,
    all_real _ _ _ a14 _ r14,
    all_real _ _ _ a15 _ r15,
    all_real _ _ _ a16 _ r16,
    all_real _ _ _ a17 _ r17,
    all_real _ _ _ a18 _ r18,
    all_real _ _ _ a19 _ r19⟩

end Cert.FiniteInputs
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.lean ====
/-
  The kernel computes, 1024 rows at a time, a small fusion network on two feature arrays: two linear maps each followed
  by a layer normalisation; each hidden row sent through the value projection and the output projection of a one-key
  attention; the two branches joined, a linear map, a layer normalisation, a clamp at zero and a last linear map. The
  reference computes the same network on whole arrays and keeps the attention's softmax over its single key.

  On the extended reals the two agree wherever the attention scores are real numbers: the softmax weight of a single
  key with a real score is exp 0 / exp 0 = 1. Finite inputs make every score real (sums and products of reals, a
  variance that is a nonnegative real plus a positive constant under the inverse root), and that is the only place the
  precondition is used.

  The pieces: `Spec` (the network, one row at a time, with and without the weight), `OneKey` (the two forms agree on
  real inputs), `Arrays` (the result as one function of the twenty arrays), `KernelRow` / `KernelArray` (what the
  kernel's run leaves is that function without the weight), `RefRows` (the reference's run leaves it with the weight),
  `FiniteInputs` (the precondition makes every input entry real). `LibHostRead` collects general index lemmas about
  host layout operations and plain matrix products; it is imported so that it is checked with the rest.
-/
import proofs.«175654_j61761629716762_1_alg».proof.Defs
import proofs.«175654_j61761629716762_1_alg».proof.Proof.Gen.Kernel
import proofs.«175654_j61761629716762_1_alg».proof.Proof.Gen.Kernel.Skeleton
import proofs.«175654_j61761629716762_1_alg».proof.Proof.Gen.Kernel.Launch
import proofs.«175654_j61761629716762_1_alg».proof.Proof.Gen.Kernel.Points
import proofs.«175654_j61761629716762_1_alg».proof.Proof.Gen.Kernel.Frame
import proofs.«175654_j61761629716762_1_alg».proof.Proof.Gen.KernelIdeal
import proofs.«175654_j61761629716762_1_alg».proof.Proof.Gen.KernelIdeal.Skeleton
import proofs.«175654_j61761629716762_1_alg».proof.Proof.Gen.KernelIdeal.Launch
import proofs.«175654_j61761629716762_1_alg».proof.Proof.Gen.KernelIdeal.Points
import proofs.«175654_j61761629716762_1_alg».proof.Proof.Gen.KernelIdeal.Frame
import proofs.«175654_j61761629716762_1_alg».proof.Proof.Gen.ReferenceIdeal
import proofs.«175654_j61761629716762_1_alg».proof.Proof.Gen.Pre_finite_inputs
import proofs.«175654_j61761629716762_1_alg».proof.Proof.Gen.KernelIdeal.Value
import proofs.«175654_j61761629716762_1_alg».proof.Proof.RefLink
import proofs.«175654_j61761629716762_1_alg».proof.Proof.KernelArray
import proofs.«175654_j61761629716762_1_alg».proof.Proof.RefRows
import proofs.«175654_j61761629716762_1_alg».proof.Proof.OneKey
import proofs.«175654_j61761629716762_1_alg».proof.Proof.FiniteInputs
import proofs.«175654_j61761629716762_1_alg».proof.Proof.LibHostRead
import Idealize.ShloMosaic.Adequacy
import Idealize.ShloMosaic.Init

noncomputable section

namespace Cert.Proof

open Idealize.ShloMosaic Idealize.SL.Sem Cert.Spec Cert.RowOps Cert.Arrays

/-- Real weight arrays make a bundle of real weights (only the weights that feed the scores are needed). -/
theorem allReal_paramsOf (a0 : (⟨2, ![65536, 32]⟩ : Shape).Idx → EReal) (a1 : (⟨2, ![65536, 768]⟩ : Shape).Idx → EReal) (a2 : (⟨2, ![256, 32]⟩ : Shape).Idx → EReal) (a3 : (⟨1, ![256]⟩ : Shape).Idx → EReal) (a4 : (⟨2, ![256, 768]⟩ : Shape).Idx → EReal) (a5 : (⟨1, ![256]⟩ : Shape).Idx → EReal) (a6 : (⟨1, ![256]⟩ : Shape).Idx → EReal) (a7 : (⟨1, ![256]⟩ : Shape).Idx → EReal) (a8 : (⟨1, ![256]⟩ : Shape).Idx → EReal) (a9 : (⟨1, ![256]⟩ : Shape).Idx → EReal) (a10 : (⟨2, ![768, 256]⟩ : Shape).Idx → EReal) (a11 : (⟨1, ![768]⟩ : Shape).Idx → EReal) (a12 : (⟨2, ![256, 256]⟩ : Shape).Idx → EReal) (a13 : (⟨1, ![256]⟩ : Shape).Idx → EReal) (a14 : (⟨2, ![256, 512]⟩ : Shape).Idx → EReal) (a15 : (⟨1, ![256]⟩ : Shape).Idx → EReal) (a16 : (⟨1, ![256]⟩ : Shape).Idx → EReal) (a17 : (⟨1, ![256]⟩ : Shape).Idx → EReal) (a18 : (⟨2, ![2, 256]⟩ : Shape).Idx → EReal) (a19 : (⟨1, ![2]⟩ : Shape).Idx → EReal)
    (h2 : ∀ i, IsReal (a2 i)) (h3 : ∀ i, IsReal (a3 i)) (h4 : ∀ i, IsReal (a4 i)) (h5 : ∀ i, IsReal (a5 i)) (h6 : ∀ i, IsReal (a6 i)) (h7 : ∀ i, IsReal (a7 i)) (h8 : ∀ i, IsReal (a8 i)) (h9 : ∀ i, IsReal (a9 i)) (h10 : ∀ i, IsReal (a10 i)) (h11 : ∀ i, IsReal (a11 i)) :
    (paramsOf a2 a3 a4 a5 a6 a7 a8 a9 a10 a11 a12 a13 a14 a15 a16 a17 a18 a19).AllReal where
  bioW := fun _ _ => h2 _
  bioB := fun _ => h3 _
  textW := fun _ _ => h4 _
  textB := fun _ => h5 _
  g1 := fun _ => h6 _
  β1 := fun _ => h7 _
  g2 := fun _ => h8 _
  β2 := fun _ => h9 _
  inW := fun _ _ => h10 _
  inB := fun _ => h11 _

/-- On real inputs the result with the one-key attention weights is the result without them. -/
theorem GR_eq_GK (a0 : (⟨2, ![65536, 32]⟩ : Shape).Idx → EReal) (a1 : (⟨2, ![65536, 768]⟩ : Shape).Idx → EReal) (a2 : (⟨2, ![256, 32]⟩ : Shape).Idx → EReal) (a3 : (⟨1, ![256]⟩ : Shape).Idx → EReal) (a4 : (⟨2, ![256, 768]⟩ : Shape).Idx → EReal) (a5 : (⟨1, ![256]⟩ : Shape).Idx → EReal) (a6 : (⟨1, ![256]⟩ : Shape).Idx → EReal) (a7 : (⟨1, ![256]⟩ : Shape).Idx → EReal) (a8 : (⟨1, ![256]⟩ : Shape).Idx → EReal) (a9 : (⟨1, ![256]⟩ : Shape).Idx → EReal) (a10 : (⟨2, ![768, 256]⟩ : Shape).Idx → EReal) (a11 : (⟨1, ![768]⟩ : Shape).Idx → EReal) (a12 : (⟨2, ![256, 256]⟩ : Shape).Idx → EReal) (a13 : (⟨1, ![256]⟩ : Shape).Idx → EReal) (a14 : (⟨2, ![256, 512]⟩ : Shape).Idx → EReal) (a15 : (⟨1, ![256]⟩ : Shape).Idx → EReal) (a16 : (⟨1, ![256]⟩ : Shape).Idx → EReal) (a17 : (⟨1, ![256]⟩ : Shape).Idx → EReal) (a18 : (⟨2, ![2, 256]⟩ : Shape).Idx → EReal) (a19 : (⟨1, ![2]⟩ : Shape).Idx → EReal)
    (h0 : ∀ i, IsReal (a0 i)) (h1 : ∀ i, IsReal (a1 i)) (h2 : ∀ i, IsReal (a2 i)) (h3 : ∀ i, IsReal (a3 i)) (h4 : ∀ i, IsReal (a4 i)) (h5 : ∀ i, IsReal (a5 i)) (h6 : ∀ i, IsReal (a6 i)) (h7 : ∀ i, IsReal (a7 i)) (h8 : ∀ i, IsReal (a8 i)) (h9 : ∀ i, IsReal (a9 i)) (h10 : ∀ i, IsReal (a10 i)) (h11 : ∀ i, IsReal (a11 i)) :
    GR a0 a1 a2 a3 a4 a5 a6 a7 a8 a9 a10 a11 a12 a13 a14 a15 a16 a17 a18 a19 = GK a0 a1 a2 a3 a4 a5 a6 a7 a8 a9 a10 a11 a12 a13 a14 a15 a16 a17 a18 a19 := by
  funext i
  exact congrFun (outR_eq_outK _ (allReal_paramsOf a0 a1 a2 a3 a4 a5 a6 a7 a8 a9 a10 a11 a12 a13 a14 a15 a16 a17 a18 a19 h2 h3 h4 h5 h6 h7 h8 h9 h10 h11) _ _
    (fun _ => h0 _) (fun _ => h1 _)) (i 1)

/-- The kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on finite arguments the two runs end with the same result: the kernel's is `GK` of the
    arguments, the reference's `GR` of them, and on real inputs these are one function. -/
theorem algebraic : Cert.algebraic_KernelIdeal_ReferenceIdeal := by
  intro m ρ m' ρ' hpre hagree
  refine ⟨fun c => GK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19⟩ := hagree c
  obtain ⟨r0, r1, r2, r3, r4, r5, r6, r7, r8, r9, r10, r11, r12, r13, r14, r15, r16, r17, r18, r19⟩ := Cert.FiniteInputs.real_of_fn _ _ _ _ _ _ _ _ _ _ _ _ _ _ _ _ _ _ _ _ (hpre c)
  rw [Cert.ReferenceIdeal.Read.val_main_v187_eq, Cert.RefRows.ref_eq, e0, e1, e2, e3, e4, e5, e6, e7, e8, e9, e10, e11, e12, e13, e14, e15, e16, e17, e18, e19]
  exact GR_eq_GK _ _ _ _ _ _ _ _ _ _ _ _ _ _ _ _ _ _ _ _ r0 r1 r2 r3 r4 r5 r6 r7 r8 r9 r10 r11

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
